-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part2 {F : FTy → Type} [FloatOps F] (main_arg7 : FVec F S32 .f32) (main_arg8 : FVec F S32x32 .f32) (main_arg9 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  main_v48

def fn_part1 {F : FTy → Type} [FloatOps F] (main_arg4 : FVec F S32 .f32) (main_arg5 : FVec F S32 .f32) (main_arg6 : FVec F S32x32 .f32) (main_arg7 : FVec F S32 .f32) (main_arg8 : FVec F S32x32 .f32) (main_arg9 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x32 .f32) (main_arg3 : FVec F S32 .f32) (main_arg4 : FVec F S32 .f32) (main_arg5 : FVec F S32 .f32) (main_arg6 : FVec F S32x32 .f32) (main_arg7 : FVec F S32 .f32) (main_arg8 : FVec F S32x32 .f32) (main_arg9 : FVec F S32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S1x32 : Shape := ⟨2, ![1, 32]⟩
abbrev S10000x32 : Shape := ⟨2, ![10000, 32]⟩
abbrev S200x10000 : Shape := ⟨2, ![200, 10000]⟩
abbrev S200x32 : Shape := ⟨2, ![200, 32]⟩

abbrev nBuf : Space → Nat
  | .hbm => 17
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S1x32, .f32⟩
  | .hbm, ⟨11, _⟩ => ⟨S1x32, .f32⟩
  | .hbm, ⟨12, _⟩ => ⟨S1x32, .f32⟩
  | .hbm, ⟨13, _⟩ => ⟨S1x32, .f32⟩
  | .hbm, ⟨14, _⟩ => ⟨S1x32, .f32⟩
  | .hbm, ⟨15, _⟩ => ⟨S10000x32, .f32⟩
  | .hbm, ⟨16, _⟩ => ⟨S10000x32, .f32⟩
  | .local _ .vmem, ⟨0, _⟩ => ⟨S10000x128, .f32⟩
  | .local _ .vmem, ⟨1, _⟩ => ⟨S200x10000, .f32⟩
  | .local _ .vmem, ⟨2, _⟩ => ⟨S200x10000, .f32⟩
  | .local _ .vmem, ⟨3, _⟩ => ⟨S128x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | .local _ .vmem, ⟨7, _⟩ => ⟨S32x32, .f32⟩
  | .local _ .vmem, ⟨8, _⟩ => ⟨S1x32, .f32⟩
  | .local _ .vmem, ⟨9, _⟩ => ⟨S32x32, .f32⟩
  | .local _ .vmem, ⟨10, _⟩ => ⟨S1x32, .f32⟩
  | .local _ .vmem, ⟨11, _⟩ => ⟨S10000x32, .f32⟩
  | .local _ .vmem, ⟨12, _⟩ => ⟨S10000x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12

abbrev nD : Nat := 1
abbrev τ : Topo := Topo.v7x

variable {F : FTy → Type} [FloatOps F]

abbrev grid0 : Pipeline.Grid := ⟨1, ![101], ![false]⟩

def k0_cond2 (i : grid0.Coords) : BitVec 1 :=
  let arg0 : BitVec 32 := BitVec.ofNat 32 (i 0).val
  let c50_i32 : BitVec 32 := 50#32
  let v3 : BitVec 1 := Scalar.cmpi .slt arg0 c50_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c200_i32 : BitVec 32 := 200#32
  let v17 : BitVec 32 := Scalar.muli arg0 c200_i32
  let v18 : Index := Scalar.indexCast v17
  let c0_9 : Index := 0#32
  ![v18.toNat, 0]
def k0_cond3 (i : grid0.Coords) : BitVec 1 :=
  let arg0 : BitVec 32 := BitVec.ofNat 32 (i 0).val
  let c50_i32_2 : BitVec 32 := 50#32
  let v6 : BitVec 1 := Scalar.cmpi .sge arg0 c50_i32_2
  let c100_i32 : BitVec 32 := 100#32
  let v7 : BitVec 1 := Scalar.cmpi .slt arg0 c100_i32
  let v8 : BitVec 1 := Scalar.andi v6 v7
  let v9 : BitVec 32 := Scalar.extui v8
  let c0_i32_3 : BitVec 32 := 0#32
  let v10 : BitVec 1 := Scalar.cmpi .ne v9 c0_i32_3
  v10

def k0_off2 (i : grid0.Coords) : Fin 2 → Nat :=
  let arg0 : BitVec 32 := BitVec.ofNat 32 (i 0).val
  let c50_i32_6 : BitVec 32 := 50#32
  let v14 : BitVec 32 := Scalar.subi arg0 c50_i32_6
  let c200_i32 : BitVec 32 := 200#32
  let v18 : BitVec 32 := Scalar.muli v14 c200_i32
  let v19 : Index := Scalar.indexCast v18
  let c0_10 : Index := 0#32
  ![v19.toNat, 0]
def k0_cond4 (i : grid0.Coords) : BitVec 1 :=
  let arg0 : BitVec 32 := BitVec.ofNat 32 (i 0).val
  let c100_i32_4 : BitVec 32 := 100#32
  let v11 : BitVec 1 := Scalar.cmpi .eq arg0 c100_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c50_i32 : BitVec 32 := 50#32
  let v0 : BitVec 1 := Scalar.cmpi .slt arg0 c50_i32
  let c100_i32 : BitVec 32 := 100#32
  let v1 : BitVec 1 := Scalar.cmpi .slt arg0 c100_i32
  let c50_i32_0 : BitVec 32 := 50#32
  let v2 : BitVec 32 := Scalar.subi arg0 c50_i32_0
  let c49_i32 : BitVec 32 := 49#32
  let v3 : BitVec 32 := Scalar.select v1 v2 c49_i32
  let v4 : BitVec 32 := Scalar.select v0 arg0 v3
  let c0_i32 : BitVec 32 := 0#32
  let c0_i32_1 : BitVec 32 := 0#32
  ![v4.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S10000x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S10000x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

class Facts₀ : Prop where
  shapeCasts_S32_S1x32 : S32.ShapeCasts S1x32
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S200x10000_S200x10000_0_0 : ∀ a, (![0, 0] : Fin 2 → Nat) a + S200x10000.size a ≤ S200x10000.size a
  h_S200x10000 : 0 < S200x10000.numel
  h_S200x32 : 0 < S200x32.numel
  shapeCasts_S200x32_S200x32 : S200x32.ShapeCasts S200x32
  reduces_S10000x32_S32 : S10000x32.Reduces [0] S32
  inb_S32x32_S32x32_0_0 : ∀ a, (![0, 0] : Fin 2 → Nat) a + S32x32.size a ≤ S32x32.size a
  h_S32x32 : 0 < S32x32.numel
  dot_S10000x128_S128x32_S10000x32_1_0_0_1_n_n_wf : DotDims.WF S10000x128 S128x32 S10000x32 [1] [0] [0] [1] [] []
  dot_S200x10000_S10000x32_S200x32_1_0_0_1_n_n_wf : DotDims.WF S200x10000 S10000x32 S200x32 [1] [0] [0] [1] [] []
  dot_S10000x32_S32x32_S10000x32_1_0_0_1_n_n_wf : DotDims.WF S10000x32 S32x32 S10000x32 [1] [0] [0] [1] [] []
  hrank0 : 0 < grid0.rank
  k0_off1_inb : ∀ i : grid0.Coords, ∀ (k0_h2 : k0_cond2 i = 1#1), ∀ a, (k0_off1 i) a + S200x32.size a ≤ S10000x32.size a
  k0_off2_inb : ∀ i : grid0.Coords, ∀ (k0_h3 : k0_cond3 i = 1#1), ∀ a, (k0_off2 i) a + S200x32.size a ≤ S10000x32.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x32.size a ≤ S32x32.size a
  hwx0_8 : ∀ i : grid0.Coords, EltTy.bits .f32 = 32 ∨ (Rect.block (s := S32x32) S32x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S10000x32.size a ≤ S10000x32.size a
  hwx0_10 : ∀ i : grid0.Coords, EltTy.bits .f32 = 32 ∨ (Rect.block (s := S10000x32) S10000x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S10000x32.size a ≤ S10000x32.size a
  hwx0_11 : ∀ i : grid0.Coords, EltTy.bits .f32 = 32 ∨ (Rect.block (s := S10000x32) S10000x32.size (cc0_transform_11 i) (hinb0_11 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S200x10000_S10000x32_S200x32_1_0_0_1_n_n : DotDims S200x10000 S10000x32 S200x32 where
  lhsContracting := [1]
  rhsContracting := [0]
  lhsNonContracting := [0]
  rhsNonContracting := [1]
  lhsBatch := []
  rhsBatch := []
  wf := dot_S200x10000_S10000x32_S200x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5_0) S10000x32.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5_1) S10000x32.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond4 i == 1#1) | 11 => fun i => !(k0_cond4 i == 1#1) | ⟨_ + 12, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S10000x32 : Shape := ⟨2, ![10000, 32]⟩
abbrev S1x32 : Shape := ⟨2, ![1, 32]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S10000x32, .f32⟩
  | .hbm, ⟨11, _⟩ => ⟨S1x32, .f32⟩
  | .hbm, ⟨12, _⟩ => ⟨S10000x32, .f32⟩
  | .hbm, ⟨13, _⟩ => ⟨S10000x32, .f32⟩
  | .hbm, ⟨14, _⟩ => ⟨S_, .f32⟩
  | .hbm, ⟨15, _⟩ => ⟨S10000x32, .f32⟩
  | .hbm, ⟨16, _⟩ => ⟨S10000x32, .f32⟩
  | .hbm, ⟨17, _⟩ => ⟨S10000x32, .f32⟩
  | .hbm, ⟨18, _⟩ => ⟨S10000x32, .f32⟩
  | .hbm, ⟨19, _⟩ => ⟨S_, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .i32⟩
  | .hbm, ⟨25, _⟩ => ⟨S_, .f32⟩
  | .hbm, ⟨26, _⟩ => ⟨S32, .f32⟩
  | .hbm, ⟨27, _⟩ => ⟨S1x32, .f32⟩
  | .hbm, ⟨28, _⟩ => ⟨S_, .f32⟩
  | .hbm, ⟨29, _⟩ => ⟨S1x32, .f32⟩
  | .hbm, ⟨30, _⟩ => ⟨S1x32, .f32⟩
  | .hbm, ⟨31, _⟩ => ⟨S10000x32, .f32⟩
  | .hbm, ⟨32, _⟩ => ⟨S10000x32, .f32⟩
  | .hbm, ⟨33, _⟩ => ⟨S10000x32, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S_, .i1⟩
  | .hbm, ⟨43, _⟩ => ⟨S_, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S1x32, .f32⟩
  | .hbm, ⟨48, _⟩ => ⟨S10000x32, .f32⟩
  | .hbm, ⟨49, _⟩ => ⟨S10000x32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S32, .f32⟩
  | .hbm, ⟨54, _⟩ => ⟨S1x32, .f32⟩
  | .hbm, ⟨55, _⟩ => ⟨S10000x32, .f32⟩
  | .hbm, ⟨56, _⟩ => ⟨S10000x32, .f32⟩
  | .hbm, ⟨57, _⟩ => ⟨S1x32, .f32⟩
  | .hbm, ⟨58, _⟩ => ⟨S10000x32, .f32⟩
  | .hbm, ⟨59, _⟩ => ⟨S10000x32, .f32⟩
  | .hbm, ⟨60, _⟩ => ⟨S1x32, .f32⟩
  | .hbm, ⟨61, _⟩ => ⟨S10000x32, .f32⟩
  | .hbm, ⟨62, _⟩ => ⟨S10000x32, .f32⟩
  | .hbm, ⟨63, _⟩ => ⟨S10000x32, .f32⟩
  | .hbm, ⟨64, _⟩ => ⟨S1x32, .f32⟩
  | .hbm, ⟨65, _⟩ => ⟨S10000x32, .f32⟩
  | .hbm, ⟨66, _⟩ => ⟨S10000x32, .f32⟩
  | .hbm, ⟨67, _⟩ => ⟨S_, .f32⟩
  | .hbm, ⟨68, _⟩ => ⟨S10000x32, .f32⟩
  | .hbm, ⟨69, _⟩ => ⟨S10000x32, .f32⟩
  | .hbm, ⟨70, _⟩ => ⟨S10000x32, .f32⟩
  | .hbm, ⟨71, _⟩ => ⟨S1x32, .f32⟩
  | .hbm, ⟨72, _⟩ => ⟨S10000x32, .f32⟩
  | .hbm, ⟨73, _⟩ => ⟨S10000x32, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_call1_cst : Ref sig .tc := ⟨.hbm, 25, rfl⟩
abbrev main_call1_v0 : Ref sig .tc := ⟨.hbm, 26, rfl⟩
abbrev main_call1_v1 : Ref sig .tc := ⟨.hbm, 27, rfl⟩
abbrev main_call1_cst_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_cst_1 : Ref sig .tc := ⟨.hbm, 35, rfl⟩
abbrev main_call1_v8 : Ref sig .tc := ⟨.hbm, 36, rfl⟩
abbrev main_call1_cst_2 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_cst_3 : Ref sig .tc := ⟨.hbm, 41, rfl⟩
abbrev main_call1_v12 : Ref sig .tc := ⟨.hbm, 42, rfl⟩
abbrev main_call1_cst_4 : Ref sig .tc := ⟨.hbm, 43, rfl⟩
abbrev main_call1_call0_v0 : Ref sig .tc := ⟨.hbm, 44, rfl⟩
abbrev main_call1_call0_v1 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_cst_1 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_call2_cst : Ref sig .tc := ⟨.hbm, 67, rfl⟩
abbrev main_call2_v0 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  reducesTo_S10000x32_S32_d0 : S10000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x32_S10000x32_1_0_0_1_n_n_wf : DotDims.WF S10000x32 S32x32 S10000x32 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

class Facts : Prop extends Facts₀ where

variable [Facts]
-- ==== Proof.BBase.lean ====
/-
  The schedule of the fused kernel, in closed form over its 101 grid points.

  Point 0 computes the first dense layer into the first scratch; points 0..49 each store rows [200 t, 200 t + 200) of
  the first propagation into the second scratch; points 50..99 each store rows [200 (t - 50), 200 (t - 50) + 200) of
  the second propagation into the third scratch; point 100 normalises and projects into the two outputs.  Here: each
  branch condition as a statement about the point's number, the two row offsets as numbers, where the two output
  windows are idle, and the region's class invariant written over the three scratch buffers.
-/
import proofs.«151931_g16346645529038_cont_7to1_1029_4_alg».proof.Proof.Gen.Kernel.Frame
import proofs.«151931_g16346645529038_cont_7to1_1029_4_alg».proof.Proof.Gen.Kernel.Skeleton
import Idealize.ShloMosaic.Lib.Pipeline.Value
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first branch condition (the grid coordinate is 0), as the body computes it. -/
abbrev cond1 (i : grid0.Coords) : BitVec 1 :=
  Scalar.cmpi .ne (Scalar.extui (Scalar.cmpi .eq (BitVec.ofNat 32 (i 0).val) 0#32) : BitVec 32) 0#32

/-- The first branch is taken at point 0 only. -/
theorem hc1 : ∀ t : Fin cfg0.N, cond1 (grid0.coords t) = 1#1 ↔ t.val = 0 :=
  (by decide +kernel : ∀ t : Fin grid0.N, cond1 (grid0.coords t) = 1#1 ↔ t.val = 0)
/-- The second branch is taken at points 0..49. -/
theorem hc2 : ∀ t : Fin cfg0.N, k0_cond2 (grid0.coords t) = 1#1 ↔ t.val < 50 :=
  (by decide +kernel : ∀ t : Fin grid0.N, k0_cond2 (grid0.coords t) = 1#1 ↔ t.val < 50)
/-- The third branch is taken at points 50..99. -/
theorem hc3 : ∀ t : Fin cfg0.N, k0_cond3 (grid0.coords t) = 1#1 ↔ (50 ≤ t.val ∧ t.val < 100) :=
  (by decide +kernel : ∀ t : Fin grid0.N, k0_cond3 (grid0.coords t) = 1#1 ↔ (50 ≤ t.val ∧ t.val < 100))
/-- The fourth branch is taken at point 100 only. -/
theorem hc4 : ∀ t : Fin cfg0.N, k0_cond4 (grid0.coords t) = 1#1 ↔ t.val = 100 :=
  (by decide +kernel : ∀ t : Fin grid0.N, k0_cond4 (grid0.coords t) = 1#1 ↔ t.val = 100)

/-- At point t < 50 the second branch stores rows [200 t, 200 t + 200). -/
theorem hoff1 : ∀ t : Fin cfg0.N, t.val < 50 → k0_off1 (grid0.coords t) = ![200 * t.val, 0] :=
  (by decide +kernel : ∀ t : Fin grid0.N, t.val < 50 → k0_off1 (grid0.coords t) = ![200 * t.val, 0])
/-- At point 50 ≤ t < 100 the third branch stores rows [200 (t - 50), 200 (t - 50) + 200). -/
theorem hoff2 : ∀ t : Fin cfg0.N, 50 ≤ t.val → t.val < 100 → k0_off2 (grid0.coords t) = ![200 * (t.val - 50), 0] :=
  (by decide +kernel : ∀ t : Fin grid0.N, 50 ≤ t.val → t.val < 100 → k0_off2 (grid0.coords t) = ![200 * (t.val - 50), 0])

/-- Away from the last point both outputs are idle and are not written back. -/
theorem idle10 : ∀ t : Fin cfg0.N, ¬k0_cond4 (grid0.coords t) = 1#1 → cfg0.idle 10 (grid0.coords t) = true := by decide +kernel
theorem idle11 : ∀ t : Fin cfg0.N, ¬k0_cond4 (grid0.coords t) = 1#1 → cfg0.idle 11 (grid0.coords t) = true := by decide +kernel
theorem noFlush10 : ∀ t : Fin cfg0.N, ¬k0_cond4 (grid0.coords t) = 1#1 → (cfg0.win 10).flush t = false := by decide +kernel
theorem noFlush11 : ∀ t : Fin cfg0.N, ¬k0_cond4 (grid0.coords t) = 1#1 → (cfg0.win 11).flush t = false := by decide +kernel
/-- At the last point both outputs are live. -/
theorem live10 : ∀ t : Fin cfg0.N, k0_cond4 (grid0.coords t) = 1#1 → cfg0.idle 10 (grid0.coords t) = false := by decide +kernel
theorem live11 : ∀ t : Fin cfg0.N, k0_cond4 (grid0.coords t) = 1#1 → cfg0.idle 11 (grid0.coords t) = false := by decide +kernel
/-- The ten inputs are never idle. -/
theorem liveIn : ∀ (w : Fin 12), w.val < 10 → ∀ t : Fin cfg0.N, cfg0.idle w (grid0.coords t) = false := by decide +kernel

/-- The zero offsets of a whole-block rectangle. -/
theorem hz2 : (![0, 0] : Fin 2 → ℕ) = fun _ => 0 := by funext a; fin_cases a <;> rfl

/-- One store over the whole of a [10000, 32] buffer leaves its payload, whatever was there. -/
theorem read_whole_store (M : Memref sig .tc .vmem S10000x32 .f32) (f : M.view.ty.Contents (Elt F)) (w : Vec F S10000x32 .f32) :
    M.view.read (Elt F) (M.view.writes (Elt F) f
      [⟨Rect.unit (s := S10000x32) ![0, 0] S10000x32.size inb_S10000x32_S10000x32_0_0, w⟩]) = w := by
  funext y
  exact View.read_writes_cons_unit_of_mem M.view f inb_S10000x32_S10000x32_0_0 w [] y y hz2
    (fun a => (Nat.zero_add _).symm)

/-- Each window's current staging memref at point t, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x32 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x32 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S32x32 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x32 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S32x32 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x32 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S10000x32 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S10000x32 .f32 := win0_11.stage (cfg0.slots t 11)
abbrev hs11 (t : Fin cfg0.N) : (ms11 t).IsWhole := hstage0_11 ((cfg0.slots t 11).cast nbuf0_11)
/-- The three scratch buffers, whole. -/
abbrev sc0 : Memref sig .tc .vmem S10000x32 .f32 := Memref.whole cc0_scratch0
abbrev sc1 : Memref sig .tc .vmem S10000x32 .f32 := Memref.whole cc0_scratch1
abbrev sc2 : Memref sig .tc .vmem S10000x32 .f32 := Memref.whole cc0_scratch2

/-- The class invariant over the three scratch memrefs, each owned at some contents, and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

end Cert.Kernel.Body

end
-- ==== Proof.BState.lean ====
/-
  What the three scratch buffers hold along the grid, in closed form, and the pipeline's proof data.

  z1 is the dense layer of the blocks of point 0.  z2 at row y is the product of the adjacency block of point y / 200
  with z1, read at row y mod 200 of that block; z3 at row y likewise from the block of point 50 + y / 200 and z2.
  After n points the first scratch is z1 (once n > 0), the first 200·min(n, 50) rows of the second are z2's, and the
  first 200·(min(n, 100) − 50) rows of the third are z3's: a statement about contents only, which every point's body
  preserves.  At the last point the third scratch is z3 everywhere, and the two outputs are the normalisation of z3
  and the projection head of that.
-/
import proofs.«151931_g16346645529038_cont_7to1_1029_4_alg».proof.Proof.BBase
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The grid has 101 points. -/
theorem N101 : cfg0.N = 101 := N_0

/-- Point number n (read modulo 101, so that it is defined for every n). -/
def pt (n : ℕ) : Fin cfg0.N := ⟨n % 101, by rw [N101]; exact Nat.mod_lt _ (by decide)⟩
theorem pt_val (n : ℕ) (h : n < 101) : (pt n).val = n := Nat.mod_eq_of_lt h
theorem pt_eq (t : Fin cfg0.N) : pt t.val = t :=
  Fin.ext (Nat.mod_eq_of_lt (lt_of_lt_of_eq t.isLt N101))

/-- The position of row y within its block of 200 rows. -/
def rowIn (y : S10000x32.Idx) : S200x32.Idx :=
  ix2 ⟨(y 0).val % 200, Nat.mod_lt _ (by decide)⟩ ⟨(y 1).val, idx2_lt1 y⟩
theorem rowIn_val0 (y : S10000x32.Idx) : (rowIn y 0).val = (y 0).val % 200 := rfl
theorem rowIn_val1 (y : S10000x32.Idx) : (rowIn y 1).val = (y 1).val := rfl

/-- The dense layer, from the blocks of point 0. -/
def Z1 (c : Dev nD) : Vec F S10000x32 .f32 := k0_pay1 (iblk m c 0 (pt 0)) (iblk m c 2 (pt 0)) (iblk m c 3 (pt 0))
/-- The first propagation: row y from the adjacency block of point y / 200. -/
def Z2 (c : Dev nD) : Vec F S10000x32 .f32 := fun y => k0_pay2 (iblk m c 1 (pt ((y 0).val / 200))) (Z1 m c) (rowIn y)
/-- The second propagation: row y from the adjacency block of point 50 + y / 200. -/
def Z3 (c : Dev nD) : Vec F S10000x32 .f32 := fun y => k0_pay3 (iblk m c 1 (pt (50 + (y 0).val / 200))) (Z2 m c) (rowIn y)

/-- What the scratch buffers hold after n points. -/
def Inv (c : Dev nD) (n : ℕ) (s0 s1 s2 : Vec F S10000x32 .f32) : Prop :=
  (0 < n → s0 = Z1 m c)
  ∧ (∀ y : S10000x32.Idx, (y 0).val < 200 * min n 50 → s1 y = Z2 m c y)
  ∧ (∀ y : S10000x32.Idx, (y 0).val < 200 * (min n 100 - 50) → s2 y = Z3 m c y)

/-- The first output block at the last point: z3 normalised. -/
def OUT10 (c : Dev nD) (t : Fin cfg0.N) : Vec F S10000x32 .f32 := k0_pay5 (Z3 m c) (iblk m c 4 t) (iblk m c 5 t)
/-- The second output block at the last point: the projection head of the first. -/
def OUT11 (c : Dev nD) (t : Fin cfg0.N) : Vec F S10000x32 .f32 :=
  k0_pay4 (k0_pay6 (Z3 m c) (iblk m c 4 t) (iblk m c 5 t) (iblk m c 6 t) (iblk m c 7 t)) (iblk m c 8 t)
    (constant S10000x32 .f32 0x00000000#32) (iblk m c 9 t)

/-- The region invariant before point n: the three scratch buffers owned at contents satisfying Inv at n, and the
    generator register at some state. -/
def Phi (c : Dev nD) (n : ℕ) : sProp 𝕄 :=
  iprop(∃ s0 s1 s2, ⌜Inv m c n s0 s1 s2⌝ ∗ owns (c : Thread nD τ) sc0 fullShare s0 ∗ owns (c : Thread nD τ) sc1 fullShare s1
    ∗ owns (c : Thread nD τ) sc2 fullShare s2 ∗ (∃ r, prngReg c r))

/-- The proof data of the one pipeline on core c: the arrays as the region finds them; after the body each input's
    buffer at its block and the two outputs' at the last point's results; the invariant above; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => OUT10 m c t
    | ⟨11, _⟩ => OUT11 m c t
  Φ t := Phi m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val := by
  dsimp only [dats]; simp only [Fin.coe_castSucc]
theorem Phi_succ (c : Dev nD) (t : Fin cfg0.N) : (dats m 0 c).Φ t.succ = Phi m c (t.val + 1) := by
  dsimp only [dats]; simp only [Fin.val_succ]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = OUT10 m c t := by dsimp only [dats]
theorem after11 (c : Dev nD) (t : Fin cfg0.N) : (dats m 0 c).after 11 t = OUT11 m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

end Cert.Kernel.Body

end
-- ==== Proof.BInv.lean ====
/-
  Each point's stores preserve the statement of what the scratch buffers hold.

  A store over the whole buffer leaves its payload.  A store of 200 whole rows [o, o + 200) leaves its payload on those
  rows (row y reads the payload's row y − o) and the earlier contents elsewhere.  So: point 0 makes the first scratch z1
  and rows [0, 200) of the second z2's; a point 0 < t < 50 extends the second scratch's good rows from 200 t to
  200 (t + 1), since row y of the block of point t is row 200 t + y of z2; a point 50 ≤ t < 100 does the same for the
  third scratch with the block of point t and the second scratch, which by then is z2 everywhere.
-/
import proofs.«151931_g16346645529038_cont_7to1_1029_4_alg».proof.Proof.BState

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

section Stores

variable (M : Memref sig .tc .vmem S10000x32 .f32) (hM : M.IsWhole)

/-- One store of the 200 rows [o, o + 200): a row inside reads the payload at its position within the rows. -/
theorem read_rows_store_mem (s : Vec F S10000x32 .f32) {off : Fin 2 → ℕ}
    (inb : ∀ a : Fin 2, off a + S200x32.size a ≤ S10000x32.size a) (w : Vec F S200x32 .f32) (o : ℕ) (hoff : off = ![o, 0])
    (y : S10000x32.Idx) (x : S200x32.Idx) (hx0 : (y 0).val = o + (x 0).val) (hx1 : (y 1).val = (x 1).val) :
    M.view.read (Elt F) (M.view.writes (Elt F) (hM.unread s)
      [⟨Rect.unit (s := S10000x32) off S200x32.size inb, w⟩]) y = w x :=
  View.read_writes_cons_rows_of_mem M.view (hM.unread s) inb w [] y x hoff hx0 hx1

/-- … and a row outside reads what the buffer held. -/
theorem read_rows_store_not_mem (s : Vec F S10000x32 .f32) {off : Fin 2 → ℕ}
    (inb : ∀ a : Fin 2, off a + S200x32.size a ≤ S10000x32.size a) (w : Vec F S200x32 .f32) (o : ℕ) (hoff : off = ![o, 0])
    (y : S10000x32.Idx) (h : (y 0).val < o ∨ o + 200 ≤ (y 0).val) :
    M.view.read (Elt F) (M.view.writes (Elt F) (hM.unread s)
      [⟨Rect.unit (s := S10000x32) off S200x32.size inb, w⟩]) y = s y := by
  rw [View.read_writes_cons_rows_of_not_mem M.view (hM.unread s) inb w [] y hoff rfl h, View.writes_nil, hM.read_unread]

end Stores

/-- A row index is below 10000. -/
theorem row_lt (y : S10000x32.Idx) : (y 0).val < 10000 := idx2_lt0 y

/-- Storing the product of the block of point t < 50 with z1 into rows [200 t, 200 t + 200) of the second scratch
    extends its rows that are z2's from 200 t to 200 (t + 1). -/
theorem s1_step (c : Dev nD) (M : Memref sig .tc .vmem S10000x32 .f32) (hM : M.IsWhole) (t : Fin cfg0.N) (ht : t.val < 50)
    (s1 : Vec F S10000x32 .f32) (hs1 : ∀ y : S10000x32.Idx, (y 0).val < 200 * t.val → s1 y = Z2 m c y)
    (inb : ∀ a : Fin 2, k0_off1 (grid0.coords t) a + S200x32.size a ≤ S10000x32.size a)
    (y : S10000x32.Idx) (hy : (y 0).val < 200 * (t.val + 1)) :
    M.view.read (Elt F) (M.view.writes (Elt F) (hM.unread s1)
      [⟨Rect.unit (s := S10000x32) (k0_off1 (grid0.coords t)) S200x32.size inb, k0_pay2 (iblk m c 1 t) (Z1 m c)⟩]) y
      = Z2 m c y := by
  by_cases hlo : (y 0).val < 200 * t.val
  · rw [read_rows_store_not_mem M hM s1 inb _ (200 * t.val) (hoff1 t ht) y (Or.inl hlo)]
    exact hs1 y hlo
  · have hq : (y 0).val / 200 = t.val := by omega
    rw [read_rows_store_mem M hM s1 inb _ (200 * t.val) (hoff1 t ht) y (rowIn y)
      (by rw [rowIn_val0]; omega) (by rw [rowIn_val1])]
    unfold Z2
    rw [hq, pt_eq]

/-- Storing the product of the block of point 50 ≤ t < 100 with z2 into rows [200 (t − 50), 200 (t − 50) + 200) of the
    third scratch extends its rows that are z3's from 200 (t − 50) to 200 (t − 49). -/
theorem s2_step (c : Dev nD) (M : Memref sig .tc .vmem S10000x32 .f32) (hM : M.IsWhole) (t : Fin cfg0.N) (h1 : 50 ≤ t.val) (h2 : t.val < 100)
    (s2 : Vec F S10000x32 .f32) (hs2 : ∀ y : S10000x32.Idx, (y 0).val < 200 * (t.val - 50) → s2 y = Z3 m c y)
    (inb : ∀ a : Fin 2, k0_off2 (grid0.coords t) a + S200x32.size a ≤ S10000x32.size a)
    (y : S10000x32.Idx) (hy : (y 0).val < 200 * (t.val + 1 - 50)) :
    M.view.read (Elt F) (M.view.writes (Elt F) (hM.unread s2)
      [⟨Rect.unit (s := S10000x32) (k0_off2 (grid0.coords t)) S200x32.size inb, k0_pay3 (iblk m c 1 t) (Z2 m c)⟩]) y
      = Z3 m c y := by
  by_cases hlo : (y 0).val < 200 * (t.val - 50)
  · rw [read_rows_store_not_mem M hM s2 inb _ (200 * (t.val - 50)) (hoff2 t h1 h2) y (Or.inl hlo)]
    exact hs2 y hlo
  · have hq : 50 + (y 0).val / 200 = t.val := by omega
    rw [read_rows_store_mem M hM s2 inb _ (200 * (t.val - 50)) (hoff2 t h1 h2) y (rowIn y)
      (by rw [rowIn_val0]; omega) (by rw [rowIn_val1])]
    unfold Z3
    rw [hq, pt_eq]

/-- Point 0: the whole store makes the first scratch z1, the row store makes rows [0, 200) of the second z2's. -/
theorem inv_stepA (c : Dev nD) (t : Fin cfg0.N) (ht : t.val = 0) (s0 s1 s2 : Vec F S10000x32 .f32)
    (inb : ∀ a : Fin 2, k0_off1 (grid0.coords t) a + S200x32.size a ≤ S10000x32.size a) :
    Inv m c (t.val + 1)
      (sc0.view.read (Elt F) (sc0.view.writes (Elt F) ((Memref.isWhole_whole cc0_scratch0).unread s0)
        [⟨Rect.unit (s := S10000x32) ![0, 0] S10000x32.size inb_S10000x32_S10000x32_0_0,
          k0_pay1 (iblk m c 0 t) (iblk m c 2 t) (iblk m c 3 t)⟩]))
      (sc1.view.read (Elt F) (sc1.view.writes (Elt F) ((Memref.isWhole_whole cc0_scratch1).unread s1)
        [⟨Rect.unit (s := S10000x32) (k0_off1 (grid0.coords t)) S200x32.size inb,
          k0_pay2 (iblk m c 1 t) (k0_pay1 (iblk m c 0 t) (iblk m c 2 t) (iblk m c 3 t))⟩]))
      s2 := by
  have ht0 : t = pt 0 := Fin.ext (by rw [ht]; rfl)
  have hz : k0_pay1 (iblk m c 0 t) (iblk m c 2 t) (iblk m c 3 t) = Z1 m c := by rw [ht0]; rfl
  rw [hz, read_whole_store sc0]
  refine ⟨fun _ => rfl, fun y hy => ?_, fun y hy => ?_⟩
  · exact s1_step m c sc1 (Memref.isWhole_whole _) t (by omega) s1 (fun y' hy' => by omega) inb y (by omega)
  · exfalso; omega

/-- A point 0 < t < 50. -/
theorem inv_stepB (c : Dev nD) (t : Fin cfg0.N) (h1 : 0 < t.val) (h2 : t.val < 50) (s0 s1 s2 : Vec F S10000x32 .f32)
    (hinv : Inv m c t.val s0 s1 s2)
    (inb : ∀ a : Fin 2, k0_off1 (grid0.coords t) a + S200x32.size a ≤ S10000x32.size a) :
    Inv m c (t.val + 1) s0
      (sc1.view.read (Elt F) (sc1.view.writes (Elt F) ((Memref.isWhole_whole cc0_scratch1).unread s1)
        [⟨Rect.unit (s := S10000x32) (k0_off1 (grid0.coords t)) S200x32.size inb, k0_pay2 (iblk m c 1 t) s0⟩]))
      s2 := by
  obtain ⟨i0, i1, i2⟩ := hinv
  have e0 : s0 = Z1 m c := i0 h1
  subst e0
  refine ⟨fun _ => rfl, fun y hy => ?_, fun y hy => ?_⟩
  · exact s1_step m c sc1 (Memref.isWhole_whole _) t h2 s1 (fun y' hy' => i1 y' (by omega)) inb y (by omega)
  · exfalso; omega

/-- A point 50 ≤ t < 100: by then the second scratch is z2 on every row. -/
theorem inv_stepC (c : Dev nD) (t : Fin cfg0.N) (h1 : 50 ≤ t.val) (h2 : t.val < 100) (s0 s1 s2 : Vec F S10000x32 .f32)
    (hinv : Inv m c t.val s0 s1 s2)
    (inb : ∀ a : Fin 2, k0_off2 (grid0.coords t) a + S200x32.size a ≤ S10000x32.size a) :
    Inv m c (t.val + 1) s0 s1
      (sc2.view.read (Elt F) (sc2.view.writes (Elt F) ((Memref.isWhole_whole cc0_scratch2).unread s2)
        [⟨Rect.unit (s := S10000x32) (k0_off2 (grid0.coords t)) S200x32.size inb, k0_pay3 (iblk m c 1 t) s1⟩])) := by
  obtain ⟨i0, i1, i2⟩ := hinv
  have e1 : s1 = Z2 m c := funext fun y => i1 y (by have := row_lt y; omega)
  subst e1
  refine ⟨fun _ => i0 (by omega), fun y hy => rfl, fun y hy => ?_⟩
  exact s2_step m c sc2 (Memref.isWhole_whole _) t h1 h2 s2 (fun y' hy' => i2 y' (by omega)) inb y (by omega)

/-- The last point stores nothing into the scratch buffers. -/
theorem inv_stepD (c : Dev nD) (t : Fin cfg0.N) (ht : t.val = 100) (s0 s1 s2 : Vec F S10000x32 .f32)
    (hinv : Inv m c t.val s0 s1 s2) : Inv m c (t.val + 1) s0 s1 s2 := by
  obtain ⟨i0, i1, i2⟩ := hinv
  exact ⟨fun _ => i0 (by omega), fun y hy => i1 y (by omega), fun y hy => i2 y (by omega)⟩

/-- At the last point the third scratch is z3 on every row. -/
theorem inv_last (c : Dev nD) (t : Fin cfg0.N) (ht : t.val = 100) (s0 s1 s2 : Vec F S10000x32 .f32)
    (hinv : Inv m c t.val s0 s1 s2) : s2 = Z3 m c :=
  funext fun y => hinv.2.2 y (by have := row_lt y; omega)

/-- Before the first point nothing is claimed. -/
theorem inv_zero (c : Dev nD) (s0 s1 s2 : Vec F S10000x32 .f32) : Inv m c 0 s0 s1 s2 :=
  ⟨fun h => absurd h (Nat.lt_irrefl 0), fun y hy => by exfalso; omega, fun y hy => by exfalso; omega⟩

end Cert.Kernel.Body

end
-- ==== Proof.BRunA.lean ====
/-
  The body at point 0: the first and the second branch run.  The first stores the dense layer max (x·W1 + b1) 0 over the
  whole first scratch; the second then loads that scratch back and stores the product of the point's 200 adjacency rows
  with it into rows [0, 200) of the second scratch.
-/
import proofs.«151931_g16346645529038_cont_7to1_1029_4_alg».proof.Proof.BBase

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The stores the body makes at point 0 into the first and the second scratch, found by running it, with the proof
    that from the inputs it reads and the two scratch buffers owned whole it runs to any continuation that takes them
    back, each scratch with its stores written over what it held. -/
noncomputable def runA (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : cond1 i = 1#1) (hc2 : k0_cond2 i = 1#1) (hc3 : ¬k0_cond3 i = 1#1) (hc4 : ¬k0_cond4 i = 1#1)
    (x : Vec F S10000x128 .f32) (w : Vec F S128x32 .f32) (b : Vec F S1x32 .f32) (xa : Vec F S200x10000 .f32) :
    Σ' (L0 : List (View.Piece (Elt F) S10000x32 .f32)), { L1 : List (View.Piece (Elt F) S10000x32 .f32) //
      ∀ (s0 s1 : Vec F S10000x32 .f32) (E : Set ℕ) (K : PUnit → sProp 𝕄),
        iprop(owns (c : Thread nD τ) arg1 fullShare x ∗ owns (c : Thread nD τ) arg3 fullShare w ∗ owns (c : Thread nD τ) arg4 fullShare b ∗ owns (c : Thread nD τ) arg2 fullShare xa ∗ owns (c : Thread nD τ) arg13 fullShare s0 ∗ owns (c : Thread nD τ) arg14 fullShare s1
            ∗ (iprop(owns (c : Thread nD τ) arg1 fullShare x ∗ owns (c : Thread nD τ) arg3 fullShare w ∗ owns (c : Thread nD τ) arg4 fullShare b ∗ owns (c : Thread nD τ) arg2 fullShare xa
                ∗ (arg13.view.loc (c : Thread nD τ) ↦[arg13.view.set]{fullShare} arg13.view.writes (Elt F) (harg13.unread s0) L0)
                ∗ (arg14.view.loc (c : Thread nD τ) ↦[arg14.view.set]{fullShare} arg14.view.writes (Elt F) (harg14.unread s1) L1)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun s0 s1 E K => ?run⟩
  case run =>
    simp only [cc0__fused_body_eq_skeleton]; unfold cc0__fused_body_skel
    unfold owns
    iintro ⟨⟨%f1, %hf1, H1⟩, ⟨%f3, %hf3, H3⟩, ⟨%f4, %hf4, H4⟩, ⟨%f2, %hf2, H2⟩, ⟨%f13, %hf13, H13⟩, ⟨%f14, %hf14, H14⟩, Hk⟩
    obtain rfl := harg1.eq_unread hf1; obtain rfl := harg3.eq_unread hf3; obtain rfl := harg4.eq_unread hf4
    obtain rfl := harg2.eq_unread hf2; obtain rfl := harg13.eq_unread hf13; obtain rfl := harg14.eq_unread hf14
    sl_exec (disch := first | exact hc1 | exact hc2 | exact hc3 | exact hc4)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H2]
    · iexists _; isplitr; · ipureintro; exact harg2.read_unread _
      iexact H2
    isplitl [H13]; · iexact H13
    iexact H14

/-- The store of point 0 into the first scratch: the dense layer, over the whole buffer. -/
theorem runA_pieces0 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : cond1 i = 1#1) (hc2 : k0_cond2 i = 1#1) (hc3 : ¬k0_cond3 i = 1#1) (hc4 : ¬k0_cond4 i = 1#1)
    (x : Vec F S10000x128 .f32) (w : Vec F S128x32 .f32) (b : Vec F S1x32 .f32) (xa : Vec F S200x10000 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 x w b xa).1
      = [⟨Rect.unit (s := S10000x32) ![0, 0] S10000x32.size inb_S10000x32_S10000x32_0_0, k0_pay1 x w b⟩] := by
  unfold runA
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, View.ld_unit_zero (S := S200x10000) hz2, View.ld_unit_zero (S := S10000x32) hz2, View.ld_unit_zero (S := S10000x128) hz2, View.ld_unit_zero (S := S128x32) hz2, View.ld_unit_zero (S := S1x32) hz2, View.ld_unit_zero (S := S32x32) hz2]

/-- The store of point 0 into the second scratch: the product of the adjacency block with the dense layer just
    stored (the load of the first scratch after its whole store reads that store's payload). -/
theorem runA_pieces1 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : cond1 i = 1#1) (hc2 : k0_cond2 i = 1#1) (hc3 : ¬k0_cond3 i = 1#1) (hc4 : ¬k0_cond4 i = 1#1)
    (x : Vec F S10000x128 .f32) (w : Vec F S128x32 .f32) (b : Vec F S1x32 .f32) (xa : Vec F S200x10000 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 x w b xa).2.1
      = [⟨Rect.unit (s := S10000x32) (k0_off1 i) S200x32.size (k0_off1_inb i hc2), k0_pay2 xa (k0_pay1 x w b)⟩] := by
  unfold runA
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, View.ld_unit_zero (S := S200x10000) hz2, View.ld_unit_zero (S := S10000x32) hz2, View.ld_unit_zero (S := S10000x128) hz2, View.ld_unit_zero (S := S128x32) hz2, View.ld_unit_zero (S := S1x32) hz2, View.ld_unit_zero (S := S32x32) hz2]
  rw [View.readCov_unit_zero (S := S10000x32) arg13.view hz2]

set_option maxHeartbeats 2000000 in
/-- The body at point 0, with what it leaves named: the first scratch with the dense layer written over it, the second
    with rows [off, off + 200) written. -/
theorem tripleA (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : cond1 i = 1#1) (hc2 : k0_cond2 i = 1#1) (hc3 : ¬k0_cond3 i = 1#1) (hc4 : ¬k0_cond4 i = 1#1)
    (x : Vec F S10000x128 .f32) (w : Vec F S128x32 .f32) (b : Vec F S1x32 .f32) (xa : Vec F S200x10000 .f32)
    (s0 s1 : Vec F S10000x32 .f32) (E : Set ℕ) (K : PUnit → sProp 𝕄) :
    iprop(owns (c : Thread nD τ) arg1 fullShare x ∗ owns (c : Thread nD τ) arg3 fullShare w ∗ owns (c : Thread nD τ) arg4 fullShare b ∗ owns (c : Thread nD τ) arg2 fullShare xa ∗ owns (c : Thread nD τ) arg13 fullShare s0 ∗ owns (c : Thread nD τ) arg14 fullShare s1
        ∗ (iprop(owns (c : Thread nD τ) arg1 fullShare x ∗ owns (c : Thread nD τ) arg3 fullShare w ∗ owns (c : Thread nD τ) arg4 fullShare b ∗ owns (c : Thread nD τ) arg2 fullShare xa
            ∗ owns (c : Thread nD τ) arg13 fullShare (arg13.view.read (Elt F) (arg13.view.writes (Elt F) (harg13.unread s0) [⟨Rect.unit (s := S10000x32) ![0, 0] S10000x32.size inb_S10000x32_S10000x32_0_0, k0_pay1 x w b⟩]))
            ∗ owns (c : Thread nD τ) arg14 fullShare (arg14.view.read (Elt F) (arg14.view.writes (Elt F) (harg14.unread s1) [⟨Rect.unit (s := S10000x32) (k0_off1 i) S200x32.size (k0_off1_inb i hc2), k0_pay2 xa (k0_pay1 x w b)⟩]))) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  have p0 := runA_pieces0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 x w b xa
  have p1 := runA_pieces1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 x w b xa
  generalize runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 x w b xa = R at p0 p1
  obtain ⟨L0, L1, hL⟩ := R
  dsimp only at p0 p1
  subst p0 p1
  have h := hL s0 s1 E K
  iintro ⟨H1, H3, H4, H2, H13, H14, Hk⟩
  iapply h
  isplitl [H1]; · iexact H1
  isplitl [H3]; · iexact H3
  isplitl [H4]; · iexact H4
  isplitl [H2]; · iexact H2
  isplitl [H13]; · iexact H13
  isplitl [H14]; · iexact H14
  iintro ⟨H1, H3, H4, H2, H13, H14⟩
  iapply Hk
  isplitl [H1]; · iexact H1
  isplitl [H3]; · iexact H3
  isplitl [H4]; · iexact H4
  isplitl [H2]; · iexact H2
  isplitl [H13]
  · unfold owns; iexists _; isplitr; swap; · iexact H13
    ipureintro; rfl
  unfold owns; iexists _; isplitr; swap; · iexact H14
  ipureintro; rfl

end Cert.Kernel.Body

end
-- ==== Proof.BRunB.lean ====
/-
  The body at a point 1 ≤ t < 50: only the second branch runs.  It loads the point's 200 rows of the adjacency and the
  whole first scratch, and stores their product into rows [200 t, 200 t + 200) of the second scratch.
-/
import proofs.«151931_g16346645529038_cont_7to1_1029_4_alg».proof.Proof.BBase

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The stores the body makes into the second scratch at such a point, found by running it, with the proof that from
    the adjacency block and the first two scratch buffers owned whole it runs to any continuation that takes them back,
    the second scratch with those stores written over what it held. -/
noncomputable def runB (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : ¬cond1 i = 1#1) (hc2 : k0_cond2 i = 1#1) (hc3 : ¬k0_cond3 i = 1#1) (hc4 : ¬k0_cond4 i = 1#1)
    (xa : Vec F S200x10000 .f32) (s0 : Vec F S10000x32 .f32) :
    { L1 : List (View.Piece (Elt F) S10000x32 .f32) //
      ∀ (s1 : Vec F S10000x32 .f32) (E : Set ℕ) (K : PUnit → sProp 𝕄),
        iprop(owns (c : Thread nD τ) arg2 fullShare xa ∗ owns (c : Thread nD τ) arg13 fullShare s0 ∗ owns (c : Thread nD τ) arg14 fullShare s1
            ∗ (iprop(owns (c : Thread nD τ) arg2 fullShare xa ∗ owns (c : Thread nD τ) arg13 fullShare s0
                ∗ (arg14.view.loc (c : Thread nD τ) ↦[arg14.view.set]{fullShare} arg14.view.writes (Elt F) (harg14.unread s1) L1)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun s1 E K => ?run⟩
  case run =>
    simp only [cc0__fused_body_eq_skeleton]; unfold cc0__fused_body_skel
    unfold owns
    iintro ⟨⟨%f2, %hf2, H2⟩, ⟨%f13, %hf13, H13⟩, ⟨%f14, %hf14, H14⟩, Hk⟩
    obtain rfl := harg2.eq_unread hf2; obtain rfl := harg13.eq_unread hf13; obtain rfl := harg14.eq_unread hf14
    sl_exec (disch := first | exact hc1 | exact hc2 | exact hc3 | exact hc4)
    sl_step
    iapply Hk
    isplitl [H2]
    · iexists _; isplitr; · ipureintro; exact harg2.read_unread _
      iexact H2
    isplitl [H13]
    · iexists _; isplitr; · ipureintro; exact harg13.read_unread _
      iexact H13
    iexact H14

/-- The one store of such a point: rows [off, off + 200) of the second scratch receive the product of the adjacency
    block with the first scratch. -/
theorem runB_pieces (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : ¬cond1 i = 1#1) (hc2 : k0_cond2 i = 1#1) (hc3 : ¬k0_cond3 i = 1#1) (hc4 : ¬k0_cond4 i = 1#1)
    (xa : Vec F S200x10000 .f32) (s0 : Vec F S10000x32 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 xa s0).1
      = [⟨Rect.unit (s := S10000x32) (k0_off1 i) S200x32.size (k0_off1_inb i hc2), k0_pay2 xa s0⟩] := by
  unfold runB
  dsimp only
  simp only [View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, View.ld_unit_zero (S := S200x10000) hz2, View.ld_unit_zero (S := S10000x32) hz2, View.ld_unit_zero (S := S10000x128) hz2, View.ld_unit_zero (S := S128x32) hz2, View.ld_unit_zero (S := S1x32) hz2, View.ld_unit_zero (S := S32x32) hz2]

/-- The body at such a point, with what it leaves named: the second scratch with the 200 rows written. -/
theorem tripleB (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : ¬cond1 i = 1#1) (hc2 : k0_cond2 i = 1#1) (hc3 : ¬k0_cond3 i = 1#1) (hc4 : ¬k0_cond4 i = 1#1)
    (xa : Vec F S200x10000 .f32) (s0 s1 : Vec F S10000x32 .f32) (E : Set ℕ) (K : PUnit → sProp 𝕄) :
    iprop(owns (c : Thread nD τ) arg2 fullShare xa ∗ owns (c : Thread nD τ) arg13 fullShare s0 ∗ owns (c : Thread nD τ) arg14 fullShare s1
        ∗ (iprop(owns (c : Thread nD τ) arg2 fullShare xa ∗ owns (c : Thread nD τ) arg13 fullShare s0
            ∗ owns (c : Thread nD τ) arg14 fullShare (arg14.view.read (Elt F) (arg14.view.writes (Elt F) (harg14.unread s1) [⟨Rect.unit (s := S10000x32) (k0_off1 i) S200x32.size (k0_off1_inb i hc2), k0_pay2 xa s0⟩]))) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  have h := (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 xa s0).2 s1 E K
  rw [runB_pieces] at h
  iintro ⟨H2, H13, H14, Hk⟩
  iapply h
  isplitl [H2]; · iexact H2
  isplitl [H13]; · iexact H13
  isplitl [H14]; · iexact H14
  iintro ⟨H2, H13, H14⟩
  iapply Hk
  isplitl [H2]; · iexact H2
  isplitl [H13]; · iexact H13
  unfold owns; iexists _; isplitr; swap; · iexact H14
  ipureintro; rfl

end Cert.Kernel.Body

end
-- ==== Proof.BRunC.lean ====
/-
  The body at a point 50 ≤ t < 100: only the third branch runs.  It loads the point's 200 rows of the adjacency and the
  whole second scratch, and stores their product into rows [200 (t - 50), 200 (t - 50) + 200) of the third scratch.
-/
import proofs.«151931_g16346645529038_cont_7to1_1029_4_alg».proof.Proof.BBase

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The stores the body makes into the third scratch at such a point, found by running it, with the proof that from
    the adjacency block and the last two scratch buffers owned whole it runs to any continuation that takes them back,
    the third scratch with those stores written over what it held. -/
noncomputable def runC (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : ¬cond1 i = 1#1) (hc2 : ¬k0_cond2 i = 1#1) (hc3 : k0_cond3 i = 1#1) (hc4 : ¬k0_cond4 i = 1#1)
    (xa : Vec F S200x10000 .f32) (s1 : Vec F S10000x32 .f32) :
    { L2 : List (View.Piece (Elt F) S10000x32 .f32) //
      ∀ (s2 : Vec F S10000x32 .f32) (E : Set ℕ) (K : PUnit → sProp 𝕄),
        iprop(owns (c : Thread nD τ) arg2 fullShare xa ∗ owns (c : Thread nD τ) arg14 fullShare s1 ∗ owns (c : Thread nD τ) arg15 fullShare s2
            ∗ (iprop(owns (c : Thread nD τ) arg2 fullShare xa ∗ owns (c : Thread nD τ) arg14 fullShare s1
                ∗ (arg15.view.loc (c : Thread nD τ) ↦[arg15.view.set]{fullShare} arg15.view.writes (Elt F) (harg15.unread s2) L2)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun s2 E K => ?run⟩
  case run =>
    simp only [cc0__fused_body_eq_skeleton]; unfold cc0__fused_body_skel
    unfold owns
    iintro ⟨⟨%f2, %hf2, H2⟩, ⟨%f14, %hf14, H14⟩, ⟨%f15, %hf15, H15⟩, Hk⟩
    obtain rfl := harg2.eq_unread hf2; obtain rfl := harg14.eq_unread hf14; obtain rfl := harg15.eq_unread hf15
    sl_exec (disch := first | exact hc1 | exact hc2 | exact hc3 | exact hc4)
    sl_step
    iapply Hk
    isplitl [H2]
    · iexists _; isplitr; · ipureintro; exact harg2.read_unread _
      iexact H2
    isplitl [H14]
    · iexists _; isplitr; · ipureintro; exact harg14.read_unread _
      iexact H14
    iexact H15

/-- The one store of such a point: rows [off, off + 200) of the third scratch receive the product of the adjacency
    block with the second scratch. -/
theorem runC_pieces (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : ¬cond1 i = 1#1) (hc2 : ¬k0_cond2 i = 1#1) (hc3 : k0_cond3 i = 1#1) (hc4 : ¬k0_cond4 i = 1#1)
    (xa : Vec F S200x10000 .f32) (s1 : Vec F S10000x32 .f32) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 xa s1).1
      = [⟨Rect.unit (s := S10000x32) (k0_off2 i) S200x32.size (k0_off2_inb i hc3), k0_pay3 xa s1⟩] := by
  unfold runC
  dsimp only
  simp only [View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, View.ld_unit_zero (S := S200x10000) hz2, View.ld_unit_zero (S := S10000x32) hz2, View.ld_unit_zero (S := S10000x128) hz2, View.ld_unit_zero (S := S128x32) hz2, View.ld_unit_zero (S := S1x32) hz2, View.ld_unit_zero (S := S32x32) hz2]

/-- The body at such a point, with what it leaves named: the third scratch with the 200 rows written. -/
theorem tripleC (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : ¬cond1 i = 1#1) (hc2 : ¬k0_cond2 i = 1#1) (hc3 : k0_cond3 i = 1#1) (hc4 : ¬k0_cond4 i = 1#1)
    (xa : Vec F S200x10000 .f32) (s1 s2 : Vec F S10000x32 .f32) (E : Set ℕ) (K : PUnit → sProp 𝕄) :
    iprop(owns (c : Thread nD τ) arg2 fullShare xa ∗ owns (c : Thread nD τ) arg14 fullShare s1 ∗ owns (c : Thread nD τ) arg15 fullShare s2
        ∗ (iprop(owns (c : Thread nD τ) arg2 fullShare xa ∗ owns (c : Thread nD τ) arg14 fullShare s1
            ∗ owns (c : Thread nD τ) arg15 fullShare (arg15.view.read (Elt F) (arg15.view.writes (Elt F) (harg15.unread s2) [⟨Rect.unit (s := S10000x32) (k0_off2 i) S200x32.size (k0_off2_inb i hc3), k0_pay3 xa s1⟩]))) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  have h := (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 xa s1).2 s2 E K
  rw [runC_pieces] at h
  iintro ⟨H2, H14, H15, Hk⟩
  iapply h
  isplitl [H2]; · iexact H2
  isplitl [H14]; · iexact H14
  isplitl [H15]; · iexact H15
  iintro ⟨H2, H14, H15⟩
  iapply Hk
  isplitl [H2]; · iexact H2
  isplitl [H14]; · iexact H14
  unfold owns; iexists _; isplitr; swap; · iexact H15
  ipureintro; rfl

end Cert.Kernel.Body

end
-- ==== Proof.BRunD.lean ====
/-
  The body at point 100: only the fourth branch runs.  It loads the whole third scratch, the two normalisation rows,
  the two projection matrices and their bias rows; stores the normalised features over the whole first output block,
  and the projection head applied to them over the whole second output block.
-/
import proofs.«151931_g16346645529038_cont_7to1_1029_4_alg».proof.Proof.BBase

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- The stores the body makes into the two output blocks at the last point, found by running it, with the proof that
    from the third scratch and the inputs it reads owned whole, and the two output blocks owned at any contents, it runs
    to any continuation that takes them back, each output block with its stores written. -/
noncomputable def runD (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : ¬cond1 i = 1#1) (hc2 : ¬k0_cond2 i = 1#1) (hc3 : ¬k0_cond3 i = 1#1) (hc4 : k0_cond4 i = 1#1)
    (s2 : Vec F S10000x32 .f32) (g be : Vec F S1x32 .f32) (wp1 : Vec F S32x32 .f32) (bp1 : Vec F S1x32 .f32)
    (wp2 : Vec F S32x32 .f32) (bp2 : Vec F S1x32 .f32) :
    Σ' (L10 : List (View.Piece (Elt F) S10000x32 .f32)), { L11 : List (View.Piece (Elt F) S10000x32 .f32) //
      ∀ (E : Set ℕ) (K : PUnit → sProp 𝕄),
        iprop(owns (c : Thread nD τ) arg15 fullShare s2 ∗ owns (c : Thread nD τ) arg5 fullShare g ∗ owns (c : Thread nD τ) arg6 fullShare be ∗ owns (c : Thread nD τ) arg7 fullShare wp1 ∗ owns (c : Thread nD τ) arg8 fullShare bp1 ∗ owns (c : Thread nD τ) arg9 fullShare wp2 ∗ owns (c : Thread nD τ) arg10 fullShare bp2
            ∗ (∃ d, owns (c : Thread nD τ) arg11 fullShare d) ∗ (∃ d, owns (c : Thread nD τ) arg12 fullShare d)
            ∗ (iprop(owns (c : Thread nD τ) arg15 fullShare s2 ∗ owns (c : Thread nD τ) arg5 fullShare g ∗ owns (c : Thread nD τ) arg6 fullShare be ∗ owns (c : Thread nD τ) arg7 fullShare wp1 ∗ owns (c : Thread nD τ) arg8 fullShare bp1 ∗ owns (c : Thread nD τ) arg9 fullShare wp2 ∗ owns (c : Thread nD τ) arg10 fullShare bp2
                ∗ (∃ f, (arg11.view.loc (c : Thread nD τ) ↦[arg11.view.set]{fullShare} arg11.view.writes (Elt F) f L10))
                ∗ (∃ f, (arg12.view.loc (c : Thread nD τ) ↦[arg12.view.set]{fullShare} arg12.view.writes (Elt F) f L11))) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__fused_body_eq_skeleton]; unfold cc0__fused_body_skel
    rw [k0_part1_eq_skeleton]; unfold k0_part1_skel
    unfold owns
    iintro ⟨⟨%f15, %hf15, H15⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
    obtain rfl := harg15.eq_unread hf15; obtain rfl := harg5.eq_unread hf5; obtain rfl := harg6.eq_unread hf6
    obtain rfl := harg7.eq_unread hf7; obtain rfl := harg8.eq_unread hf8; obtain rfl := harg9.eq_unread hf9
    obtain rfl := harg10.eq_unread hf10
    sl_exec (disch := first | exact hc1 | exact hc2 | exact hc3 | exact hc4)
    sl_step
    iapply Hk
    isplitl [H15]
    · iexists _; isplitr; · ipureintro; exact harg15.read_unread _
      iexact H15
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    iexists _; iexact H12

/-- The store of the last point into the first output block: the normalised third scratch, over the whole block. -/
theorem runD_pieces10 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : ¬cond1 i = 1#1) (hc2 : ¬k0_cond2 i = 1#1) (hc3 : ¬k0_cond3 i = 1#1) (hc4 : k0_cond4 i = 1#1)
    (s2 : Vec F S10000x32 .f32) (g be : Vec F S1x32 .f32) (wp1 : Vec F S32x32 .f32) (bp1 : Vec F S1x32 .f32)
    (wp2 : Vec F S32x32 .f32) (bp2 : Vec F S1x32 .f32) :
    (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 s2 g be wp1 bp1 wp2 bp2).1
      = [⟨Rect.unit (s := S10000x32) ![0, 0] S10000x32.size inb_S10000x32_S10000x32_0_0, k0_pay5 s2 g be⟩] := by
  unfold runD
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, View.ld_unit_zero (S := S200x10000) hz2, View.ld_unit_zero (S := S10000x32) hz2, View.ld_unit_zero (S := S10000x128) hz2, View.ld_unit_zero (S := S128x32) hz2, View.ld_unit_zero (S := S1x32) hz2, View.ld_unit_zero (S := S32x32) hz2]

/-- The store of the last point into the second output block: the projection head of the normalised third scratch. -/
theorem runD_pieces11 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : ¬cond1 i = 1#1) (hc2 : ¬k0_cond2 i = 1#1) (hc3 : ¬k0_cond3 i = 1#1) (hc4 : k0_cond4 i = 1#1)
    (s2 : Vec F S10000x32 .f32) (g be : Vec F S1x32 .f32) (wp1 : Vec F S32x32 .f32) (bp1 : Vec F S1x32 .f32)
    (wp2 : Vec F S32x32 .f32) (bp2 : Vec F S1x32 .f32) :
    (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 s2 g be wp1 bp1 wp2 bp2).2.1
      = [⟨Rect.unit (s := S10000x32) ![0, 0] S10000x32.size inb_S10000x32_S10000x32_0_0,
          k0_pay4 (k0_pay6 s2 g be wp1 bp1) wp2 (constant S10000x32 .f32 0x00000000#32) bp2⟩] := by
  unfold runD
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, View.ld_unit_zero (S := S200x10000) hz2, View.ld_unit_zero (S := S10000x32) hz2, View.ld_unit_zero (S := S10000x128) hz2, View.ld_unit_zero (S := S128x32) hz2, View.ld_unit_zero (S := S1x32) hz2, View.ld_unit_zero (S := S32x32) hz2]

set_option maxHeartbeats 2000000 in
/-- The body at the last point, with what it leaves named: the first output block at the normalised third scratch, the
    second at the projection head of that. -/
theorem tripleD (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : ¬cond1 i = 1#1) (hc2 : ¬k0_cond2 i = 1#1) (hc3 : ¬k0_cond3 i = 1#1) (hc4 : k0_cond4 i = 1#1)
    (s2 : Vec F S10000x32 .f32) (g be : Vec F S1x32 .f32) (wp1 : Vec F S32x32 .f32) (bp1 : Vec F S1x32 .f32)
    (wp2 : Vec F S32x32 .f32) (bp2 : Vec F S1x32 .f32) (E : Set ℕ) (K : PUnit → sProp 𝕄) :
    iprop(owns (c : Thread nD τ) arg15 fullShare s2 ∗ owns (c : Thread nD τ) arg5 fullShare g ∗ owns (c : Thread nD τ) arg6 fullShare be ∗ owns (c : Thread nD τ) arg7 fullShare wp1 ∗ owns (c : Thread nD τ) arg8 fullShare bp1 ∗ owns (c : Thread nD τ) arg9 fullShare wp2 ∗ owns (c : Thread nD τ) arg10 fullShare bp2
        ∗ (∃ d, owns (c : Thread nD τ) arg11 fullShare d) ∗ (∃ d, owns (c : Thread nD τ) arg12 fullShare d)
        ∗ (iprop(owns (c : Thread nD τ) arg15 fullShare s2 ∗ owns (c : Thread nD τ) arg5 fullShare g ∗ owns (c : Thread nD τ) arg6 fullShare be ∗ owns (c : Thread nD τ) arg7 fullShare wp1 ∗ owns (c : Thread nD τ) arg8 fullShare bp1 ∗ owns (c : Thread nD τ) arg9 fullShare wp2 ∗ owns (c : Thread nD τ) arg10 fullShare bp2
            ∗ owns (c : Thread nD τ) arg11 fullShare (k0_pay5 s2 g be)
            ∗ owns (c : Thread nD τ) arg12 fullShare (k0_pay4 (k0_pay6 s2 g be wp1 bp1) wp2 (constant S10000x32 .f32 0x00000000#32) bp2)) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  have p0 := runD_pieces10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 s2 g be wp1 bp1 wp2 bp2
  have p1 := runD_pieces11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 s2 g be wp1 bp1 wp2 bp2
  generalize runD c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 s2 g be wp1 bp1 wp2 bp2 = R at p0 p1
  obtain ⟨L0, L1, hL⟩ := R
  dsimp only at p0 p1
  subst p0 p1
  have h := hL E K
  iintro ⟨H15, H5, H6, H7, H8, H9, H10, H11, H12, Hk⟩
  iapply h
  isplitl [H15]; · iexact H15
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H15, H5, H6, H7, H8, H9, H10, ⟨%f11, H11⟩, ⟨%f12, H12⟩⟩
  iapply Hk
  isplitl [H15]; · iexact H15
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr; swap; · iexact H11
    ipureintro; exact read_whole_store arg11 _ _
  unfold owns; iexists _; isplitr; swap; · iexact H12
  ipureintro; exact read_whole_store arg12 _ _

end Cert.Kernel.Body

end
-- ==== Proof.BSound.lean ====
/-
  The body at any grid point meets the pipeline's obligation.

  The point's number decides which branches run.  In each case the body is handed the scratch buffers at contents
  satisfying the invariant at this point and the windows' buffers at their blocks, runs, and hands back the scratch
  buffers at contents satisfying the invariant at the next point, the inputs untouched, and — at the last point only —
  the two output blocks at the normalised z3 and its projection head (the third scratch being z3 everywhere by then).
  Away from the last point the outputs are idle: whatever they held is handed back.
-/
import proofs.«151931_g16346645529038_cont_7to1_1029_4_alg».proof.Proof.BInv
import proofs.«151931_g16346645529038_cont_7to1_1029_4_alg».proof.Proof.BRunA
import proofs.«151931_g16346645529038_cont_7to1_1029_4_alg».proof.Proof.BRunB
import proofs.«151931_g16346645529038_cont_7to1_1029_4_alg».proof.Proof.BRunC
import proofs.«151931_g16346645529038_cont_7to1_1029_4_alg».proof.Proof.BRunD

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem liveAt6 : ∀ t : Fin cfg0.N, cfg0.idle 6 (grid0.coords t) = false := by decide +kernel
theorem liveAt7 : ∀ t : Fin cfg0.N, cfg0.idle 7 (grid0.coords t) = false := by decide +kernel
theorem liveAt8 : ∀ t : Fin cfg0.N, cfg0.idle 8 (grid0.coords t) = false := by decide +kernel
theorem liveAt9 : ∀ t : Fin cfg0.N, cfg0.idle 9 (grid0.coords t) = false := by decide +kernel

/-- What the body is called with at point t: the invariant, the core's dues, each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl]
  rw [Phi_succ m c t, Phi_castSucc m c t]
  unfold Phi
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [show (dats m 0 c).leavesExact 6 t = owns (c : Thread nD τ) (ms6 t) fullShare ((dats m 0 c).after 6 t) from by
    unfold Dat.leavesExact; rw [liveAt6 t], after6]
  rw [show (dats m 0 c).leavesExact 7 t = owns (c : Thread nD τ) (ms7 t) fullShare ((dats m 0 c).after 7 t) from by
    unfold Dat.leavesExact; rw [liveAt7 t], after7]
  rw [show (dats m 0 c).leavesExact 8 t = owns (c : Thread nD τ) (ms8 t) fullShare ((dats m 0 c).after 8 t) from by
    unfold Dat.leavesExact; rw [liveAt8 t], after8]
  rw [show (dats m 0 c).leavesExact 9 t = owns (c : Thread nD τ) (ms9 t) fullShare ((dats m 0 c).after 9 t) from by
    unfold Dat.leavesExact; rw [liveAt9 t], after9]
  have hN : t.val < 101 := lt_of_lt_of_eq t.isLt N101
  by_cases hA : t.val = 0
  · -- point 0
    have c1 : cond1 (grid0.coords t) = 1#1 := (hc1 t).mpr hA
    have c2 : k0_cond2 (grid0.coords t) = 1#1 := (hc2 t).mpr (by omega)
    have c3 : ¬k0_cond3 (grid0.coords t) = 1#1 := fun h => by have := (hc3 t).mp h; omega
    have c4 : ¬k0_cond4 (grid0.coords t) = 1#1 := fun h => by have := (hc4 t).mp h; omega
    rw [Dat.leavesExact_idle (dats m 0 c) 10 t (idle10 t c4) (noFlush10 t c4), Dat.leavesExact_idle (dats m 0 c) 11 t (idle11 t c4) (noFlush11 t c4)]
    iintro ⟨⟨%s0, %s1, %s2, %hinv, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (tripleA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) c1 c2 c3 c4 (iblk m c 0 t) (iblk m c 2 t) (iblk m c 3 t) (iblk m c 1 t) s0 s1 Set.univ _)
    isplitl [H0]; · iexact H0
    isplitl [H2]; · iexact H2
    isplitl [H3]; · iexact H3
    isplitl [H1]; · iexact H1
    isplitl [HS0]; · iexact HS0
    isplitl [HS1]; · iexact HS1
    iintro ⟨H0, H2, H3, H1, HS0, HS1⟩
    isplitl [HS0 HS1 HS2 Hg]
    · iexists _, _, s2
      isplitr
      · ipureintro; exact inv_stepA m c t hA s0 s1 s2 (k0_off1_inb (grid0.coords t) c2)
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11
  by_cases hB : t.val < 50
  · -- a point 0 < t < 50
    have c1 : ¬cond1 (grid0.coords t) = 1#1 := fun h => hA ((hc1 t).mp h)
    have c2 : k0_cond2 (grid0.coords t) = 1#1 := (hc2 t).mpr hB
    have c3 : ¬k0_cond3 (grid0.coords t) = 1#1 := fun h => by have := (hc3 t).mp h; omega
    have c4 : ¬k0_cond4 (grid0.coords t) = 1#1 := fun h => by have := (hc4 t).mp h; omega
    rw [Dat.leavesExact_idle (dats m 0 c) 10 t (idle10 t c4) (noFlush10 t c4), Dat.leavesExact_idle (dats m 0 c) 11 t (idle11 t c4) (noFlush11 t c4)]
    iintro ⟨⟨%s0, %s1, %s2, %hinv, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (tripleB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) c1 c2 c3 c4 (iblk m c 1 t) s0 s1 Set.univ _)
    isplitl [H1]; · iexact H1
    isplitl [HS0]; · iexact HS0
    isplitl [HS1]; · iexact HS1
    iintro ⟨H1, HS0, HS1⟩
    isplitl [HS0 HS1 HS2 Hg]
    · iexists s0, _, s2
      isplitr
      · ipureintro; exact inv_stepB m c t (by omega) hB s0 s1 s2 hinv (k0_off1_inb (grid0.coords t) c2)
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11
  by_cases hC : t.val < 100
  · -- a point 50 ≤ t < 100
    have c1 : ¬cond1 (grid0.coords t) = 1#1 := fun h => hA ((hc1 t).mp h)
    have c2 : ¬k0_cond2 (grid0.coords t) = 1#1 := fun h => hB ((hc2 t).mp h)
    have c3 : k0_cond3 (grid0.coords t) = 1#1 := (hc3 t).mpr ⟨by omega, hC⟩
    have c4 : ¬k0_cond4 (grid0.coords t) = 1#1 := fun h => by have := (hc4 t).mp h; omega
    rw [Dat.leavesExact_idle (dats m 0 c) 10 t (idle10 t c4) (noFlush10 t c4), Dat.leavesExact_idle (dats m 0 c) 11 t (idle11 t c4) (noFlush11 t c4)]
    iintro ⟨⟨%s0, %s1, %s2, %hinv, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (tripleC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) c1 c2 c3 c4 (iblk m c 1 t) s1 s2 Set.univ _)
    isplitl [H1]; · iexact H1
    isplitl [HS1]; · iexact HS1
    isplitl [HS2]; · iexact HS2
    iintro ⟨H1, HS1, HS2⟩
    isplitl [HS0 HS1 HS2 Hg]
    · iexists s0, s1, _
      isplitr
      · ipureintro; exact inv_stepC m c t (by omega) hC s0 s1 s2 hinv (k0_off2_inb (grid0.coords t) c3)
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11
  · -- the last point
    have hD : t.val = 100 := by omega
    have c1 : ¬cond1 (grid0.coords t) = 1#1 := fun h => hA ((hc1 t).mp h)
    have c2 : ¬k0_cond2 (grid0.coords t) = 1#1 := fun h => hB ((hc2 t).mp h)
    have c3 : ¬k0_cond3 (grid0.coords t) = 1#1 := fun h => hC ((hc3 t).mp h).2
    have c4 : k0_cond4 (grid0.coords t) = 1#1 := (hc4 t).mpr hD
    rw [show (dats m 0 c).leavesExact 10 t = owns (c : Thread nD τ) (ms10 t) fullShare ((dats m 0 c).after 10 t) from by
      unfold Dat.leavesExact; rw [live10 t c4], after10]
    rw [show (dats m 0 c).leavesExact 11 t = owns (c : Thread nD τ) (ms11 t) fullShare ((dats m 0 c).after 11 t) from by
      unfold Dat.leavesExact; rw [live11 t c4], after11]
    iintro ⟨⟨%s0, %s1, %s2, %hinv, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    have e2 : s2 = Z3 m c := inv_last m c t hD s0 s1 s2 hinv
    subst e2
    iapply (tripleD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) c1 c2 c3 c4 (Z3 m c) (iblk m c 4 t) (iblk m c 5 t) (iblk m c 6 t) (iblk m c 7 t) (iblk m c 8 t) (iblk m c 9 t) Set.univ _)
    isplitl [HS2]; · iexact HS2
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    iintro ⟨HS2, H4, H5, H6, H7, H8, H9, H10, H11⟩
    isplitl [HS0 HS1 HS2 Hg]
    · iexists s0, s1, (Z3 m c)
      isplitr
      · ipureintro; exact inv_stepD m c t hD s0 s1 (Z3 m c) hinv
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.Kernel.Body

end
-- ==== Proof.BMain.lean ====
/-
  The launch: the body's obligation at every point, the invariant at the region's entry (nothing is claimed of the
  scratch buffers there) and exit (what they hold is forgotten), hence the run of the whole program to the pipeline's
  post — every window's array at what the proof data say, every other buffer as the region found it — and the frame:
  the ten argument arrays end unchanged.
-/
import proofs.«151931_g16346645529038_cont_7to1_1029_4_alg».proof.Proof.BSound

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 from rfl, PhiA_eq]
  unfold Phi
  iintro ⟨⟨⟨%d0, HS0⟩, ⟨%d1, HS1⟩, ⟨%d2, HS2⟩⟩, Hg⟩
  iexists d0, d1, d2
  isplitr
  · ipureintro; exact inv_zero m c d0 d1 d2
  isplitl [HS0]; · iexact HS0
  isplitl [HS1]; · iexact HS1
  isplitl [HS2]; · iexact HS2
  iexact Hg

/-- After the last point the invariant gives the class invariant back. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq]
  unfold Phi
  iintro ⟨%s0, %s1, %s2, %hinv, HS0, HS1, HS2, Hg⟩
  isplitl [HS0 HS1 HS2]
  · isplitl [HS0]; · iexists _; iexact HS0
    isplitl [HS1]; · iexists _; iexact HS1
    iexists _; iexact HS2
  iexact Hg

set_option backward.isDefEq.respectTransparency.types false in
/-- Every weakly fair execution of the program terminates, nothing faulting, with every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the ten argument arrays end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Body

end
-- ==== Proof.KBase.lean ====
/-
  The schedule of the fused kernel, in closed form over its 101 grid points.

  Point 0 computes the first dense layer into the first scratch; points 0..49 each store rows [200 t, 200 t + 200) of
  the first propagation into the second scratch; points 50..99 each store rows [200 (t - 50), 200 (t - 50) + 200) of
  the second propagation into the third scratch; point 100 normalises and projects into the two outputs.  Here: each
  branch condition as a statement about the point's number, the two row offsets as numbers, where the two output
  windows are idle, and the region's class invariant written over the three scratch buffers.
-/
import proofs.«151931_g16346645529038_cont_7to1_1029_4_alg».proof.Proof.Gen.KernelIdeal.Frame
import proofs.«151931_g16346645529038_cont_7to1_1029_4_alg».proof.Proof.Gen.KernelIdeal.Skeleton
import Idealize.ShloMosaic.Lib.Pipeline.Value
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first branch condition (the grid coordinate is 0), as the body computes it. -/
abbrev cond1 (i : grid0.Coords) : BitVec 1 :=
  Scalar.cmpi .ne (Scalar.extui (Scalar.cmpi .eq (BitVec.ofNat 32 (i 0).val) 0#32) : BitVec 32) 0#32

/-- The first branch is taken at point 0 only. -/
theorem hc1 : ∀ t : Fin cfg0.N, cond1 (grid0.coords t) = 1#1 ↔ t.val = 0 :=
  (by decide +kernel : ∀ t : Fin grid0.N, cond1 (grid0.coords t) = 1#1 ↔ t.val = 0)
/-- The second branch is taken at points 0..49. -/
theorem hc2 : ∀ t : Fin cfg0.N, k0_cond2 (grid0.coords t) = 1#1 ↔ t.val < 50 :=
  (by decide +kernel : ∀ t : Fin grid0.N, k0_cond2 (grid0.coords t) = 1#1 ↔ t.val < 50)
/-- The third branch is taken at points 50..99. -/
theorem hc3 : ∀ t : Fin cfg0.N, k0_cond3 (grid0.coords t) = 1#1 ↔ (50 ≤ t.val ∧ t.val < 100) :=
  (by decide +kernel : ∀ t : Fin grid0.N, k0_cond3 (grid0.coords t) = 1#1 ↔ (50 ≤ t.val ∧ t.val < 100))
/-- The fourth branch is taken at point 100 only. -/
theorem hc4 : ∀ t : Fin cfg0.N, k0_cond4 (grid0.coords t) = 1#1 ↔ t.val = 100 :=
  (by decide +kernel : ∀ t : Fin grid0.N, k0_cond4 (grid0.coords t) = 1#1 ↔ t.val = 100)

/-- At point t < 50 the second branch stores rows [200 t, 200 t + 200). -/
theorem hoff1 : ∀ t : Fin cfg0.N, t.val < 50 → k0_off1 (grid0.coords t) = ![200 * t.val, 0] :=
  (by decide +kernel : ∀ t : Fin grid0.N, t.val < 50 → k0_off1 (grid0.coords t) = ![200 * t.val, 0])
/-- At point 50 ≤ t < 100 the third branch stores rows [200 (t - 50), 200 (t - 50) + 200). -/
theorem hoff2 : ∀ t : Fin cfg0.N, 50 ≤ t.val → t.val < 100 → k0_off2 (grid0.coords t) = ![200 * (t.val - 50), 0] :=
  (by decide +kernel : ∀ t : Fin grid0.N, 50 ≤ t.val → t.val < 100 → k0_off2 (grid0.coords t) = ![200 * (t.val - 50), 0])

/-- Away from the last point both outputs are idle and are not written back. -/
theorem idle10 : ∀ t : Fin cfg0.N, ¬k0_cond4 (grid0.coords t) = 1#1 → cfg0.idle 10 (grid0.coords t) = true := by decide +kernel
theorem idle11 : ∀ t : Fin cfg0.N, ¬k0_cond4 (grid0.coords t) = 1#1 → cfg0.idle 11 (grid0.coords t) = true := by decide +kernel
theorem noFlush10 : ∀ t : Fin cfg0.N, ¬k0_cond4 (grid0.coords t) = 1#1 → (cfg0.win 10).flush t = false := by decide +kernel
theorem noFlush11 : ∀ t : Fin cfg0.N, ¬k0_cond4 (grid0.coords t) = 1#1 → (cfg0.win 11).flush t = false := by decide +kernel
/-- At the last point both outputs are live. -/
theorem live10 : ∀ t : Fin cfg0.N, k0_cond4 (grid0.coords t) = 1#1 → cfg0.idle 10 (grid0.coords t) = false := by decide +kernel
theorem live11 : ∀ t : Fin cfg0.N, k0_cond4 (grid0.coords t) = 1#1 → cfg0.idle 11 (grid0.coords t) = false := by decide +kernel
/-- The ten inputs are never idle. -/
theorem liveIn : ∀ (w : Fin 12), w.val < 10 → ∀ t : Fin cfg0.N, cfg0.idle w (grid0.coords t) = false := by decide +kernel

/-- The zero offsets of a whole-block rectangle. -/
theorem hz2 : (![0, 0] : Fin 2 → ℕ) = fun _ => 0 := by funext a; fin_cases a <;> rfl

/-- One store over the whole of a [10000, 32] buffer leaves its payload, whatever was there. -/
theorem read_whole_store (M : Memref sig .tc .vmem S10000x32 .f32) (f : M.view.ty.Contents (Elt F)) (w : Vec F S10000x32 .f32) :
    M.view.read (Elt F) (M.view.writes (Elt F) f
      [⟨Rect.unit (s := S10000x32) ![0, 0] S10000x32.size inb_S10000x32_S10000x32_0_0, w⟩]) = w := by
  funext y
  exact View.read_writes_cons_unit_of_mem M.view f inb_S10000x32_S10000x32_0_0 w [] y y hz2
    (fun a => (Nat.zero_add _).symm)

/-- Each window's current staging memref at point t, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x32 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x32 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S32x32 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x32 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S32x32 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x32 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S10000x32 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S10000x32 .f32 := win0_11.stage (cfg0.slots t 11)
abbrev hs11 (t : Fin cfg0.N) : (ms11 t).IsWhole := hstage0_11 ((cfg0.slots t 11).cast nbuf0_11)
/-- The three scratch buffers, whole. -/
abbrev sc0 : Memref sig .tc .vmem S10000x32 .f32 := Memref.whole cc0_scratch0
abbrev sc1 : Memref sig .tc .vmem S10000x32 .f32 := Memref.whole cc0_scratch1
abbrev sc2 : Memref sig .tc .vmem S10000x32 .f32 := Memref.whole cc0_scratch2

/-- The class invariant over the three scratch memrefs, each owned at some contents, and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

end Cert.KernelIdeal.Body

end
-- ==== Proof.KState.lean ====
/-
  What the three scratch buffers hold along the grid, in closed form, and the pipeline's proof data.

  z1 is the dense layer of the blocks of point 0.  z2 at row y is the product of the adjacency block of point y / 200
  with z1, read at row y mod 200 of that block; z3 at row y likewise from the block of point 50 + y / 200 and z2.
  After n points the first scratch is z1 (once n > 0), the first 200·min(n, 50) rows of the second are z2's, and the
  first 200·(min(n, 100) − 50) rows of the third are z3's: a statement about contents only, which every point's body
  preserves.  At the last point the third scratch is z3 everywhere, and the two outputs are the normalisation of z3
  and the projection head of that.
-/
import proofs.«151931_g16346645529038_cont_7to1_1029_4_alg».proof.Proof.KBase
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The grid has 101 points. -/
theorem N101 : cfg0.N = 101 := N_0

/-- Point number n (read modulo 101, so that it is defined for every n). -/
def pt (n : ℕ) : Fin cfg0.N := ⟨n % 101, by rw [N101]; exact Nat.mod_lt _ (by decide)⟩
theorem pt_val (n : ℕ) (h : n < 101) : (pt n).val = n := Nat.mod_eq_of_lt h
theorem pt_eq (t : Fin cfg0.N) : pt t.val = t :=
  Fin.ext (Nat.mod_eq_of_lt (lt_of_lt_of_eq t.isLt N101))

/-- The position of row y within its block of 200 rows. -/
def rowIn (y : S10000x32.Idx) : S200x32.Idx :=
  ix2 ⟨(y 0).val % 200, Nat.mod_lt _ (by decide)⟩ ⟨(y 1).val, idx2_lt1 y⟩
theorem rowIn_val0 (y : S10000x32.Idx) : (rowIn y 0).val = (y 0).val % 200 := rfl
theorem rowIn_val1 (y : S10000x32.Idx) : (rowIn y 1).val = (y 1).val := rfl

/-- The dense layer, from the blocks of point 0. -/
def Z1 (c : Dev nD) : Vec F S10000x32 .f32 := k0_pay1 (iblk m c 0 (pt 0)) (iblk m c 2 (pt 0)) (iblk m c 3 (pt 0))
/-- The first propagation: row y from the adjacency block of point y / 200. -/
def Z2 (c : Dev nD) : Vec F S10000x32 .f32 := fun y => k0_pay2 (iblk m c 1 (pt ((y 0).val / 200))) (Z1 m c) (rowIn y)
/-- The second propagation: row y from the adjacency block of point 50 + y / 200. -/
def Z3 (c : Dev nD) : Vec F S10000x32 .f32 := fun y => k0_pay3 (iblk m c 1 (pt (50 + (y 0).val / 200))) (Z2 m c) (rowIn y)

/-- What the scratch buffers hold after n points. -/
def Inv (c : Dev nD) (n : ℕ) (s0 s1 s2 : Vec F S10000x32 .f32) : Prop :=
  (0 < n → s0 = Z1 m c)
  ∧ (∀ y : S10000x32.Idx, (y 0).val < 200 * min n 50 → s1 y = Z2 m c y)
  ∧ (∀ y : S10000x32.Idx, (y 0).val < 200 * (min n 100 - 50) → s2 y = Z3 m c y)

/-- The first output block at the last point: z3 normalised. -/
def OUT10 (c : Dev nD) (t : Fin cfg0.N) : Vec F S10000x32 .f32 := k0_pay5 (Z3 m c) (iblk m c 4 t) (iblk m c 5 t)
/-- The second output block at the last point: the projection head of the first. -/
def OUT11 (c : Dev nD) (t : Fin cfg0.N) : Vec F S10000x32 .f32 :=
  k0_pay4 (k0_pay6 (Z3 m c) (iblk m c 4 t) (iblk m c 5 t) (iblk m c 6 t) (iblk m c 7 t)) (iblk m c 8 t)
    (constant S10000x32 .f32 0x00000000#32) (iblk m c 9 t)

/-- The region invariant before point n: the three scratch buffers owned at contents satisfying Inv at n, and the
    generator register at some state. -/
def Phi (c : Dev nD) (n : ℕ) : sProp 𝕄 :=
  iprop(∃ s0 s1 s2, ⌜Inv m c n s0 s1 s2⌝ ∗ owns (c : Thread nD τ) sc0 fullShare s0 ∗ owns (c : Thread nD τ) sc1 fullShare s1
    ∗ owns (c : Thread nD τ) sc2 fullShare s2 ∗ (∃ r, prngReg c r))

/-- The proof data of the one pipeline on core c: the arrays as the region finds them; after the body each input's
    buffer at its block and the two outputs' at the last point's results; the invariant above; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => OUT10 m c t
    | ⟨11, _⟩ => OUT11 m c t
  Φ t := Phi m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val := by
  dsimp only [dats]; simp only [Fin.coe_castSucc]
theorem Phi_succ (c : Dev nD) (t : Fin cfg0.N) : (dats m 0 c).Φ t.succ = Phi m c (t.val + 1) := by
  dsimp only [dats]; simp only [Fin.val_succ]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = OUT10 m c t := by dsimp only [dats]
theorem after11 (c : Dev nD) (t : Fin cfg0.N) : (dats m 0 c).after 11 t = OUT11 m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

end Cert.KernelIdeal.Body

end
-- ==== Proof.KInv.lean ====
/-
  Each point's stores preserve the statement of what the scratch buffers hold.

  A store over the whole buffer leaves its payload.  A store of 200 whole rows [o, o + 200) leaves its payload on those
  rows (row y reads the payload's row y − o) and the earlier contents elsewhere.  So: point 0 makes the first scratch z1
  and rows [0, 200) of the second z2's; a point 0 < t < 50 extends the second scratch's good rows from 200 t to
  200 (t + 1), since row y of the block of point t is row 200 t + y of z2; a point 50 ≤ t < 100 does the same for the
  third scratch with the block of point t and the second scratch, which by then is z2 everywhere.
-/
import proofs.«151931_g16346645529038_cont_7to1_1029_4_alg».proof.Proof.KState

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

section Stores

variable (M : Memref sig .tc .vmem S10000x32 .f32) (hM : M.IsWhole)

/-- One store of the 200 rows [o, o + 200): a row inside reads the payload at its position within the rows. -/
theorem read_rows_store_mem (s : Vec F S10000x32 .f32) {off : Fin 2 → ℕ}
    (inb : ∀ a : Fin 2, off a + S200x32.size a ≤ S10000x32.size a) (w : Vec F S200x32 .f32) (o : ℕ) (hoff : off = ![o, 0])
    (y : S10000x32.Idx) (x : S200x32.Idx) (hx0 : (y 0).val = o + (x 0).val) (hx1 : (y 1).val = (x 1).val) :
    M.view.read (Elt F) (M.view.writes (Elt F) (hM.unread s)
      [⟨Rect.unit (s := S10000x32) off S200x32.size inb, w⟩]) y = w x :=
  View.read_writes_cons_rows_of_mem M.view (hM.unread s) inb w [] y x hoff hx0 hx1

/-- … and a row outside reads what the buffer held. -/
theorem read_rows_store_not_mem (s : Vec F S10000x32 .f32) {off : Fin 2 → ℕ}
    (inb : ∀ a : Fin 2, off a + S200x32.size a ≤ S10000x32.size a) (w : Vec F S200x32 .f32) (o : ℕ) (hoff : off = ![o, 0])
    (y : S10000x32.Idx) (h : (y 0).val < o ∨ o + 200 ≤ (y 0).val) :
    M.view.read (Elt F) (M.view.writes (Elt F) (hM.unread s)
      [⟨Rect.unit (s := S10000x32) off S200x32.size inb, w⟩]) y = s y := by
  rw [View.read_writes_cons_rows_of_not_mem M.view (hM.unread s) inb w [] y hoff rfl h, View.writes_nil, hM.read_unread]

end Stores

/-- A row index is below 10000. -/
theorem row_lt (y : S10000x32.Idx) : (y 0).val < 10000 := idx2_lt0 y

/-- Storing the product of the block of point t < 50 with z1 into rows [200 t, 200 t + 200) of the second scratch
    extends its rows that are z2's from 200 t to 200 (t + 1). -/
theorem s1_step (c : Dev nD) (M : Memref sig .tc .vmem S10000x32 .f32) (hM : M.IsWhole) (t : Fin cfg0.N) (ht : t.val < 50)
    (s1 : Vec F S10000x32 .f32) (hs1 : ∀ y : S10000x32.Idx, (y 0).val < 200 * t.val → s1 y = Z2 m c y)
    (inb : ∀ a : Fin 2, k0_off1 (grid0.coords t) a + S200x32.size a ≤ S10000x32.size a)
    (y : S10000x32.Idx) (hy : (y 0).val < 200 * (t.val + 1)) :
    M.view.read (Elt F) (M.view.writes (Elt F) (hM.unread s1)
      [⟨Rect.unit (s := S10000x32) (k0_off1 (grid0.coords t)) S200x32.size inb, k0_pay2 (iblk m c 1 t) (Z1 m c)⟩]) y
      = Z2 m c y := by
  by_cases hlo : (y 0).val < 200 * t.val
  · rw [read_rows_store_not_mem M hM s1 inb _ (200 * t.val) (hoff1 t ht) y (Or.inl hlo)]
    exact hs1 y hlo
  · have hq : (y 0).val / 200 = t.val := by omega
    rw [read_rows_store_mem M hM s1 inb _ (200 * t.val) (hoff1 t ht) y (rowIn y)
      (by rw [rowIn_val0]; omega) (by rw [rowIn_val1])]
    unfold Z2
    rw [hq, pt_eq]

/-- Storing the product of the block of point 50 ≤ t < 100 with z2 into rows [200 (t − 50), 200 (t − 50) + 200) of the
    third scratch extends its rows that are z3's from 200 (t − 50) to 200 (t − 49). -/
theorem s2_step (c : Dev nD) (M : Memref sig .tc .vmem S10000x32 .f32) (hM : M.IsWhole) (t : Fin cfg0.N) (h1 : 50 ≤ t.val) (h2 : t.val < 100)
    (s2 : Vec F S10000x32 .f32) (hs2 : ∀ y : S10000x32.Idx, (y 0).val < 200 * (t.val - 50) → s2 y = Z3 m c y)
    (inb : ∀ a : Fin 2, k0_off2 (grid0.coords t) a + S200x32.size a ≤ S10000x32.size a)
    (y : S10000x32.Idx) (hy : (y 0).val < 200 * (t.val + 1 - 50)) :
    M.view.read (Elt F) (M.view.writes (Elt F) (hM.unread s2)
      [⟨Rect.unit (s := S10000x32) (k0_off2 (grid0.coords t)) S200x32.size inb, k0_pay3 (iblk m c 1 t) (Z2 m c)⟩]) y
      = Z3 m c y := by
  by_cases hlo : (y 0).val < 200 * (t.val - 50)
  · rw [read_rows_store_not_mem M hM s2 inb _ (200 * (t.val - 50)) (hoff2 t h1 h2) y (Or.inl hlo)]
    exact hs2 y hlo
  · have hq : 50 + (y 0).val / 200 = t.val := by omega
    rw [read_rows_store_mem M hM s2 inb _ (200 * (t.val - 50)) (hoff2 t h1 h2) y (rowIn y)
      (by rw [rowIn_val0]; omega) (by rw [rowIn_val1])]
    unfold Z3
    rw [hq, pt_eq]

/-- Point 0: the whole store makes the first scratch z1, the row store makes rows [0, 200) of the second z2's. -/
theorem inv_stepA (c : Dev nD) (t : Fin cfg0.N) (ht : t.val = 0) (s0 s1 s2 : Vec F S10000x32 .f32)
    (inb : ∀ a : Fin 2, k0_off1 (grid0.coords t) a + S200x32.size a ≤ S10000x32.size a) :
    Inv m c (t.val + 1)
      (sc0.view.read (Elt F) (sc0.view.writes (Elt F) ((Memref.isWhole_whole cc0_scratch0).unread s0)
        [⟨Rect.unit (s := S10000x32) ![0, 0] S10000x32.size inb_S10000x32_S10000x32_0_0,
          k0_pay1 (iblk m c 0 t) (iblk m c 2 t) (iblk m c 3 t)⟩]))
      (sc1.view.read (Elt F) (sc1.view.writes (Elt F) ((Memref.isWhole_whole cc0_scratch1).unread s1)
        [⟨Rect.unit (s := S10000x32) (k0_off1 (grid0.coords t)) S200x32.size inb,
          k0_pay2 (iblk m c 1 t) (k0_pay1 (iblk m c 0 t) (iblk m c 2 t) (iblk m c 3 t))⟩]))
      s2 := by
  have ht0 : t = pt 0 := Fin.ext (by rw [ht]; rfl)
  have hz : k0_pay1 (iblk m c 0 t) (iblk m c 2 t) (iblk m c 3 t) = Z1 m c := by rw [ht0]; rfl
  rw [hz, read_whole_store sc0]
  refine ⟨fun _ => rfl, fun y hy => ?_, fun y hy => ?_⟩
  · exact s1_step m c sc1 (Memref.isWhole_whole _) t (by omega) s1 (fun y' hy' => by omega) inb y (by omega)
  · exfalso; omega

/-- A point 0 < t < 50. -/
theorem inv_stepB (c : Dev nD) (t : Fin cfg0.N) (h1 : 0 < t.val) (h2 : t.val < 50) (s0 s1 s2 : Vec F S10000x32 .f32)
    (hinv : Inv m c t.val s0 s1 s2)
    (inb : ∀ a : Fin 2, k0_off1 (grid0.coords t) a + S200x32.size a ≤ S10000x32.size a) :
    Inv m c (t.val + 1) s0
      (sc1.view.read (Elt F) (sc1.view.writes (Elt F) ((Memref.isWhole_whole cc0_scratch1).unread s1)
        [⟨Rect.unit (s := S10000x32) (k0_off1 (grid0.coords t)) S200x32.size inb, k0_pay2 (iblk m c 1 t) s0⟩]))
      s2 := by
  obtain ⟨i0, i1, i2⟩ := hinv
  have e0 : s0 = Z1 m c := i0 h1
  subst e0
  refine ⟨fun _ => rfl, fun y hy => ?_, fun y hy => ?_⟩
  · exact s1_step m c sc1 (Memref.isWhole_whole _) t h2 s1 (fun y' hy' => i1 y' (by omega)) inb y (by omega)
  · exfalso; omega

/-- A point 50 ≤ t < 100: by then the second scratch is z2 on every row. -/
theorem inv_stepC (c : Dev nD) (t : Fin cfg0.N) (h1 : 50 ≤ t.val) (h2 : t.val < 100) (s0 s1 s2 : Vec F S10000x32 .f32)
    (hinv : Inv m c t.val s0 s1 s2)
    (inb : ∀ a : Fin 2, k0_off2 (grid0.coords t) a + S200x32.size a ≤ S10000x32.size a) :
    Inv m c (t.val + 1) s0 s1
      (sc2.view.read (Elt F) (sc2.view.writes (Elt F) ((Memref.isWhole_whole cc0_scratch2).unread s2)
        [⟨Rect.unit (s := S10000x32) (k0_off2 (grid0.coords t)) S200x32.size inb, k0_pay3 (iblk m c 1 t) s1⟩])) := by
  obtain ⟨i0, i1, i2⟩ := hinv
  have e1 : s1 = Z2 m c := funext fun y => i1 y (by have := row_lt y; omega)
  subst e1
  refine ⟨fun _ => i0 (by omega), fun y hy => rfl, fun y hy => ?_⟩
  exact s2_step m c sc2 (Memref.isWhole_whole _) t h1 h2 s2 (fun y' hy' => i2 y' (by omega)) inb y (by omega)

/-- The last point stores nothing into the scratch buffers. -/
theorem inv_stepD (c : Dev nD) (t : Fin cfg0.N) (ht : t.val = 100) (s0 s1 s2 : Vec F S10000x32 .f32)
    (hinv : Inv m c t.val s0 s1 s2) : Inv m c (t.val + 1) s0 s1 s2 := by
  obtain ⟨i0, i1, i2⟩ := hinv
  exact ⟨fun _ => i0 (by omega), fun y hy => i1 y (by omega), fun y hy => i2 y (by omega)⟩

/-- At the last point the third scratch is z3 on every row. -/
theorem inv_last (c : Dev nD) (t : Fin cfg0.N) (ht : t.val = 100) (s0 s1 s2 : Vec F S10000x32 .f32)
    (hinv : Inv m c t.val s0 s1 s2) : s2 = Z3 m c :=
  funext fun y => hinv.2.2 y (by have := row_lt y; omega)

/-- Before the first point nothing is claimed. -/
theorem inv_zero (c : Dev nD) (s0 s1 s2 : Vec F S10000x32 .f32) : Inv m c 0 s0 s1 s2 :=
  ⟨fun h => absurd h (Nat.lt_irrefl 0), fun y hy => by exfalso; omega, fun y hy => by exfalso; omega⟩

end Cert.KernelIdeal.Body

end
-- ==== Proof.KRunA.lean ====
/-
  The body at point 0: the first and the second branch run.  The first stores the dense layer max (x·W1 + b1) 0 over the
  whole first scratch; the second then loads that scratch back and stores the product of the point's 200 adjacency rows
  with it into rows [0, 200) of the second scratch.
-/
import proofs.«151931_g16346645529038_cont_7to1_1029_4_alg».proof.Proof.KBase

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The stores the body makes at point 0 into the first and the second scratch, found by running it, with the proof
    that from the inputs it reads and the two scratch buffers owned whole it runs to any continuation that takes them
    back, each scratch with its stores written over what it held. -/
noncomputable def runA (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : cond1 i = 1#1) (hc2 : k0_cond2 i = 1#1) (hc3 : ¬k0_cond3 i = 1#1) (hc4 : ¬k0_cond4 i = 1#1)
    (x : Vec F S10000x128 .f32) (w : Vec F S128x32 .f32) (b : Vec F S1x32 .f32) (xa : Vec F S200x10000 .f32) :
    Σ' (L0 : List (View.Piece (Elt F) S10000x32 .f32)), { L1 : List (View.Piece (Elt F) S10000x32 .f32) //
      ∀ (s0 s1 : Vec F S10000x32 .f32) (E : Set ℕ) (K : PUnit → sProp 𝕄),
        iprop(owns (c : Thread nD τ) arg1 fullShare x ∗ owns (c : Thread nD τ) arg3 fullShare w ∗ owns (c : Thread nD τ) arg4 fullShare b ∗ owns (c : Thread nD τ) arg2 fullShare xa ∗ owns (c : Thread nD τ) arg13 fullShare s0 ∗ owns (c : Thread nD τ) arg14 fullShare s1
            ∗ (iprop(owns (c : Thread nD τ) arg1 fullShare x ∗ owns (c : Thread nD τ) arg3 fullShare w ∗ owns (c : Thread nD τ) arg4 fullShare b ∗ owns (c : Thread nD τ) arg2 fullShare xa
                ∗ (arg13.view.loc (c : Thread nD τ) ↦[arg13.view.set]{fullShare} arg13.view.writes (Elt F) (harg13.unread s0) L0)
                ∗ (arg14.view.loc (c : Thread nD τ) ↦[arg14.view.set]{fullShare} arg14.view.writes (Elt F) (harg14.unread s1) L1)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun s0 s1 E K => ?run⟩
  case run =>
    simp only [cc0__fused_body_eq_skeleton]; unfold cc0__fused_body_skel
    unfold owns
    iintro ⟨⟨%f1, %hf1, H1⟩, ⟨%f3, %hf3, H3⟩, ⟨%f4, %hf4, H4⟩, ⟨%f2, %hf2, H2⟩, ⟨%f13, %hf13, H13⟩, ⟨%f14, %hf14, H14⟩, Hk⟩
    obtain rfl := harg1.eq_unread hf1; obtain rfl := harg3.eq_unread hf3; obtain rfl := harg4.eq_unread hf4
    obtain rfl := harg2.eq_unread hf2; obtain rfl := harg13.eq_unread hf13; obtain rfl := harg14.eq_unread hf14
    sl_exec (disch := first | exact hc1 | exact hc2 | exact hc3 | exact hc4)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H2]
    · iexists _; isplitr; · ipureintro; exact harg2.read_unread _
      iexact H2
    isplitl [H13]; · iexact H13
    iexact H14

/-- The store of point 0 into the first scratch: the dense layer, over the whole buffer. -/
theorem runA_pieces0 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : cond1 i = 1#1) (hc2 : k0_cond2 i = 1#1) (hc3 : ¬k0_cond3 i = 1#1) (hc4 : ¬k0_cond4 i = 1#1)
    (x : Vec F S10000x128 .f32) (w : Vec F S128x32 .f32) (b : Vec F S1x32 .f32) (xa : Vec F S200x10000 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 x w b xa).1
      = [⟨Rect.unit (s := S10000x32) ![0, 0] S10000x32.size inb_S10000x32_S10000x32_0_0, k0_pay1 x w b⟩] := by
  unfold runA
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, View.ld_unit_zero (S := S200x10000) hz2, View.ld_unit_zero (S := S10000x32) hz2, View.ld_unit_zero (S := S10000x128) hz2, View.ld_unit_zero (S := S128x32) hz2, View.ld_unit_zero (S := S1x32) hz2, View.ld_unit_zero (S := S32x32) hz2]

/-- The store of point 0 into the second scratch: the product of the adjacency block with the dense layer just
    stored (the load of the first scratch after its whole store reads that store's payload). -/
theorem runA_pieces1 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : cond1 i = 1#1) (hc2 : k0_cond2 i = 1#1) (hc3 : ¬k0_cond3 i = 1#1) (hc4 : ¬k0_cond4 i = 1#1)
    (x : Vec F S10000x128 .f32) (w : Vec F S128x32 .f32) (b : Vec F S1x32 .f32) (xa : Vec F S200x10000 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 x w b xa).2.1
      = [⟨Rect.unit (s := S10000x32) (k0_off1 i) S200x32.size (k0_off1_inb i hc2), k0_pay2 xa (k0_pay1 x w b)⟩] := by
  unfold runA
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, View.ld_unit_zero (S := S200x10000) hz2, View.ld_unit_zero (S := S10000x32) hz2, View.ld_unit_zero (S := S10000x128) hz2, View.ld_unit_zero (S := S128x32) hz2, View.ld_unit_zero (S := S1x32) hz2, View.ld_unit_zero (S := S32x32) hz2]
  rw [View.readCov_unit_zero (S := S10000x32) arg13.view hz2]

set_option maxHeartbeats 2000000 in
/-- The body at point 0, with what it leaves named: the first scratch with the dense layer written over it, the second
    with rows [off, off + 200) written. -/
theorem tripleA (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : cond1 i = 1#1) (hc2 : k0_cond2 i = 1#1) (hc3 : ¬k0_cond3 i = 1#1) (hc4 : ¬k0_cond4 i = 1#1)
    (x : Vec F S10000x128 .f32) (w : Vec F S128x32 .f32) (b : Vec F S1x32 .f32) (xa : Vec F S200x10000 .f32)
    (s0 s1 : Vec F S10000x32 .f32) (E : Set ℕ) (K : PUnit → sProp 𝕄) :
    iprop(owns (c : Thread nD τ) arg1 fullShare x ∗ owns (c : Thread nD τ) arg3 fullShare w ∗ owns (c : Thread nD τ) arg4 fullShare b ∗ owns (c : Thread nD τ) arg2 fullShare xa ∗ owns (c : Thread nD τ) arg13 fullShare s0 ∗ owns (c : Thread nD τ) arg14 fullShare s1
        ∗ (iprop(owns (c : Thread nD τ) arg1 fullShare x ∗ owns (c : Thread nD τ) arg3 fullShare w ∗ owns (c : Thread nD τ) arg4 fullShare b ∗ owns (c : Thread nD τ) arg2 fullShare xa
            ∗ owns (c : Thread nD τ) arg13 fullShare (arg13.view.read (Elt F) (arg13.view.writes (Elt F) (harg13.unread s0) [⟨Rect.unit (s := S10000x32) ![0, 0] S10000x32.size inb_S10000x32_S10000x32_0_0, k0_pay1 x w b⟩]))
            ∗ owns (c : Thread nD τ) arg14 fullShare (arg14.view.read (Elt F) (arg14.view.writes (Elt F) (harg14.unread s1) [⟨Rect.unit (s := S10000x32) (k0_off1 i) S200x32.size (k0_off1_inb i hc2), k0_pay2 xa (k0_pay1 x w b)⟩]))) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  have p0 := runA_pieces0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 x w b xa
  have p1 := runA_pieces1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 x w b xa
  generalize runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 x w b xa = R at p0 p1
  obtain ⟨L0, L1, hL⟩ := R
  dsimp only at p0 p1
  subst p0 p1
  have h := hL s0 s1 E K
  iintro ⟨H1, H3, H4, H2, H13, H14, Hk⟩
  iapply h
  isplitl [H1]; · iexact H1
  isplitl [H3]; · iexact H3
  isplitl [H4]; · iexact H4
  isplitl [H2]; · iexact H2
  isplitl [H13]; · iexact H13
  isplitl [H14]; · iexact H14
  iintro ⟨H1, H3, H4, H2, H13, H14⟩
  iapply Hk
  isplitl [H1]; · iexact H1
  isplitl [H3]; · iexact H3
  isplitl [H4]; · iexact H4
  isplitl [H2]; · iexact H2
  isplitl [H13]
  · unfold owns; iexists _; isplitr; swap; · iexact H13
    ipureintro; rfl
  unfold owns; iexists _; isplitr; swap; · iexact H14
  ipureintro; rfl

end Cert.KernelIdeal.Body

end
-- ==== Proof.KRunB.lean ====
/-
  The body at a point 1 ≤ t < 50: only the second branch runs.  It loads the point's 200 rows of the adjacency and the
  whole first scratch, and stores their product into rows [200 t, 200 t + 200) of the second scratch.
-/
import proofs.«151931_g16346645529038_cont_7to1_1029_4_alg».proof.Proof.KBase

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The stores the body makes into the second scratch at such a point, found by running it, with the proof that from
    the adjacency block and the first two scratch buffers owned whole it runs to any continuation that takes them back,
    the second scratch with those stores written over what it held. -/
noncomputable def runB (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : ¬cond1 i = 1#1) (hc2 : k0_cond2 i = 1#1) (hc3 : ¬k0_cond3 i = 1#1) (hc4 : ¬k0_cond4 i = 1#1)
    (xa : Vec F S200x10000 .f32) (s0 : Vec F S10000x32 .f32) :
    { L1 : List (View.Piece (Elt F) S10000x32 .f32) //
      ∀ (s1 : Vec F S10000x32 .f32) (E : Set ℕ) (K : PUnit → sProp 𝕄),
        iprop(owns (c : Thread nD τ) arg2 fullShare xa ∗ owns (c : Thread nD τ) arg13 fullShare s0 ∗ owns (c : Thread nD τ) arg14 fullShare s1
            ∗ (iprop(owns (c : Thread nD τ) arg2 fullShare xa ∗ owns (c : Thread nD τ) arg13 fullShare s0
                ∗ (arg14.view.loc (c : Thread nD τ) ↦[arg14.view.set]{fullShare} arg14.view.writes (Elt F) (harg14.unread s1) L1)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun s1 E K => ?run⟩
  case run =>
    simp only [cc0__fused_body_eq_skeleton]; unfold cc0__fused_body_skel
    unfold owns
    iintro ⟨⟨%f2, %hf2, H2⟩, ⟨%f13, %hf13, H13⟩, ⟨%f14, %hf14, H14⟩, Hk⟩
    obtain rfl := harg2.eq_unread hf2; obtain rfl := harg13.eq_unread hf13; obtain rfl := harg14.eq_unread hf14
    sl_exec (disch := first | exact hc1 | exact hc2 | exact hc3 | exact hc4)
    sl_step
    iapply Hk
    isplitl [H2]
    · iexists _; isplitr; · ipureintro; exact harg2.read_unread _
      iexact H2
    isplitl [H13]
    · iexists _; isplitr; · ipureintro; exact harg13.read_unread _
      iexact H13
    iexact H14

/-- The one store of such a point: rows [off, off + 200) of the second scratch receive the product of the adjacency
    block with the first scratch. -/
theorem runB_pieces (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : ¬cond1 i = 1#1) (hc2 : k0_cond2 i = 1#1) (hc3 : ¬k0_cond3 i = 1#1) (hc4 : ¬k0_cond4 i = 1#1)
    (xa : Vec F S200x10000 .f32) (s0 : Vec F S10000x32 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 xa s0).1
      = [⟨Rect.unit (s := S10000x32) (k0_off1 i) S200x32.size (k0_off1_inb i hc2), k0_pay2 xa s0⟩] := by
  unfold runB
  dsimp only
  simp only [View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, View.ld_unit_zero (S := S200x10000) hz2, View.ld_unit_zero (S := S10000x32) hz2, View.ld_unit_zero (S := S10000x128) hz2, View.ld_unit_zero (S := S128x32) hz2, View.ld_unit_zero (S := S1x32) hz2, View.ld_unit_zero (S := S32x32) hz2]

/-- The body at such a point, with what it leaves named: the second scratch with the 200 rows written. -/
theorem tripleB (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : ¬cond1 i = 1#1) (hc2 : k0_cond2 i = 1#1) (hc3 : ¬k0_cond3 i = 1#1) (hc4 : ¬k0_cond4 i = 1#1)
    (xa : Vec F S200x10000 .f32) (s0 s1 : Vec F S10000x32 .f32) (E : Set ℕ) (K : PUnit → sProp 𝕄) :
    iprop(owns (c : Thread nD τ) arg2 fullShare xa ∗ owns (c : Thread nD τ) arg13 fullShare s0 ∗ owns (c : Thread nD τ) arg14 fullShare s1
        ∗ (iprop(owns (c : Thread nD τ) arg2 fullShare xa ∗ owns (c : Thread nD τ) arg13 fullShare s0
            ∗ owns (c : Thread nD τ) arg14 fullShare (arg14.view.read (Elt F) (arg14.view.writes (Elt F) (harg14.unread s1) [⟨Rect.unit (s := S10000x32) (k0_off1 i) S200x32.size (k0_off1_inb i hc2), k0_pay2 xa s0⟩]))) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  have h := (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 xa s0).2 s1 E K
  rw [runB_pieces] at h
  iintro ⟨H2, H13, H14, Hk⟩
  iapply h
  isplitl [H2]; · iexact H2
  isplitl [H13]; · iexact H13
  isplitl [H14]; · iexact H14
  iintro ⟨H2, H13, H14⟩
  iapply Hk
  isplitl [H2]; · iexact H2
  isplitl [H13]; · iexact H13
  unfold owns; iexists _; isplitr; swap; · iexact H14
  ipureintro; rfl

end Cert.KernelIdeal.Body

end
-- ==== Proof.KRunC.lean ====
/-
  The body at a point 50 ≤ t < 100: only the third branch runs.  It loads the point's 200 rows of the adjacency and the
  whole second scratch, and stores their product into rows [200 (t - 50), 200 (t - 50) + 200) of the third scratch.
-/
import proofs.«151931_g16346645529038_cont_7to1_1029_4_alg».proof.Proof.KBase

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The stores the body makes into the third scratch at such a point, found by running it, with the proof that from
    the adjacency block and the last two scratch buffers owned whole it runs to any continuation that takes them back,
    the third scratch with those stores written over what it held. -/
noncomputable def runC (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : ¬cond1 i = 1#1) (hc2 : ¬k0_cond2 i = 1#1) (hc3 : k0_cond3 i = 1#1) (hc4 : ¬k0_cond4 i = 1#1)
    (xa : Vec F S200x10000 .f32) (s1 : Vec F S10000x32 .f32) :
    { L2 : List (View.Piece (Elt F) S10000x32 .f32) //
      ∀ (s2 : Vec F S10000x32 .f32) (E : Set ℕ) (K : PUnit → sProp 𝕄),
        iprop(owns (c : Thread nD τ) arg2 fullShare xa ∗ owns (c : Thread nD τ) arg14 fullShare s1 ∗ owns (c : Thread nD τ) arg15 fullShare s2
            ∗ (iprop(owns (c : Thread nD τ) arg2 fullShare xa ∗ owns (c : Thread nD τ) arg14 fullShare s1
                ∗ (arg15.view.loc (c : Thread nD τ) ↦[arg15.view.set]{fullShare} arg15.view.writes (Elt F) (harg15.unread s2) L2)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun s2 E K => ?run⟩
  case run =>
    simp only [cc0__fused_body_eq_skeleton]; unfold cc0__fused_body_skel
    unfold owns
    iintro ⟨⟨%f2, %hf2, H2⟩, ⟨%f14, %hf14, H14⟩, ⟨%f15, %hf15, H15⟩, Hk⟩
    obtain rfl := harg2.eq_unread hf2; obtain rfl := harg14.eq_unread hf14; obtain rfl := harg15.eq_unread hf15
    sl_exec (disch := first | exact hc1 | exact hc2 | exact hc3 | exact hc4)
    sl_step
    iapply Hk
    isplitl [H2]
    · iexists _; isplitr; · ipureintro; exact harg2.read_unread _
      iexact H2
    isplitl [H14]
    · iexists _; isplitr; · ipureintro; exact harg14.read_unread _
      iexact H14
    iexact H15

/-- The one store of such a point: rows [off, off + 200) of the third scratch receive the product of the adjacency
    block with the second scratch. -/
theorem runC_pieces (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : ¬cond1 i = 1#1) (hc2 : ¬k0_cond2 i = 1#1) (hc3 : k0_cond3 i = 1#1) (hc4 : ¬k0_cond4 i = 1#1)
    (xa : Vec F S200x10000 .f32) (s1 : Vec F S10000x32 .f32) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 xa s1).1
      = [⟨Rect.unit (s := S10000x32) (k0_off2 i) S200x32.size (k0_off2_inb i hc3), k0_pay3 xa s1⟩] := by
  unfold runC
  dsimp only
  simp only [View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, View.ld_unit_zero (S := S200x10000) hz2, View.ld_unit_zero (S := S10000x32) hz2, View.ld_unit_zero (S := S10000x128) hz2, View.ld_unit_zero (S := S128x32) hz2, View.ld_unit_zero (S := S1x32) hz2, View.ld_unit_zero (S := S32x32) hz2]

/-- The body at such a point, with what it leaves named: the third scratch with the 200 rows written. -/
theorem tripleC (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : ¬cond1 i = 1#1) (hc2 : ¬k0_cond2 i = 1#1) (hc3 : k0_cond3 i = 1#1) (hc4 : ¬k0_cond4 i = 1#1)
    (xa : Vec F S200x10000 .f32) (s1 s2 : Vec F S10000x32 .f32) (E : Set ℕ) (K : PUnit → sProp 𝕄) :
    iprop(owns (c : Thread nD τ) arg2 fullShare xa ∗ owns (c : Thread nD τ) arg14 fullShare s1 ∗ owns (c : Thread nD τ) arg15 fullShare s2
        ∗ (iprop(owns (c : Thread nD τ) arg2 fullShare xa ∗ owns (c : Thread nD τ) arg14 fullShare s1
            ∗ owns (c : Thread nD τ) arg15 fullShare (arg15.view.read (Elt F) (arg15.view.writes (Elt F) (harg15.unread s2) [⟨Rect.unit (s := S10000x32) (k0_off2 i) S200x32.size (k0_off2_inb i hc3), k0_pay3 xa s1⟩]))) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  have h := (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 xa s1).2 s2 E K
  rw [runC_pieces] at h
  iintro ⟨H2, H14, H15, Hk⟩
  iapply h
  isplitl [H2]; · iexact H2
  isplitl [H14]; · iexact H14
  isplitl [H15]; · iexact H15
  iintro ⟨H2, H14, H15⟩
  iapply Hk
  isplitl [H2]; · iexact H2
  isplitl [H14]; · iexact H14
  unfold owns; iexists _; isplitr; swap; · iexact H15
  ipureintro; rfl

end Cert.KernelIdeal.Body

end
-- ==== Proof.KRunD.lean ====
/-
  The body at point 100: only the fourth branch runs.  It loads the whole third scratch, the two normalisation rows,
  the two projection matrices and their bias rows; stores the normalised features over the whole first output block,
  and the projection head applied to them over the whole second output block.
-/
import proofs.«151931_g16346645529038_cont_7to1_1029_4_alg».proof.Proof.KBase

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The stores the body makes into the two output blocks at the last point, found by running it, with the proof that
    from the third scratch and the inputs it reads owned whole, and the two output blocks owned at any contents, it runs
    to any continuation that takes them back, each output block with its stores written. -/
noncomputable def runD (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : ¬cond1 i = 1#1) (hc2 : ¬k0_cond2 i = 1#1) (hc3 : ¬k0_cond3 i = 1#1) (hc4 : k0_cond4 i = 1#1)
    (s2 : Vec F S10000x32 .f32) (g be : Vec F S1x32 .f32) (wp1 : Vec F S32x32 .f32) (bp1 : Vec F S1x32 .f32)
    (wp2 : Vec F S32x32 .f32) (bp2 : Vec F S1x32 .f32) :
    Σ' (L10 : List (View.Piece (Elt F) S10000x32 .f32)), { L11 : List (View.Piece (Elt F) S10000x32 .f32) //
      ∀ (E : Set ℕ) (K : PUnit → sProp 𝕄),
        iprop(owns (c : Thread nD τ) arg15 fullShare s2 ∗ owns (c : Thread nD τ) arg5 fullShare g ∗ owns (c : Thread nD τ) arg6 fullShare be ∗ owns (c : Thread nD τ) arg7 fullShare wp1 ∗ owns (c : Thread nD τ) arg8 fullShare bp1 ∗ owns (c : Thread nD τ) arg9 fullShare wp2 ∗ owns (c : Thread nD τ) arg10 fullShare bp2
            ∗ (∃ d, owns (c : Thread nD τ) arg11 fullShare d) ∗ (∃ d, owns (c : Thread nD τ) arg12 fullShare d)
            ∗ (iprop(owns (c : Thread nD τ) arg15 fullShare s2 ∗ owns (c : Thread nD τ) arg5 fullShare g ∗ owns (c : Thread nD τ) arg6 fullShare be ∗ owns (c : Thread nD τ) arg7 fullShare wp1 ∗ owns (c : Thread nD τ) arg8 fullShare bp1 ∗ owns (c : Thread nD τ) arg9 fullShare wp2 ∗ owns (c : Thread nD τ) arg10 fullShare bp2
                ∗ (∃ f, (arg11.view.loc (c : Thread nD τ) ↦[arg11.view.set]{fullShare} arg11.view.writes (Elt F) f L10))
                ∗ (∃ f, (arg12.view.loc (c : Thread nD τ) ↦[arg12.view.set]{fullShare} arg12.view.writes (Elt F) f L11))) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__fused_body_eq_skeleton]; unfold cc0__fused_body_skel
    rw [k0_part1_eq_skeleton]; unfold k0_part1_skel
    unfold owns
    iintro ⟨⟨%f15, %hf15, H15⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
    obtain rfl := harg15.eq_unread hf15; obtain rfl := harg5.eq_unread hf5; obtain rfl := harg6.eq_unread hf6
    obtain rfl := harg7.eq_unread hf7; obtain rfl := harg8.eq_unread hf8; obtain rfl := harg9.eq_unread hf9
    obtain rfl := harg10.eq_unread hf10
    sl_exec (disch := first | exact hc1 | exact hc2 | exact hc3 | exact hc4)
    sl_step
    iapply Hk
    isplitl [H15]
    · iexists _; isplitr; · ipureintro; exact harg15.read_unread _
      iexact H15
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    iexists _; iexact H12

/-- The store of the last point into the first output block: the normalised third scratch, over the whole block. -/
theorem runD_pieces10 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : ¬cond1 i = 1#1) (hc2 : ¬k0_cond2 i = 1#1) (hc3 : ¬k0_cond3 i = 1#1) (hc4 : k0_cond4 i = 1#1)
    (s2 : Vec F S10000x32 .f32) (g be : Vec F S1x32 .f32) (wp1 : Vec F S32x32 .f32) (bp1 : Vec F S1x32 .f32)
    (wp2 : Vec F S32x32 .f32) (bp2 : Vec F S1x32 .f32) :
    (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 s2 g be wp1 bp1 wp2 bp2).1
      = [⟨Rect.unit (s := S10000x32) ![0, 0] S10000x32.size inb_S10000x32_S10000x32_0_0, k0_pay5 s2 g be⟩] := by
  unfold runD
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, View.ld_unit_zero (S := S200x10000) hz2, View.ld_unit_zero (S := S10000x32) hz2, View.ld_unit_zero (S := S10000x128) hz2, View.ld_unit_zero (S := S128x32) hz2, View.ld_unit_zero (S := S1x32) hz2, View.ld_unit_zero (S := S32x32) hz2]

/-- The store of the last point into the second output block: the projection head of the normalised third scratch. -/
theorem runD_pieces11 (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : ¬cond1 i = 1#1) (hc2 : ¬k0_cond2 i = 1#1) (hc3 : ¬k0_cond3 i = 1#1) (hc4 : k0_cond4 i = 1#1)
    (s2 : Vec F S10000x32 .f32) (g be : Vec F S1x32 .f32) (wp1 : Vec F S32x32 .f32) (bp1 : Vec F S1x32 .f32)
    (wp2 : Vec F S32x32 .f32) (bp2 : Vec F S1x32 .f32) :
    (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 s2 g be wp1 bp1 wp2 bp2).2.1
      = [⟨Rect.unit (s := S10000x32) ![0, 0] S10000x32.size inb_S10000x32_S10000x32_0_0,
          k0_pay4 (k0_pay6 s2 g be wp1 bp1) wp2 (constant S10000x32 .f32 0x00000000#32) bp2⟩] := by
  unfold runD
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, View.ld_unit_zero (S := S200x10000) hz2, View.ld_unit_zero (S := S10000x32) hz2, View.ld_unit_zero (S := S10000x128) hz2, View.ld_unit_zero (S := S128x32) hz2, View.ld_unit_zero (S := S1x32) hz2, View.ld_unit_zero (S := S32x32) hz2]

set_option maxHeartbeats 2000000 in
/-- The body at the last point, with what it leaves named: the first output block at the normalised third scratch, the
    second at the projection head of that. -/
theorem tripleD (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S10000x32 .f32) (harg11 : arg11.IsWhole) (arg12 : Memref sig .tc .vmem S10000x32 .f32) (harg12 : arg12.IsWhole) (arg13 : Memref sig .tc .vmem S10000x32 .f32) (harg13 : arg13.IsWhole) (arg14 : Memref sig .tc .vmem S10000x32 .f32) (harg14 : arg14.IsWhole) (arg15 : Memref sig .tc .vmem S10000x32 .f32) (harg15 : arg15.IsWhole)
    (hc1 : ¬cond1 i = 1#1) (hc2 : ¬k0_cond2 i = 1#1) (hc3 : ¬k0_cond3 i = 1#1) (hc4 : k0_cond4 i = 1#1)
    (s2 : Vec F S10000x32 .f32) (g be : Vec F S1x32 .f32) (wp1 : Vec F S32x32 .f32) (bp1 : Vec F S1x32 .f32)
    (wp2 : Vec F S32x32 .f32) (bp2 : Vec F S1x32 .f32) (E : Set ℕ) (K : PUnit → sProp 𝕄) :
    iprop(owns (c : Thread nD τ) arg15 fullShare s2 ∗ owns (c : Thread nD τ) arg5 fullShare g ∗ owns (c : Thread nD τ) arg6 fullShare be ∗ owns (c : Thread nD τ) arg7 fullShare wp1 ∗ owns (c : Thread nD τ) arg8 fullShare bp1 ∗ owns (c : Thread nD τ) arg9 fullShare wp2 ∗ owns (c : Thread nD τ) arg10 fullShare bp2
        ∗ (∃ d, owns (c : Thread nD τ) arg11 fullShare d) ∗ (∃ d, owns (c : Thread nD τ) arg12 fullShare d)
        ∗ (iprop(owns (c : Thread nD τ) arg15 fullShare s2 ∗ owns (c : Thread nD τ) arg5 fullShare g ∗ owns (c : Thread nD τ) arg6 fullShare be ∗ owns (c : Thread nD τ) arg7 fullShare wp1 ∗ owns (c : Thread nD τ) arg8 fullShare bp1 ∗ owns (c : Thread nD τ) arg9 fullShare wp2 ∗ owns (c : Thread nD τ) arg10 fullShare bp2
            ∗ owns (c : Thread nD τ) arg11 fullShare (k0_pay5 s2 g be)
            ∗ owns (c : Thread nD τ) arg12 fullShare (k0_pay4 (k0_pay6 s2 g be wp1 bp1) wp2 (constant S10000x32 .f32 0x00000000#32) bp2)) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  have p0 := runD_pieces10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 s2 g be wp1 bp1 wp2 bp2
  have p1 := runD_pieces11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 s2 g be wp1 bp1 wp2 bp2
  generalize runD c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 s2 g be wp1 bp1 wp2 bp2 = R at p0 p1
  obtain ⟨L0, L1, hL⟩ := R
  dsimp only at p0 p1
  subst p0 p1
  have h := hL E K
  iintro ⟨H15, H5, H6, H7, H8, H9, H10, H11, H12, Hk⟩
  iapply h
  isplitl [H15]; · iexact H15
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H15, H5, H6, H7, H8, H9, H10, ⟨%f11, H11⟩, ⟨%f12, H12⟩⟩
  iapply Hk
  isplitl [H15]; · iexact H15
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr; swap; · iexact H11
    ipureintro; exact read_whole_store arg11 _ _
  unfold owns; iexists _; isplitr; swap; · iexact H12
  ipureintro; exact read_whole_store arg12 _ _

end Cert.KernelIdeal.Body

end
-- ==== Proof.KSound.lean ====
/-
  The body at any grid point meets the pipeline's obligation.

  The point's number decides which branches run.  In each case the body is handed the scratch buffers at contents
  satisfying the invariant at this point and the windows' buffers at their blocks, runs, and hands back the scratch
  buffers at contents satisfying the invariant at the next point, the inputs untouched, and — at the last point only —
  the two output blocks at the normalised z3 and its projection head (the third scratch being z3 everywhere by then).
  Away from the last point the outputs are idle: whatever they held is handed back.
-/
import proofs.«151931_g16346645529038_cont_7to1_1029_4_alg».proof.Proof.KInv
import proofs.«151931_g16346645529038_cont_7to1_1029_4_alg».proof.Proof.KRunA
import proofs.«151931_g16346645529038_cont_7to1_1029_4_alg».proof.Proof.KRunB
import proofs.«151931_g16346645529038_cont_7to1_1029_4_alg».proof.Proof.KRunC
import proofs.«151931_g16346645529038_cont_7to1_1029_4_alg».proof.Proof.KRunD

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem liveAt6 : ∀ t : Fin cfg0.N, cfg0.idle 6 (grid0.coords t) = false := by decide +kernel
theorem liveAt7 : ∀ t : Fin cfg0.N, cfg0.idle 7 (grid0.coords t) = false := by decide +kernel
theorem liveAt8 : ∀ t : Fin cfg0.N, cfg0.idle 8 (grid0.coords t) = false := by decide +kernel
theorem liveAt9 : ∀ t : Fin cfg0.N, cfg0.idle 9 (grid0.coords t) = false := by decide +kernel

/-- What the body is called with at point t: the invariant, the core's dues, each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl]
  rw [Phi_succ m c t, Phi_castSucc m c t]
  unfold Phi
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [show (dats m 0 c).leavesExact 6 t = owns (c : Thread nD τ) (ms6 t) fullShare ((dats m 0 c).after 6 t) from by
    unfold Dat.leavesExact; rw [liveAt6 t], after6]
  rw [show (dats m 0 c).leavesExact 7 t = owns (c : Thread nD τ) (ms7 t) fullShare ((dats m 0 c).after 7 t) from by
    unfold Dat.leavesExact; rw [liveAt7 t], after7]
  rw [show (dats m 0 c).leavesExact 8 t = owns (c : Thread nD τ) (ms8 t) fullShare ((dats m 0 c).after 8 t) from by
    unfold Dat.leavesExact; rw [liveAt8 t], after8]
  rw [show (dats m 0 c).leavesExact 9 t = owns (c : Thread nD τ) (ms9 t) fullShare ((dats m 0 c).after 9 t) from by
    unfold Dat.leavesExact; rw [liveAt9 t], after9]
  have hN : t.val < 101 := lt_of_lt_of_eq t.isLt N101
  by_cases hA : t.val = 0
  · -- point 0
    have c1 : cond1 (grid0.coords t) = 1#1 := (hc1 t).mpr hA
    have c2 : k0_cond2 (grid0.coords t) = 1#1 := (hc2 t).mpr (by omega)
    have c3 : ¬k0_cond3 (grid0.coords t) = 1#1 := fun h => by have := (hc3 t).mp h; omega
    have c4 : ¬k0_cond4 (grid0.coords t) = 1#1 := fun h => by have := (hc4 t).mp h; omega
    rw [Dat.leavesExact_idle (dats m 0 c) 10 t (idle10 t c4) (noFlush10 t c4), Dat.leavesExact_idle (dats m 0 c) 11 t (idle11 t c4) (noFlush11 t c4)]
    iintro ⟨⟨%s0, %s1, %s2, %hinv, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (tripleA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) c1 c2 c3 c4 (iblk m c 0 t) (iblk m c 2 t) (iblk m c 3 t) (iblk m c 1 t) s0 s1 Set.univ _)
    isplitl [H0]; · iexact H0
    isplitl [H2]; · iexact H2
    isplitl [H3]; · iexact H3
    isplitl [H1]; · iexact H1
    isplitl [HS0]; · iexact HS0
    isplitl [HS1]; · iexact HS1
    iintro ⟨H0, H2, H3, H1, HS0, HS1⟩
    isplitl [HS0 HS1 HS2 Hg]
    · iexists _, _, s2
      isplitr
      · ipureintro; exact inv_stepA m c t hA s0 s1 s2 (k0_off1_inb (grid0.coords t) c2)
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11
  by_cases hB : t.val < 50
  · -- a point 0 < t < 50
    have c1 : ¬cond1 (grid0.coords t) = 1#1 := fun h => hA ((hc1 t).mp h)
    have c2 : k0_cond2 (grid0.coords t) = 1#1 := (hc2 t).mpr hB
    have c3 : ¬k0_cond3 (grid0.coords t) = 1#1 := fun h => by have := (hc3 t).mp h; omega
    have c4 : ¬k0_cond4 (grid0.coords t) = 1#1 := fun h => by have := (hc4 t).mp h; omega
    rw [Dat.leavesExact_idle (dats m 0 c) 10 t (idle10 t c4) (noFlush10 t c4), Dat.leavesExact_idle (dats m 0 c) 11 t (idle11 t c4) (noFlush11 t c4)]
    iintro ⟨⟨%s0, %s1, %s2, %hinv, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (tripleB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) c1 c2 c3 c4 (iblk m c 1 t) s0 s1 Set.univ _)
    isplitl [H1]; · iexact H1
    isplitl [HS0]; · iexact HS0
    isplitl [HS1]; · iexact HS1
    iintro ⟨H1, HS0, HS1⟩
    isplitl [HS0 HS1 HS2 Hg]
    · iexists s0, _, s2
      isplitr
      · ipureintro; exact inv_stepB m c t (by omega) hB s0 s1 s2 hinv (k0_off1_inb (grid0.coords t) c2)
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11
  by_cases hC : t.val < 100
  · -- a point 50 ≤ t < 100
    have c1 : ¬cond1 (grid0.coords t) = 1#1 := fun h => hA ((hc1 t).mp h)
    have c2 : ¬k0_cond2 (grid0.coords t) = 1#1 := fun h => hB ((hc2 t).mp h)
    have c3 : k0_cond3 (grid0.coords t) = 1#1 := (hc3 t).mpr ⟨by omega, hC⟩
    have c4 : ¬k0_cond4 (grid0.coords t) = 1#1 := fun h => by have := (hc4 t).mp h; omega
    rw [Dat.leavesExact_idle (dats m 0 c) 10 t (idle10 t c4) (noFlush10 t c4), Dat.leavesExact_idle (dats m 0 c) 11 t (idle11 t c4) (noFlush11 t c4)]
    iintro ⟨⟨%s0, %s1, %s2, %hinv, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (tripleC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) c1 c2 c3 c4 (iblk m c 1 t) s1 s2 Set.univ _)
    isplitl [H1]; · iexact H1
    isplitl [HS1]; · iexact HS1
    isplitl [HS2]; · iexact HS2
    iintro ⟨H1, HS1, HS2⟩
    isplitl [HS0 HS1 HS2 Hg]
    · iexists s0, s1, _
      isplitr
      · ipureintro; exact inv_stepC m c t (by omega) hC s0 s1 s2 hinv (k0_off2_inb (grid0.coords t) c3)
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11
  · -- the last point
    have hD : t.val = 100 := by omega
    have c1 : ¬cond1 (grid0.coords t) = 1#1 := fun h => hA ((hc1 t).mp h)
    have c2 : ¬k0_cond2 (grid0.coords t) = 1#1 := fun h => hB ((hc2 t).mp h)
    have c3 : ¬k0_cond3 (grid0.coords t) = 1#1 := fun h => hC ((hc3 t).mp h).2
    have c4 : k0_cond4 (grid0.coords t) = 1#1 := (hc4 t).mpr hD
    rw [show (dats m 0 c).leavesExact 10 t = owns (c : Thread nD τ) (ms10 t) fullShare ((dats m 0 c).after 10 t) from by
      unfold Dat.leavesExact; rw [live10 t c4], after10]
    rw [show (dats m 0 c).leavesExact 11 t = owns (c : Thread nD τ) (ms11 t) fullShare ((dats m 0 c).after 11 t) from by
      unfold Dat.leavesExact; rw [live11 t c4], after11]
    iintro ⟨⟨%s0, %s1, %s2, %hinv, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    have e2 : s2 = Z3 m c := inv_last m c t hD s0 s1 s2 hinv
    subst e2
    iapply (tripleD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) c1 c2 c3 c4 (Z3 m c) (iblk m c 4 t) (iblk m c 5 t) (iblk m c 6 t) (iblk m c 7 t) (iblk m c 8 t) (iblk m c 9 t) Set.univ _)
    isplitl [HS2]; · iexact HS2
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    iintro ⟨HS2, H4, H5, H6, H7, H8, H9, H10, H11⟩
    isplitl [HS0 HS1 HS2 Hg]
    · iexists s0, s1, (Z3 m c)
      isplitr
      · ipureintro; exact inv_stepD m c t hD s0 s1 (Z3 m c) hinv
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.KernelIdeal.Body

end
-- ==== Proof.KMain.lean ====
/-
  The launch: the body's obligation at every point, the invariant at the region's entry (nothing is claimed of the
  scratch buffers there) and exit (what they hold is forgotten), hence the run of the whole program to the pipeline's
  post — every window's array at what the proof data say, every other buffer as the region found it — and the frame:
  the ten argument arrays end unchanged.
-/
import proofs.«151931_g16346645529038_cont_7to1_1029_4_alg».proof.Proof.KSound

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 from rfl, PhiA_eq]
  unfold Phi
  iintro ⟨⟨⟨%d0, HS0⟩, ⟨%d1, HS1⟩, ⟨%d2, HS2⟩⟩, Hg⟩
  iexists d0, d1, d2
  isplitr
  · ipureintro; exact inv_zero m c d0 d1 d2
  isplitl [HS0]; · iexact HS0
  isplitl [HS1]; · iexact HS1
  isplitl [HS2]; · iexact HS2
  iexact Hg

/-- After the last point the invariant gives the class invariant back. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq]
  unfold Phi
  iintro ⟨%s0, %s1, %s2, %hinv, HS0, HS1, HS2, Hg⟩
  isplitl [HS0 HS1 HS2]
  · isplitl [HS0]; · iexists _; iexact HS0
    isplitl [HS1]; · iexists _; iexact HS1
    iexists _; iexact HS2
  iexact Hg

set_option backward.isDefEq.respectTransparency.types false in
/-- Every weakly fair execution of the program terminates, nothing faulting, with every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the ten argument arrays end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Body

end
-- ==== Proof.KFinal.lean ====
/-
  The two output arrays after the run.

  Each output window's block is the whole [10000, 32] array at block index (0, 0), and the window is written back at
  the last grid point only.  So the array ends holding exactly what the last point leaves in the window's staging
  buffer: that one block covers every index, and reading an array through it is reading the array itself.
-/
import proofs.«151931_g16346645529038_cont_7to1_1029_4_alg».proof.Proof.KState
import Idealize.ShloMosaic.Lib.Pipeline.Value

noncomputable section

namespace Cert.KernelIdeal.KFinal

open Cert.KernelIdeal Cert.KernelIdeal.Gen Cert.KernelIdeal.Body Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-! ## Output window 10 -/

/-- The window's block index is (0, 0) at every point: its block is the whole array. -/
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

/-- The only point that writes the window back is the last. -/
theorem flush10_eq (t : Fin cfg0.N) (h : (cfg0.win 10).flush t = true) : t = pt 100 := by
  have h1 : t.val % 101 = 100 := (flush0_10 t).mp h
  have h2 : t.val < 101 := lt_of_lt_of_eq t.isLt N101
  apply Fin.ext
  rw [pt_val 100 (by decide)]
  omega

/-- The last point does write it back. -/
theorem flush10_last : (cfg0.win 10).flush (pt 100) = true :=
  (flush0_10 _).mpr (by rw [pt_val 100 (by decide)])

/-- An index of the array is in point t's block iff each coordinate is in the block's range on its axis. -/
theorem mem_blk10 (t : Fin cfg0.N) (i : S10000x32.Idx) :
    i ∈ ((cfg0.win 10).blk t).view.set ↔ ∀ a : Fin 2, win0_10.index t a * S10000x32.size a ≤ (i a).val ∧ (i a).val < win0_10.index t a * S10000x32.size a + S10000x32.size a := by
  show i ∈ ((View.whole main_v5_0).slice (win0_10.rect t)).set ↔ _
  rw [View.set_slice_whole, Rect.mem_set_unit]
  exact Iff.rfl

/-- Reading an array through the block of any point gives the array: the block is all of it, at offset 0. -/
theorem read_blk10 (t : Fin cfg0.N) (G : S10000x32.Idx → Elt F .f32) :
    ((cfg0.win 10).blk t).view.read (Elt F) G = G := by
  obtain ⟨e0, e1⟩ := idx10 t
  funext j
  show G (((cfg0.win 10).blk t).view.emb j) = G j
  refine congrArg G (funext fun a => Fin.ext ?_)
  match a with
  | ⟨0, _⟩ => show win0_10.index t (0 : Fin 2) * 10000 + 1 * (j 0).val = (j 0).val; omega
  | ⟨1, _⟩ => show win0_10.index t (1 : Fin 2) * 32 + 1 * (j 1).val = (j 1).val; omega

/-- The array after the run is what the last point leaves in the window's buffer. -/
theorem final10 (c : Dev nD) : (dats m 0 c).arrAt 10 cfg0.N = OUT10 m c (pt 100) := by
  refine (dats m 0 c).arrAt_eq_of_cover 10 (OUT10 m c (pt 100)) (fun t hf => ?_) (fun i => ?_)
  · obtain rfl := flush10_eq t hf
    show (cfg0.win 10).cut (grid0.coords (pt 100)) ((dats m 0 c).after 10 (pt 100)) = _
    rw [after10, read_blk10]
    rfl
  · obtain ⟨e0, e1⟩ := idx10 (pt 100)
    refine ⟨pt 100, flush10_last, (mem_blk10 _ i).mpr fun a => ?_⟩
    match a with
    | ⟨0, _⟩ =>
      show win0_10.index (pt 100) (0 : Fin 2) * 10000 ≤ (i 0).val ∧ (i 0).val < win0_10.index (pt 100) (0 : Fin 2) * 10000 + 10000
      have hi : (i 0).val < 10000 := (i 0).isLt
      omega
    | ⟨1, _⟩ =>
      show win0_10.index (pt 100) (1 : Fin 2) * 32 ≤ (i 1).val ∧ (i 1).val < win0_10.index (pt 100) (1 : Fin 2) * 32 + 32
      have hi : (i 1).val < 32 := (i 1).isLt
      omega

/-! ## Output window 11 -/

/-- The window's block index is (0, 0) at every point: its block is the whole array. -/
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-- The only point that writes the window back is the last. -/
theorem flush11_eq (t : Fin cfg0.N) (h : (cfg0.win 11).flush t = true) : t = pt 100 := by
  have h1 : t.val % 101 = 100 := (flush0_11 t).mp h
  have h2 : t.val < 101 := lt_of_lt_of_eq t.isLt N101
  apply Fin.ext
  rw [pt_val 100 (by decide)]
  omega

/-- The last point does write it back. -/
theorem flush11_last : (cfg0.win 11).flush (pt 100) = true :=
  (flush0_11 _).mpr (by rw [pt_val 100 (by decide)])

/-- An index of the array is in point t's block iff each coordinate is in the block's range on its axis. -/
theorem mem_blk11 (t : Fin cfg0.N) (i : S10000x32.Idx) :
    i ∈ ((cfg0.win 11).blk t).view.set ↔ ∀ a : Fin 2, win0_11.index t a * S10000x32.size a ≤ (i a).val ∧ (i a).val < win0_11.index t a * S10000x32.size a + S10000x32.size a := by
  show i ∈ ((View.whole main_v5_1).slice (win0_11.rect t)).set ↔ _
  rw [View.set_slice_whole, Rect.mem_set_unit]
  exact Iff.rfl

/-- Reading an array through the block of any point gives the array: the block is all of it, at offset 0. -/
theorem read_blk11 (t : Fin cfg0.N) (G : S10000x32.Idx → Elt F .f32) :
    ((cfg0.win 11).blk t).view.read (Elt F) G = G := by
  obtain ⟨e0, e1⟩ := idx11 t
  funext j
  show G (((cfg0.win 11).blk t).view.emb j) = G j
  refine congrArg G (funext fun a => Fin.ext ?_)
  match a with
  | ⟨0, _⟩ => show win0_11.index t (0 : Fin 2) * 10000 + 1 * (j 0).val = (j 0).val; omega
  | ⟨1, _⟩ => show win0_11.index t (1 : Fin 2) * 32 + 1 * (j 1).val = (j 1).val; omega

/-- The array after the run is what the last point leaves in the window's buffer. -/
theorem final11 (c : Dev nD) : (dats m 0 c).arrAt 11 cfg0.N = OUT11 m c (pt 100) := by
  refine (dats m 0 c).arrAt_eq_of_cover 11 (OUT11 m c (pt 100)) (fun t hf => ?_) (fun i => ?_)
  · obtain rfl := flush11_eq t hf
    show (cfg0.win 11).cut (grid0.coords (pt 100)) ((dats m 0 c).after 11 (pt 100)) = _
    rw [after11, read_blk11]
    rfl
  · obtain ⟨e0, e1⟩ := idx11 (pt 100)
    refine ⟨pt 100, flush11_last, (mem_blk11 _ i).mpr fun a => ?_⟩
    match a with
    | ⟨0, _⟩ =>
      show win0_11.index (pt 100) (0 : Fin 2) * 10000 ≤ (i 0).val ∧ (i 0).val < win0_11.index (pt 100) (0 : Fin 2) * 10000 + 10000
      have hi : (i 0).val < 10000 := (i 0).isLt
      omega
    | ⟨1, _⟩ =>
      show win0_11.index (pt 100) (1 : Fin 2) * 32 ≤ (i 1).val ∧ (i 1).val < win0_11.index (pt 100) (1 : Fin 2) * 32 + 32
      have hi : (i 1).val < 32 := (i 1).isLt
      omega

end Cert.KernelIdeal.KFinal

end
-- ==== Proof.Spec.lean ====
/-
  The function both programs compute, index by index on the extended reals.

  From the inputs x : [10000,128], a : [10000,10000], W1 : [128,32], b1, gamma, beta : [32], Wp1, Wp2 : [32,32],
  bp1, bp2 : [32]:
    z1 = max (x·W1 + b1) 0                      (a dense layer and its rectifier)
    z2 = a·z1,  z3 = a·z2                       (two propagations through the dense adjacency)
    mean_j = (Σ_r z3(r,j)) / N,  var_j = (Σ_r (z3(r,j) − mean_j)²) / N        (N = 10000, statistics over the rows)
    zn(r,j) = (z3(r,j) − mean_j) / sqrt (var_j + ε) · gamma_j + beta_j
    h = max (zn·Wp1 + bp1) 0,   p = h·Wp2 + bp2
  The results are zn and p.  Every product is the plain matrix product: entry (r, j) is the sum over k of the left
  operand at (r, k) times the right operand at (k, j).  N and ε are kept as the float words both programs spell,
  so neither is ever evaluated; the quotient is the extended reals' (Ideal.div), the root theirs too.
-/
import Idealize.ShloMosaic.PureOps.Ideal
import Idealize.ShloMosaic.Lib.ValueIdx

noncomputable section

namespace Cert.Spec

open Idealize.ShloMosaic Idealize.ShloMosaic.ValueIdx
open scoped BigOperators

/-- A rank-2 array of extended reals with R rows and C columns. -/
abbrev Mat (R C : Nat) : Type := (⟨2, ![R, C]⟩ : Shape).Idx → EReal
/-- A rank-1 array of extended reals of length C. -/
abbrev Vc (C : Nat) : Type := (⟨1, ![C]⟩ : Shape).Idx → EReal

/-- The number of rows, as the float word 1.0e4 both programs divide by. -/
def nRows : EReal := Ideal.ofBits .f32 0x461C4000#32
/-- The variance's regulariser, as the float word both programs add. -/
def eps : EReal := Ideal.ofBits .f32 0x3727C5AC#32

/-- The plain matrix product: entry (r, j) is Σ_k X(r,k) · W(k,j). -/
def prod {R K C : Nat} (X : Mat R K) (W : Mat K C) : Mat R C :=
  fun i => ∑ k : Fin K, X (ix2 (i 0) k) * W (ix2 k (i 1))

/-- A dense layer with rectifier: max (X·W + b) 0, the bias repeated over the rows. -/
def dense {R K C : Nat} (X : Mat R K) (W : Mat K C) (b : Vc C) : Mat R C :=
  fun i => max (prod X W i + b (ix1 (i 1))) 0

/-- A dense layer without rectifier: X·W + b. -/
def affine {R K C : Nat} (X : Mat R K) (W : Mat K C) (b : Vc C) : Mat R C :=
  fun i => prod X W i + b (ix1 (i 1))

/-- Column means over the R rows: (Σ_r Z(r,j)) / N. -/
def colMean {R C : Nat} (Z : Mat R C) : Fin C → EReal :=
  fun j => Ideal.div (∑ r : Fin R, Z (ix2 r j)) nRows

/-- Biased column variances: (Σ_r (Z(r,j) − mean_j)²) / N. -/
def colVar {R C : Nat} (Z : Mat R C) : Fin C → EReal :=
  fun j => Ideal.div (∑ r : Fin R, (Z (ix2 r j) - colMean Z j) * (Z (ix2 r j) - colMean Z j)) nRows

/-- Normalisation over the rows with scale and shift: (Z − mean) / sqrt (var + ε) · g + be. -/
def norm {R C : Nat} (Z : Mat R C) (g be : Vc C) : Mat R C :=
  fun i => Ideal.div (Z i - colMean Z (i 1)) (Ideal.sqrt (colVar Z (i 1) + eps)) * g (ix1 (i 1)) + be (ix1 (i 1))

/-- The propagated features z3 = a·(a·z1), z1 the first dense layer. -/
def feat (x : Mat 10000 128) (a : Mat 10000 10000) (w1 : Mat 128 32) (b1 : Vc 32) : Mat 10000 32 :=
  prod a (prod a (dense x w1 b1))

/-- The first result: the normalised features. -/
def zn (x : Mat 10000 128) (a : Mat 10000 10000) (w1 : Mat 128 32) (b1 g be : Vc 32) : Mat 10000 32 :=
  norm (feat x a w1 b1) g be

/-- The second result: the projection head applied to the normalised features. -/
def proj (x : Mat 10000 128) (a : Mat 10000 10000) (w1 : Mat 128 32) (b1 g be : Vc 32)
    (wp1 : Mat 32 32) (bp1 : Vc 32) (wp2 : Mat 32 32) (bp2 : Vc 32) : Mat 10000 32 :=
  affine (dense (zn x a w1 b1 g be) wp1 bp1) wp2 bp2

end Cert.Spec

end
-- ==== Proof.KerMath.lean ====
/-
  What each stored value of the fused body is, index by index on the extended reals, against the common specification:
  the matrix products as plain sums over the contracted coordinate, a one-row array repeated over the rows, a vector
  viewed as one row, the sum over the rows; then the first dense layer, the two propagation blocks and the last
  projection layer.
-/
import proofs.«151931_g16346645529038_cont_7to1_1029_4_alg».proof.Proof.Spec
import proofs.«151931_g16346645529038_cont_7to1_1029_4_alg».proof.Proof.Gen.KernelIdeal.Skeleton
import Idealize.ShloMosaic.Lib.Pipeline.Value
import Idealize.ShloMosaic.PureOps.Ideal.Laws

noncomputable section

namespace Cert.KernelIdeal.KerMath

open Idealize.ShloMosaic Idealize.ShloMosaic.ValueIdx Cert.KernelIdeal Cert.KernelIdeal.Gen
open scoped BigOperators

/-- A matrix product whose dimension numbers contract the left operand's columns against the right operand's rows,
    accumulated into the zero splat, read at entry (a, b): the sum over c of A(a,c) · B(c,b). -/
theorem matmulZero_apply {m k n : Nat}
    (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) (a : Fin m) (b : Fin n) :
    matmul (⟨[1], [0], [0], [1], [], [], w⟩ : DotDims _ _ _) none A B
        (constant (F := Ideal) ⟨2, ![m, n]⟩ .f32 0x00000000#32) (ix2 a b)
      = ∑ c : Fin k, A (ix2 a c) * B (ix2 c b) := by
  show FloatOps.matmul _ none A B (constant ⟨2, ![m, n]⟩ .f32 0x00000000#32) (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The first layer's product at an entry. -/
theorem matmulA_apply (x : FVec Ideal S10000x128 .f32) (w : FVec Ideal S128x32 .f32) (p : Fin 10000) (q : Fin 32) :
    matmul dot_S10000x128_S128x32_S10000x32_1_0_0_1_n_n none x w (constant (F := Ideal) S10000x32 .f32 0x00000000#32) (ix2 p q)
      = ∑ c : Fin 128, x (ix2 p c) * w (ix2 c q) := matmulZero_apply _ x w p q

/-- A 200-row block's product at an entry. -/
theorem matmulB_apply (x : FVec Ideal S200x10000 .f32) (w : FVec Ideal S10000x32 .f32) (p : Fin 200) (q : Fin 32) :
    matmul dot_S200x10000_S10000x32_S200x32_1_0_0_1_n_n none x w (constant (F := Ideal) S200x32 .f32 0x00000000#32) (ix2 p q)
      = ∑ c : Fin 10000, x (ix2 p c) * w (ix2 c q) := matmulZero_apply _ x w p q

/-- A projection layer's product at an entry. -/
theorem matmulC_apply (x : FVec Ideal S10000x32 .f32) (w : FVec Ideal S32x32 .f32) (p : Fin 10000) (q : Fin 32) :
    matmul dot_S10000x32_S32x32_S10000x32_1_0_0_1_n_n none x w (constant (F := Ideal) S10000x32 .f32 0x00000000#32) (ix2 p q)
      = ∑ c : Fin 32, x (ix2 p c) * w (ix2 c q) := matmulZero_apply _ x w p q

/-- A one-row array repeated over 10000 rows (the cast to its own shape is the identity), read at (p, q): the row at q. -/
theorem rowBroadcast_apply {α : Type} (v : S1x32.Idx → α) (h1 : S1x32.ShapeCasts S1x32) (hb : S1x32.Broadcasts S10000x32)
    (p : Fin 10000) (q : Fin 32) :
    broadcastTo S10000x32 (shapeCast S1x32 v h1) hb (ix2 p q) = v (ix2 0 q) := by
  rw [shapeCast_self]
  exact broadcastTo_apply v hb (ix2 p q) (ix2 0 q) (fun a => by
    match a with
    | ⟨0, _⟩ => rfl
    | ⟨1, _⟩ => rfl)

/-- A vector of 32 entries viewed as one row of 32: entry (0, j) of the row is entry j of the vector. -/
theorem reshape_row {α : Type} (v : S32.Idx → α) (h : S32.ShapeCasts S1x32) (j : Fin 32) :
    (shapeCast S1x32 v h) (ix2 0 j) = v (ix1 j) := by
  refine (shapeCast_addUnit_apply ![32] v h (ix2 0 j)).trans (congrArg v ?_)
  funext a; match a with | ⟨0, _⟩ => rfl

/-- The sum over the rows of a 10000 × 32 array, read at column q. -/
theorem colSum_apply (src : FVec Ideal S10000x32 .f32) (h : S10000x32.Reduces [0] S32) (q : Fin 32) :
    multiReduction (F := Ideal) .add [0] S32 src 0x00000000#32 h (.inl rfl) rfl (ix1 q)
      = ∑ r : Fin 10000, src (ix2 r q) := by
  refine (Ideal.multiReduction_add_single src _ h (.inl rfl) rfl (ix1 q)).trans ?_
  refine Finset.sum_congr rfl fun r _ => congrArg src ?_
  funext a; apply Fin.ext; match a with | ⟨0, _⟩ => rfl | ⟨1, _⟩ => rfl

/-- The second payload: a block of 200 rows of the adjacency times the stored features is the same 200 rows of the
    whole product. -/
theorem pay2_apply (ab : Vec Ideal S200x10000 .f32) (z : Vec Ideal S10000x32 .f32) (a : Cert.Spec.Mat 10000 10000)
    (t : ℕ) (ht : t < 50)
    (hab : ∀ (r : Fin 200) (k : Fin 10000), ab (ix2 r k) = a (ix2 ⟨200 * t + r.val, by omega⟩ k))
    (r : Fin 200) (j : Fin 32) :
    k0_pay2 ab z (ix2 r j) = Cert.Spec.prod a z (ix2 ⟨200 * t + r.val, by omega⟩ j) := by
  have h0 : k0_pay2 ab z = matmul dot_S200x10000_S10000x32_S200x32_1_0_0_1_n_n none ab z
      (constant (F := Ideal) S200x32 .f32 0x00000000#32) := shapeCast_self _ _
  rw [h0]
  refine (matmulB_apply ab z r j).trans ?_
  exact Finset.sum_congr rfl fun c _ => congrArg (· * z (ix2 c j)) (hab r c)

/-- The third payload is the same product, of a block of the adjacency with the second stored array. -/
theorem pay3_apply (ab : Vec Ideal S200x10000 .f32) (z : Vec Ideal S10000x32 .f32) (a : Cert.Spec.Mat 10000 10000)
    (t : ℕ) (ht : t < 50)
    (hab : ∀ (r : Fin 200) (k : Fin 10000), ab (ix2 r k) = a (ix2 ⟨200 * t + r.val, by omega⟩ k))
    (r : Fin 200) (j : Fin 32) :
    k0_pay3 ab z (ix2 r j) = Cert.Spec.prod a z (ix2 ⟨200 * t + r.val, by omega⟩ j) := by
  have h0 : k0_pay3 ab z = matmul dot_S200x10000_S10000x32_S200x32_1_0_0_1_n_n none ab z
      (constant (F := Ideal) S200x32 .f32 0x00000000#32) := shapeCast_self _ _
  rw [h0]
  refine (matmulB_apply ab z r j).trans ?_
  exact Finset.sum_congr rfl fun c _ => congrArg (· * z (ix2 c j)) (hab r c)

/-- The first payload is the first dense layer with its rectifier. -/
theorem pay1_eq (x : Vec Ideal S10000x128 .f32) (w : Vec Ideal S128x32 .f32) (brow : Vec Ideal S1x32 .f32)
    (b : Cert.Spec.Vc 32) (hb : ∀ j : Fin 32, brow (ix2 0 j) = b (ix1 j)) :
    k0_pay1 x w brow = Cert.Spec.dense x w b := by
  funext i
  obtain ⟨p, q, rfl⟩ : ∃ (p : Fin 10000) (q : Fin 32), i = ix2 p q := ⟨i 0, i 1, eq_ix2 i⟩
  have h0 : k0_pay1 x w brow = maximumf (addf
      (matmul dot_S10000x128_S128x32_S10000x32_1_0_0_1_n_n none x w (constant (F := Ideal) S10000x32 .f32 0x00000000#32))
      (broadcastTo S10000x32 (shapeCast S1x32 brow shapeCasts_S1x32_S1x32) broadcasts_S1x32_S10000x32))
      (broadcast S10000x32 (Scalar.ofBits (F := Ideal) .f32 0x00000000#32)) := shapeCast_self _ _
  rw [h0, maximumf_apply, addf_apply, broadcast_apply, rowBroadcast_apply, matmulA_apply, hb]
  show max _ (Ideal.ofBits .f32 0x00000000#32) = _
  rw [Ideal.ofBits_zero_f32]
  rfl

/-- The fourth payload is the second layer of the projection head, without rectifier. -/
theorem pay4_eq (h : FVec Ideal S10000x32 .f32) (wp2 : Vec Ideal S32x32 .f32) (bp2row : Vec Ideal S1x32 .f32)
    (bp2 : Cert.Spec.Vc 32) (hbp2 : ∀ j : Fin 32, bp2row (ix2 0 j) = bp2 (ix1 j)) :
    k0_pay4 h wp2 (constant (F := Ideal) S10000x32 .f32 0x00000000#32) bp2row = Cert.Spec.affine h wp2 bp2 := by
  funext i
  obtain ⟨p, q, rfl⟩ : ∃ (p : Fin 10000) (q : Fin 32), i = ix2 p q := ⟨i 0, i 1, eq_ix2 i⟩
  unfold k0_pay4
  rw [addf_apply, rowBroadcast_apply, matmulC_apply, hbp2]
  rfl

end Cert.KernelIdeal.KerMath

end
-- ==== Proof.KerNorm.lean ====
/-
  The last grid point's values against the common specification: the column means and biased variances over the rows
  as sums, the normalisation with scale and shift, and the first layer of the projection head applied to it.
-/
import proofs.«151931_g16346645529038_cont_7to1_1029_4_alg».proof.Proof.KerMath

noncomputable section

namespace Cert.KernelIdeal.KerMath

open Idealize.ShloMosaic Idealize.ShloMosaic.ValueIdx Cert.KernelIdeal Cert.KernelIdeal.Gen
open scoped BigOperators

/-- A one-row array repeated over 10000 rows, read at (p, q): the row at q. -/
theorem bcRow_apply {α : Type} (v : S1x32.Idx → α) (hb : S1x32.Broadcasts S10000x32) (p : Fin 10000) (q : Fin 32) :
    broadcastTo S10000x32 v hb (ix2 p q) = v (ix2 0 q) :=
  broadcastTo_apply v hb (ix2 p q) (ix2 0 q) (fun a => by
    match a with
    | ⟨0, _⟩ => rfl
    | ⟨1, _⟩ => rfl)

/-- A square root of an array, read at an index, is the extended reals' root of the entry. -/
theorem sqrt_apply {s : Shape} (v : FVec Ideal s .f32) (i : s.Idx) : sqrt v i = Ideal.sqrt (v i) := rfl

/-- The row of column means as the body spells it: the sum over the rows, viewed as one row, over the row count. -/
def meanRow (z : FVec Ideal S10000x32 .f32) : FVec Ideal S1x32 .f32 :=
  divf (shapeCast S1x32 (multiReduction (F := Ideal) .add [0] S32 z 0x00000000#32 reduces_S10000x32_S32 (.inl rfl) rfl)
      shapeCasts_S32_S1x32)
    (broadcast S1x32 (Scalar.ofBits (F := Ideal) .f32 0x461C4000#32))

theorem meanRow_apply (z : FVec Ideal S10000x32 .f32) (q : Fin 32) : meanRow z (ix2 0 q) = Cert.Spec.colMean z q := by
  unfold meanRow
  rw [divf_apply, broadcast_apply, reshape_row, colSum_apply]
  rfl

/-- The array minus its column means. -/
def centred (z : FVec Ideal S10000x32 .f32) : FVec Ideal S10000x32 .f32 :=
  subf z (broadcastTo S10000x32 (meanRow z) broadcasts_S1x32_S10000x32)

theorem centred_apply (z : FVec Ideal S10000x32 .f32) (p : Fin 10000) (q : Fin 32) :
    centred z (ix2 p q) = z (ix2 p q) - Cert.Spec.colMean z q := by
  unfold centred
  rw [subf_apply, bcRow_apply, meanRow_apply]

/-- The row of biased column variances as the body spells it. -/
def varRow (z : FVec Ideal S10000x32 .f32) : FVec Ideal S1x32 .f32 :=
  divf (shapeCast S1x32 (multiReduction (F := Ideal) .add [0] S32 (mulf (centred z) (centred z)) 0x00000000#32
      reduces_S10000x32_S32 (.inl rfl) rfl) shapeCasts_S32_S1x32)
    (broadcast S1x32 (Scalar.ofBits (F := Ideal) .f32 0x461C4000#32))

theorem varRow_apply (z : FVec Ideal S10000x32 .f32) (q : Fin 32) : varRow z (ix2 0 q) = Cert.Spec.colVar z q := by
  unfold varRow
  rw [divf_apply, broadcast_apply, reshape_row, colSum_apply]
  refine congrArg (fun s => Ideal.div s Cert.Spec.nRows) (Finset.sum_congr rfl fun r _ => ?_)
  rw [mulf_apply, centred_apply]

/-- The fifth payload is the normalisation over the rows with scale and shift. -/
theorem pay5_eq (z : Vec Ideal S10000x32 .f32) (grow berow : Vec Ideal S1x32 .f32) (g be : Cert.Spec.Vc 32)
    (hg : ∀ j : Fin 32, grow (ix2 0 j) = g (ix1 j)) (hbe : ∀ j : Fin 32, berow (ix2 0 j) = be (ix1 j)) :
    k0_pay5 z grow berow = Cert.Spec.norm z g be := by
  funext i
  obtain ⟨p, q, rfl⟩ : ∃ (p : Fin 10000) (q : Fin 32), i = ix2 p q := ⟨i 0, i 1, eq_ix2 i⟩
  have h0 : k0_pay5 z grow berow = addf (mulf (divf (centred z)
        (broadcastTo S10000x32 (sqrt (addf (varRow z) (broadcast S1x32 (Scalar.ofBits (F := Ideal) .f32 0x3727C5AC#32))))
          broadcasts_S1x32_S10000x32))
        (broadcastTo S10000x32 (shapeCast S1x32 grow shapeCasts_S1x32_S1x32) broadcasts_S1x32_S10000x32))
      (broadcastTo S10000x32 (shapeCast S1x32 berow shapeCasts_S1x32_S1x32) broadcasts_S1x32_S10000x32) := rfl
  rw [h0, addf_apply, mulf_apply, divf_apply, rowBroadcast_apply, rowBroadcast_apply, bcRow_apply, centred_apply,
    sqrt_apply, addf_apply, varRow_apply, broadcast_apply, hg, hbe]
  rfl

/-- The sixth payload is the first layer of the projection head on the normalised features, with its rectifier. -/
theorem pay6_eq (z : Vec Ideal S10000x32 .f32) (grow berow : Vec Ideal S1x32 .f32) (g be : Cert.Spec.Vc 32)
    (hg : ∀ j : Fin 32, grow (ix2 0 j) = g (ix1 j)) (hbe : ∀ j : Fin 32, berow (ix2 0 j) = be (ix1 j))
    (wp1 : Vec Ideal S32x32 .f32) (bp1row : Vec Ideal S1x32 .f32) (bp1 : Cert.Spec.Vc 32)
    (hbp1 : ∀ j : Fin 32, bp1row (ix2 0 j) = bp1 (ix1 j)) :
    k0_pay6 z grow berow wp1 bp1row = Cert.Spec.dense (Cert.Spec.norm z g be) wp1 bp1 := by
  funext i
  obtain ⟨p, q, rfl⟩ : ∃ (p : Fin 10000) (q : Fin 32), i = ix2 p q := ⟨i 0, i 1, eq_ix2 i⟩
  unfold k0_pay6
  rw [pay5_eq z grow berow g be hg hbe, maximumf_apply, addf_apply, broadcast_apply, rowBroadcast_apply, matmulC_apply, hbp1]
  show max _ (Ideal.ofBits .f32 0x00000000#32) = _
  rw [Ideal.ofBits_zero_f32]
  rfl

end Cert.KernelIdeal.KerMath

end
-- ==== Proof.KerBlocks.lean ====
/-
  Each input window's block at a grid point, read back to the argument arrays as launched: the whole-array windows
  are the arrays themselves, the one-row windows are the bias and scale vectors viewed as one row, and the adjacency's
  window is a block of 200 consecutive rows, the 50 row blocks walked twice.  An entry of a block sits in the array at
  block index × block extent + its coordinate inside the block, on each axis.
-/
import proofs.«151931_g16346645529038_cont_7to1_1029_4_alg».proof.Proof.Gen.KernelIdeal.Frame
import Idealize.ShloMosaic.Lib.ValueIdx
import Idealize.ShloMosaic.Lib.Pipeline.Value
import proofs.«151931_g16346645529038_cont_7to1_1029_4_alg».proof.Proof.KerMath

set_option maxRecDepth 16384

noncomputable section

namespace Cert.KernelIdeal.KerBlocks

open Idealize.ShloMosaic Idealize.ShloMosaic.TcCoe Idealize.ShloMosaic.Tactic Idealize.ShloMosaic.ValueIdx
open Idealize.SL Idealize.SL.Sem
open Cert.KernelIdeal Cert.KernelIdeal.Gen

variable {F : FTy → Type} [FloatOps F]
variable (m : (ℓ : Loc nD τ sig) → Buf (Elt F) ℓ)

/-- Windows 0, 2, 6 and 8 are whole arrays: their one block sits at block index (0, 0) at every grid point. -/
theorem idxWhole : ∀ t : Fin cfg0.N,
    win0_0.index t (0 : Fin 2) = 0 ∧ win0_0.index t (1 : Fin 2) = 0
    ∧ win0_2.index t (0 : Fin 2) = 0 ∧ win0_2.index t (1 : Fin 2) = 0
    ∧ win0_6.index t (0 : Fin 2) = 0 ∧ win0_6.index t (1 : Fin 2) = 0
    ∧ win0_8.index t (0 : Fin 2) = 0 ∧ win0_8.index t (1 : Fin 2) = 0 :=
  (by decide +kernel : ∀ t : Fin grid0.N, _)

/-- Windows 3, 4, 5, 7 and 9 are whole one-row arrays: block index (0, 0) at every grid point. -/
theorem idxRow : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_7.index t (0 : Fin 2) = 0 ∧ win0_7.index t (1 : Fin 2) = 0
    ∧ win0_9.index t (0 : Fin 2) = 0 ∧ win0_9.index t (1 : Fin 2) = 0 :=
  (by decide +kernel : ∀ t : Fin grid0.N, _)

/-- Window 1 walks the adjacency's 50 row blocks twice: block t at the first fifty points, block t − 50 at the next
    fifty; its column block index is always 0. -/
theorem idxA : ∀ t : Fin cfg0.N,
    (t.val < 50 → win0_1.index t (0 : Fin 2) = t.val)
    ∧ (50 ≤ t.val → t.val < 100 → win0_1.index t (0 : Fin 2) = t.val - 50)
    ∧ win0_1.index t (1 : Fin 2) = 0 :=
  (by decide +kernel : ∀ t : Fin grid0.N, _)

/-- Window 0's block at any grid point is the whole array `main_arg0` as launched. -/
theorem blk0 (c : Dev nD) (t : Fin cfg0.N) (y : S10000x128.Idx) :
    iblk m c 0 t y = m ((c : Thread nD τ).loc main_arg0) y := by
  obtain ⟨e00, e01, e20, e21, e60, e61, e80, e81⟩ := idxWhole t
  show V m c main_arg0 (((cfg0.win 0).blk t).view.emb y) = _
  rw [V_main_arg0]
  refine congrArg _ ?_
  funext a; apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- Window 2's block at any grid point is the whole array `main_arg2` as launched. -/
theorem blk2 (c : Dev nD) (t : Fin cfg0.N) (y : S128x32.Idx) :
    iblk m c 2 t y = m ((c : Thread nD τ).loc main_arg2) y := by
  obtain ⟨e00, e01, e20, e21, e60, e61, e80, e81⟩ := idxWhole t
  show V m c main_arg2 (((cfg0.win 2).blk t).view.emb y) = _
  rw [V_main_arg2]
  refine congrArg _ ?_
  funext a; apply Fin.ext
  match a with
  | ⟨0, _⟩ => show win0_2.index t (0 : Fin 2) * 128 + 1 * (y 0).val = (y 0).val; omega
  | ⟨1, _⟩ => show win0_2.index t (1 : Fin 2) * 32 + 1 * (y 1).val = (y 1).val; omega

/-- Window 6's block at any grid point is the whole array `main_arg6` as launched. -/
theorem blk6 (c : Dev nD) (t : Fin cfg0.N) (y : S32x32.Idx) :
    iblk m c 6 t y = m ((c : Thread nD τ).loc main_arg6) y := by
  obtain ⟨e00, e01, e20, e21, e60, e61, e80, e81⟩ := idxWhole t
  show V m c main_arg6 (((cfg0.win 6).blk t).view.emb y) = _
  rw [V_main_arg6]
  refine congrArg _ ?_
  funext a; apply Fin.ext
  match a with
  | ⟨0, _⟩ => show win0_6.index t (0 : Fin 2) * 32 + 1 * (y 0).val = (y 0).val; omega
  | ⟨1, _⟩ => show win0_6.index t (1 : Fin 2) * 32 + 1 * (y 1).val = (y 1).val; omega

/-- Window 8's block at any grid point is the whole array `main_arg8` as launched. -/
theorem blk8 (c : Dev nD) (t : Fin cfg0.N) (y : S32x32.Idx) :
    iblk m c 8 t y = m ((c : Thread nD τ).loc main_arg8) y := by
  obtain ⟨e00, e01, e20, e21, e60, e61, e80, e81⟩ := idxWhole t
  show V m c main_arg8 (((cfg0.win 8).blk t).view.emb y) = _
  rw [V_main_arg8]
  refine congrArg _ ?_
  funext a; apply Fin.ext
  match a with
  | ⟨0, _⟩ => show win0_8.index t (0 : Fin 2) * 32 + 1 * (y 0).val = (y 0).val; omega
  | ⟨1, _⟩ => show win0_8.index t (1 : Fin 2) * 32 + 1 * (y 1).val = (y 1).val; omega

/-- At the first fifty grid points window 1's block is rows [200 t, 200 t + 200) of the adjacency as launched. -/
theorem blkA_lo (c : Dev nD) (t : Fin cfg0.N) (ht : t.val < 50) (r : Fin 200) (k : Fin 10000) :
    iblk m c 1 t (ix2 r k) = m ((c : Thread nD τ).loc main_arg1) (ix2 ⟨200 * t.val + r.val, by omega⟩ k) := by
  obtain ⟨e0, -, e1⟩ := idxA t
  have e0' := e0 ht
  show V m c main_arg1 (((cfg0.win 1).blk t).view.emb (ix2 r k)) = _
  rw [V_main_arg1]
  refine congrArg _ ?_
  funext a; apply Fin.ext
  match a with
  | ⟨0, _⟩ => show win0_1.index t (0 : Fin 2) * 200 + 1 * r.val = 200 * t.val + r.val; omega
  | ⟨1, _⟩ => show win0_1.index t (1 : Fin 2) * 10000 + 1 * k.val = k.val; omega

/-- At the next fifty grid points window 1's block is rows [200 (t − 50), 200 (t − 50) + 200) of the adjacency. -/
theorem blkA_hi (c : Dev nD) (t : Fin cfg0.N) (h1 : 50 ≤ t.val) (h2 : t.val < 100) (r : Fin 200) (k : Fin 10000) :
    iblk m c 1 t (ix2 r k) = m ((c : Thread nD τ).loc main_arg1) (ix2 ⟨200 * (t.val - 50) + r.val, by omega⟩ k) := by
  obtain ⟨-, e0, e1⟩ := idxA t
  have e0' := e0 h1 h2
  show V m c main_arg1 (((cfg0.win 1).blk t).view.emb (ix2 r k)) = _
  rw [V_main_arg1]
  refine congrArg _ ?_
  funext a; apply Fin.ext
  match a with
  | ⟨0, _⟩ => show win0_1.index t (0 : Fin 2) * 200 + 1 * r.val = 200 * (t.val - 50) + r.val; omega
  | ⟨1, _⟩ => show win0_1.index t (1 : Fin 2) * 10000 + 1 * k.val = k.val; omega

/-- The array `main_v0` the region finds is the vector `main_arg3` viewed as one row. -/
theorem main_v0_eq (c : Dev nD) : (V m c main_v0 : S1x32.Idx → Elt F .f32)
    = shapeCast S1x32 (m ((c : Thread nD τ).loc main_arg3)) shapeCasts_S32_S1x32 := by
  dsimp only [Gen.V, Gen.hostOps0]; after_results; rfl

/-- Window 3's block at any grid point, at (0, j), is entry j of `main_arg3` as launched. -/
theorem blkRow3 (c : Dev nD) (t : Fin cfg0.N) (j : Fin 32) :
    iblk m c 3 t (ix2 0 j) = m ((c : Thread nD τ).loc main_arg3) (ix1 j) := by
  obtain ⟨e30, e31, e40, e41, e50, e51, e70, e71, e90, e91⟩ := idxRow t
  show V m c main_v0 (((cfg0.win 3).blk t).view.emb (ix2 0 j)) = _
  have hemb : ((cfg0.win 3).blk t).view.emb (ix2 (0 : Fin 1) j) = (ix2 (0 : Fin 1) j : S1x32.Idx) := by
    funext a; apply Fin.ext
    match a with
    | ⟨0, _⟩ => show win0_3.index t (0 : Fin 2) * 1 + 1 * 0 = 0; omega
    | ⟨1, _⟩ => show win0_3.index t (1 : Fin 2) * 32 + 1 * j.val = j.val; omega
  refine (congrArg (V m c main_v0) hemb).trans ?_
  refine (congrFun (main_v0_eq m c) _).trans ?_
  exact Cert.KernelIdeal.KerMath.reshape_row _ _ j

/-- The array `main_v1` the region finds is the vector `main_arg4` viewed as one row. -/
theorem main_v1_eq (c : Dev nD) : (V m c main_v1 : S1x32.Idx → Elt F .f32)
    = shapeCast S1x32 (m ((c : Thread nD τ).loc main_arg4)) shapeCasts_S32_S1x32 := by
  dsimp only [Gen.V, Gen.hostOps0]; after_results; rfl

/-- Window 4's block at any grid point, at (0, j), is entry j of `main_arg4` as launched. -/
theorem blkRow4 (c : Dev nD) (t : Fin cfg0.N) (j : Fin 32) :
    iblk m c 4 t (ix2 0 j) = m ((c : Thread nD τ).loc main_arg4) (ix1 j) := by
  obtain ⟨e30, e31, e40, e41, e50, e51, e70, e71, e90, e91⟩ := idxRow t
  show V m c main_v1 (((cfg0.win 4).blk t).view.emb (ix2 0 j)) = _
  have hemb : ((cfg0.win 4).blk t).view.emb (ix2 (0 : Fin 1) j) = (ix2 (0 : Fin 1) j : S1x32.Idx) := by
    funext a; apply Fin.ext
    match a with
    | ⟨0, _⟩ => show win0_4.index t (0 : Fin 2) * 1 + 1 * 0 = 0; omega
    | ⟨1, _⟩ => show win0_4.index t (1 : Fin 2) * 32 + 1 * j.val = j.val; omega
  refine (congrArg (V m c main_v1) hemb).trans ?_
  refine (congrFun (main_v1_eq m c) _).trans ?_
  exact Cert.KernelIdeal.KerMath.reshape_row _ _ j

/-- The array `main_v2` the region finds is the vector `main_arg5` viewed as one row. -/
theorem main_v2_eq (c : Dev nD) : (V m c main_v2 : S1x32.Idx → Elt F .f32)
    = shapeCast S1x32 (m ((c : Thread nD τ).loc main_arg5)) shapeCasts_S32_S1x32 := by
  dsimp only [Gen.V, Gen.hostOps0]; after_results; rfl

/-- Window 5's block at any grid point, at (0, j), is entry j of `main_arg5` as launched. -/
theorem blkRow5 (c : Dev nD) (t : Fin cfg0.N) (j : Fin 32) :
    iblk m c 5 t (ix2 0 j) = m ((c : Thread nD τ).loc main_arg5) (ix1 j) := by
  obtain ⟨e30, e31, e40, e41, e50, e51, e70, e71, e90, e91⟩ := idxRow t
  show V m c main_v2 (((cfg0.win 5).blk t).view.emb (ix2 0 j)) = _
  have hemb : ((cfg0.win 5).blk t).view.emb (ix2 (0 : Fin 1) j) = (ix2 (0 : Fin 1) j : S1x32.Idx) := by
    funext a; apply Fin.ext
    match a with
    | ⟨0, _⟩ => show win0_5.index t (0 : Fin 2) * 1 + 1 * 0 = 0; omega
    | ⟨1, _⟩ => show win0_5.index t (1 : Fin 2) * 32 + 1 * j.val = j.val; omega
  refine (congrArg (V m c main_v2) hemb).trans ?_
  refine (congrFun (main_v2_eq m c) _).trans ?_
  exact Cert.KernelIdeal.KerMath.reshape_row _ _ j

/-- The array `main_v3` the region finds is the vector `main_arg7` viewed as one row. -/
theorem main_v3_eq (c : Dev nD) : (V m c main_v3 : S1x32.Idx → Elt F .f32)
    = shapeCast S1x32 (m ((c : Thread nD τ).loc main_arg7)) shapeCasts_S32_S1x32 := by
  dsimp only [Gen.V, Gen.hostOps0]; after_results; rfl

/-- Window 7's block at any grid point, at (0, j), is entry j of `main_arg7` as launched. -/
theorem blkRow7 (c : Dev nD) (t : Fin cfg0.N) (j : Fin 32) :
    iblk m c 7 t (ix2 0 j) = m ((c : Thread nD τ).loc main_arg7) (ix1 j) := by
  obtain ⟨e30, e31, e40, e41, e50, e51, e70, e71, e90, e91⟩ := idxRow t
  show V m c main_v3 (((cfg0.win 7).blk t).view.emb (ix2 0 j)) = _
  have hemb : ((cfg0.win 7).blk t).view.emb (ix2 (0 : Fin 1) j) = (ix2 (0 : Fin 1) j : S1x32.Idx) := by
    funext a; apply Fin.ext
    match a with
    | ⟨0, _⟩ => show win0_7.index t (0 : Fin 2) * 1 + 1 * 0 = 0; omega
    | ⟨1, _⟩ => show win0_7.index t (1 : Fin 2) * 32 + 1 * j.val = j.val; omega
  refine (congrArg (V m c main_v3) hemb).trans ?_
  refine (congrFun (main_v3_eq m c) _).trans ?_
  exact Cert.KernelIdeal.KerMath.reshape_row _ _ j

/-- The array `main_v4` the region finds is the vector `main_arg9` viewed as one row. -/
theorem main_v4_eq (c : Dev nD) : (V m c main_v4 : S1x32.Idx → Elt F .f32)
    = shapeCast S1x32 (m ((c : Thread nD τ).loc main_arg9)) shapeCasts_S32_S1x32 := by
  dsimp only [Gen.V, Gen.hostOps0]; after_results; rfl

/-- Window 9's block at any grid point, at (0, j), is entry j of `main_arg9` as launched. -/
theorem blkRow9 (c : Dev nD) (t : Fin cfg0.N) (j : Fin 32) :
    iblk m c 9 t (ix2 0 j) = m ((c : Thread nD τ).loc main_arg9) (ix1 j) := by
  obtain ⟨e30, e31, e40, e41, e50, e51, e70, e71, e90, e91⟩ := idxRow t
  show V m c main_v4 (((cfg0.win 9).blk t).view.emb (ix2 0 j)) = _
  have hemb : ((cfg0.win 9).blk t).view.emb (ix2 (0 : Fin 1) j) = (ix2 (0 : Fin 1) j : S1x32.Idx) := by
    funext a; apply Fin.ext
    match a with
    | ⟨0, _⟩ => show win0_9.index t (0 : Fin 2) * 1 + 1 * 0 = 0; omega
    | ⟨1, _⟩ => show win0_9.index t (1 : Fin 2) * 32 + 1 * j.val = j.val; omega
  refine (congrArg (V m c main_v4) hemb).trans ?_
  refine (congrFun (main_v4_eq m c) _).trans ?_
  exact Cert.KernelIdeal.KerMath.reshape_row _ _ j

end Cert.KernelIdeal.KerBlocks

end
-- ==== Proof.KerValue.lean ====
/-
  The closed forms of the stored values are the common specification of the argument arrays as launched: the first
  scratch is the dense layer, the second and third its two propagations through the adjacency (row y comes from the
  block of 200 rows that contains it, at position y mod 200), and the two outputs are the normalisation and the
  projection head.
-/
import proofs.«151931_g16346645529038_cont_7to1_1029_4_alg».proof.Proof.KState
import proofs.«151931_g16346645529038_cont_7to1_1029_4_alg».proof.Proof.KerMath
import proofs.«151931_g16346645529038_cont_7to1_1029_4_alg».proof.Proof.KerNorm
import proofs.«151931_g16346645529038_cont_7to1_1029_4_alg».proof.Proof.KerBlocks
import proofs.«151931_g16346645529038_cont_7to1_1029_4_alg».proof.Proof.Spec

set_option maxRecDepth 16384

noncomputable section

namespace Cert.KernelIdeal.KerValue

open Idealize.ShloMosaic Idealize.ShloMosaic.TcCoe Idealize.ShloMosaic.ValueIdx
open Idealize.SL Idealize.SL.Sem
open Cert.KernelIdeal Cert.KernelIdeal.Gen Cert.KernelIdeal.KerMath Cert.KernelIdeal.KerBlocks

variable (m : (ℓ : Loc nD τ sig) → Buf (Elt Ideal) ℓ) (c : Dev nD)

/-- The argument arrays as launched, as arrays of extended reals. -/
abbrev aX : Cert.Spec.Mat 10000 128 := m ((c : Thread nD τ).loc main_arg0)
abbrev aA : Cert.Spec.Mat 10000 10000 := m ((c : Thread nD τ).loc main_arg1)
abbrev aW1 : Cert.Spec.Mat 128 32 := m ((c : Thread nD τ).loc main_arg2)
abbrev aB1 : Cert.Spec.Vc 32 := m ((c : Thread nD τ).loc main_arg3)
abbrev aG : Cert.Spec.Vc 32 := m ((c : Thread nD τ).loc main_arg4)
abbrev aBE : Cert.Spec.Vc 32 := m ((c : Thread nD τ).loc main_arg5)
abbrev aWP1 : Cert.Spec.Mat 32 32 := m ((c : Thread nD τ).loc main_arg6)
abbrev aBP1 : Cert.Spec.Vc 32 := m ((c : Thread nD τ).loc main_arg7)
abbrev aWP2 : Cert.Spec.Mat 32 32 := m ((c : Thread nD τ).loc main_arg8)
abbrev aBP2 : Cert.Spec.Vc 32 := m ((c : Thread nD τ).loc main_arg9)

/-- The first scratch: the dense layer of the arguments. -/
theorem Z1_eq : Body.Z1 m c = Cert.Spec.dense (aX m c) (aW1 m c) (aB1 m c) := by
  have h0 : (iblk m c 0 (Body.pt 0) : Vec Ideal S10000x128 .f32) = aX m c := funext fun y => blk0 m c _ y
  have h2 : (iblk m c 2 (Body.pt 0) : Vec Ideal S128x32 .f32) = aW1 m c := funext fun y => blk2 m c _ y
  refine (congrArg₂ (fun (a : Vec Ideal S10000x128 .f32) (b : Vec Ideal S128x32 .f32) =>
    k0_pay1 a b (iblk m c 3 (Body.pt 0))) h0 h2).trans ?_
  exact pay1_eq _ _ _ (aB1 m c) (fun j => blkRow3 m c _ j)

/-- The second scratch: the adjacency times the dense layer. -/
theorem Z2_eq : Body.Z2 m c = Cert.Spec.prod (aA m c) (Cert.Spec.dense (aX m c) (aW1 m c) (aB1 m c)) := by
  funext y
  have hy0 : (y 0).val < 10000 := idx2_lt0 y
  have hq : (y 0).val / 200 < 50 := by omega
  have hpt : (Body.pt ((y 0).val / 200)).val = (y 0).val / 200 := Body.pt_val _ (by omega)
  have hz := Z1_eq m c
  show k0_pay2 (iblk m c 1 (Body.pt ((y 0).val / 200))) (Body.Z1 m c) (Body.rowIn y) = _
  rw [hz]
  refine (pay2_apply (iblk m c 1 (Body.pt ((y 0).val / 200))) _ (aA m c) ((y 0).val / 200) hq (fun r k => ?_)
    ⟨(y 0).val % 200, Nat.mod_lt _ (by decide)⟩ ⟨(y 1).val, idx2_lt1 y⟩).trans ?_
  · refine (blkA_lo m c (Body.pt ((y 0).val / 200)) (by omega) r k).trans ?_
    refine congrArg (aA m c) ?_
    funext a; apply Fin.ext
    match a with
    | ⟨0, _⟩ => show 200 * (Body.pt ((y 0).val / 200)).val + r.val = 200 * ((y 0).val / 200) + r.val; rw [hpt]
    | ⟨1, _⟩ => rfl
  · refine congrArg (Cert.Spec.prod (aA m c) (Cert.Spec.dense (aX m c) (aW1 m c) (aB1 m c))) ?_
    funext a; apply Fin.ext
    match a with
    | ⟨0, _⟩ => show 200 * ((y 0).val / 200) + (y 0).val % 200 = (y 0).val; omega
    | ⟨1, _⟩ => rfl

/-- The third scratch: the propagated features. -/
theorem Z3_eq : Body.Z3 m c = Cert.Spec.feat (aX m c) (aA m c) (aW1 m c) (aB1 m c) := by
  funext y
  have hy0 : (y 0).val < 10000 := idx2_lt0 y
  have hq : (y 0).val / 200 < 50 := by omega
  have hpt : (Body.pt (50 + (y 0).val / 200)).val = 50 + (y 0).val / 200 := Body.pt_val _ (by omega)
  have hz := Z2_eq m c
  show k0_pay3 (iblk m c 1 (Body.pt (50 + (y 0).val / 200))) (Body.Z2 m c) (Body.rowIn y)
    = Cert.Spec.prod (aA m c) (Cert.Spec.prod (aA m c) (Cert.Spec.dense (aX m c) (aW1 m c) (aB1 m c))) y
  rw [hz]
  refine (pay3_apply (iblk m c 1 (Body.pt (50 + (y 0).val / 200))) _ (aA m c) ((y 0).val / 200) hq (fun r k => ?_)
    ⟨(y 0).val % 200, Nat.mod_lt _ (by decide)⟩ ⟨(y 1).val, idx2_lt1 y⟩).trans ?_
  · refine (blkA_hi m c (Body.pt (50 + (y 0).val / 200)) (by omega) (by omega) r k).trans ?_
    refine congrArg (aA m c) ?_
    funext a; apply Fin.ext
    match a with
    | ⟨0, _⟩ =>
      show 200 * ((Body.pt (50 + (y 0).val / 200)).val - 50) + r.val = 200 * ((y 0).val / 200) + r.val
      rw [hpt]; omega
    | ⟨1, _⟩ => rfl
  · refine congrArg (Cert.Spec.prod (aA m c) (Cert.Spec.prod (aA m c) (Cert.Spec.dense (aX m c) (aW1 m c) (aB1 m c)))) ?_
    funext a; apply Fin.ext
    match a with
    | ⟨0, _⟩ => show 200 * ((y 0).val / 200) + (y 0).val % 200 = (y 0).val; omega
    | ⟨1, _⟩ => rfl

/-- The first output: the normalised features. -/
theorem OUT10_eq (t : Fin cfg0.N) :
    Body.OUT10 m c t = Cert.Spec.zn (aX m c) (aA m c) (aW1 m c) (aB1 m c) (aG m c) (aBE m c) := by
  have hz := Z3_eq m c
  show k0_pay5 (Body.Z3 m c) (iblk m c 4 t) (iblk m c 5 t) = _
  rw [hz]
  exact pay5_eq _ _ _ (aG m c) (aBE m c) (fun j => blkRow4 m c t j) (fun j => blkRow5 m c t j)

/-- The projection head over arbitrary operands: the sixth payload then the fourth. -/
theorem head_eq (z : Vec Ideal S10000x32 .f32) (grow berow : Vec Ideal S1x32 .f32) (w6 : Vec Ideal S32x32 .f32)
    (b7row : Vec Ideal S1x32 .f32) (w8 : Vec Ideal S32x32 .f32) (b9row : Vec Ideal S1x32 .f32)
    (Z : Cert.Spec.Mat 10000 32) (hZ : z = Z) (g be : Cert.Spec.Vc 32)
    (hg : ∀ j : Fin 32, grow (ix2 0 j) = g (ix1 j)) (hbe : ∀ j : Fin 32, berow (ix2 0 j) = be (ix1 j))
    (W6 : Cert.Spec.Mat 32 32) (h6 : w6 = W6) (b7 : Cert.Spec.Vc 32) (hb7 : ∀ j : Fin 32, b7row (ix2 0 j) = b7 (ix1 j))
    (W8 : Cert.Spec.Mat 32 32) (h8 : w8 = W8) (b9 : Cert.Spec.Vc 32) (hb9 : ∀ j : Fin 32, b9row (ix2 0 j) = b9 (ix1 j)) :
    k0_pay4 (k0_pay6 z grow berow w6 b7row) w8 (constant (F := Ideal) S10000x32 .f32 0x00000000#32) b9row
      = Cert.Spec.affine (Cert.Spec.dense (Cert.Spec.norm Z g be) W6 b7) W8 b9 := by
  subst hZ h6 h8
  rw [pay6_eq z grow berow g be hg hbe w6 b7row b7 hb7]
  exact pay4_eq _ _ _ b9 hb9

/-- The second output: the projection head of the normalised features. -/
theorem OUT11_eq (t : Fin cfg0.N) :
    Body.OUT11 m c t = Cert.Spec.proj (aX m c) (aA m c) (aW1 m c) (aB1 m c) (aG m c) (aBE m c)
      (aWP1 m c) (aBP1 m c) (aWP2 m c) (aBP2 m c) :=
  head_eq (Body.Z3 m c) (iblk m c 4 t) (iblk m c 5 t) (iblk m c 6 t) (iblk m c 7 t) (iblk m c 8 t) (iblk m c 9 t)
    (Cert.Spec.feat (aX m c) (aA m c) (aW1 m c) (aB1 m c)) (Z3_eq m c) (aG m c) (aBE m c)
    (fun j => blkRow4 m c t j) (fun j => blkRow5 m c t j)
    (aWP1 m c) (funext fun y => blk6 m c t y) (aBP1 m c) (fun j => blkRow7 m c t j)
    (aWP2 m c) (funext fun y => blk8 m c t y) (aBP2 m c) (fun j => blkRow9 m c t j)

end Cert.KernelIdeal.KerValue

end
-- ==== Proof.KerRun.lean ====
/-
  The idealised kernel's run, read: every weakly fair execution terminates with the first result at the normalised
  propagated features and the second at their projection head — the specification's two functions of the ten argument
  arrays — and the arguments unchanged.  The two output arrays are what the last grid point wrote back (each output
  window is one block, written back once), and those blocks are the specification's functions because the third
  scratch buffer is z3 by then.
-/
import proofs.«151931_g16346645529038_cont_7to1_1029_4_alg».proof.Proof.KMain
import proofs.«151931_g16346645529038_cont_7to1_1029_4_alg».proof.Proof.KFinal
import proofs.«151931_g16346645529038_cont_7to1_1029_4_alg».proof.Proof.KerValue

set_option maxRecDepth 16384

noncomputable section

namespace Cert.KernelIdeal.KerRun

open Idealize.ShloMosaic Idealize.ShloMosaic.TcCoe Idealize.SL.Sem
open Idealize.ShloMosaic.Pipeline (Dat)
open Cert.KernelIdeal Cert.KernelIdeal.Gen Cert.KernelIdeal.Body

theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5_0) = Cert.Spec.zn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v5_1) = Cert.Spec.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨((h c).1 10).trans ((Cert.KernelIdeal.KFinal.final10 m c).trans (Cert.KernelIdeal.KerValue.OUT10_eq m c (pt 100))),
     ((h c).1 11).trans ((Cert.KernelIdeal.KFinal.final11 m c).trans (Cert.KernelIdeal.KerValue.OUT11_eq m c (pt 100))),
     ((h c).1 0).trans ((((dats m 0 c).arrAt_in 0 rfl _).trans ((A_eq m c 0).trans (V_main_arg0 m c)))),
     ((h c).1 1).trans ((((dats m 0 c).arrAt_in 1 rfl _).trans ((A_eq m c 1).trans (V_main_arg1 m c)))),
     ((h c).1 2).trans ((((dats m 0 c).arrAt_in 2 rfl _).trans ((A_eq m c 2).trans (V_main_arg2 m c)))),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c),
     ((h c).1 6).trans ((((dats m 0 c).arrAt_in 6 rfl _).trans ((A_eq m c 6).trans (V_main_arg6 m c)))),
     ((h c).2 main_arg7 (Pipeline.mem_restRefs_of main_arg7 (by decide) (by decide))).trans (V_main_arg7 m c),
     ((h c).1 8).trans ((((dats m 0 c).arrAt_in 8 rfl _).trans ((A_eq m c 8).trans (V_main_arg8 m c)))),
     ((h c).2 main_arg9 (Pipeline.mem_restRefs_of main_arg9 (by decide) (by decide))).trans (V_main_arg9 m c)⟩)
    (run_main (F := Ideal) m ρ)

end Cert.KernelIdeal.KerRun

end
-- ==== Proof.RefRun.lean ====
/-
  The reference program's run, read back.  Its @main is a straight line of 64 host operations once the three
  outlined functions (the rectifier twice, the biased variance with its nested select once) are written out at
  their call sites over the buffers each call names.  The line is cut into four consecutive stretches:
    1. the first dense layer with its rectifier and the two propagations  (z3, in main_v6);
    2. the column means (main_v9) and the column variances (main_v10) of z3;
    3. the normalisation with scale and shift                             (zn, in main_v25);
    4. the projection head                                                (p,  in main_v34).
  For each stretch and ANY contents V before it, the buffers the later stretches read are stated as the
  operations' composed pure term of what V holds; composing the four gives the two results as pure terms of
  the ten argument buffers, and the arguments unchanged.  Nothing here depends on the float instance.
-/
import proofs.«151931_g16346645529038_cont_7to1_1029_4_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed pure terms -/

/-- z3 = a·(a·max(x·W1 + b1, 0)) as the operations spell it. -/
abbrev tFeat (x : (⟨S10000x128, .f32⟩ : BufTy).Contents (Elt F)) (a : (⟨S10000x10000, .f32⟩ : BufTy).Contents (Elt F)) (w1 : (⟨S128x32, .f32⟩ : BufTy).Contents (Elt F)) (b1 : (⟨S32, .f32⟩ : BufTy).Contents (Elt F)) : (⟨S10000x32, .f32⟩ : BufTy).Contents (Elt F) :=
  Host.dotGeneral dot_S10000x10000_S10000x32_S10000x32_1_0_0_1_n_n none a (Host.dotGeneral dot_S10000x10000_S10000x32_S10000x32_1_0_0_1_n_n none a
    (maximumf (addf (Host.dotGeneral dot_S10000x128_S128x32_S10000x32_1_0_0_1_n_n none x w1) (broadcastInDim S10000x32 ![0, 1] bcast_S1x32_S10000x32_0_1 (broadcastInDim S1x32 ![1] bcast_S32_S1x32_1 b1)))
      (broadcastInDim S10000x32 ![] bcast_S_S10000x32 (constant (F := F) S_ .f32 0x00000000#32))))

/-- The column means: the sum over the rows divided by the row count. -/
abbrev tMean (z : (⟨S10000x32, .f32⟩ : BufTy).Contents (Elt F)) : (⟨S32, .f32⟩ : BufTy).Contents (Elt F) :=
  Host.divf (Host.reduceAdd z (constant (F := F) S_ .f32 0x00000000#32) reducesTo_S10000x32_S32_d0 h_S_) (broadcastInDim S32 ![] bcast_S_S32 (constant (F := F) S_ .f32 0x461C4000#32))

/-- The column means once more, as the variance computes them (kept as a row). -/
abbrev tMeanRow (z : (⟨S10000x32, .f32⟩ : BufTy).Contents (Elt F)) : (⟨S1x32, .f32⟩ : BufTy).Contents (Elt F) :=
  Host.divf (broadcastInDim S1x32 ![1] bcast_S32_S1x32_1 (Host.reduceAdd z (constant (F := F) S_ .f32 0x00000000#32) reducesTo_S10000x32_S32_d0 h_S_)) (broadcastInDim S1x32 ![] bcast_S_S1x32 (constant (F := F) S_ .f32 0x461C4000#32))

/-- The deviations from the column means. -/
abbrev tDev (z : (⟨S10000x32, .f32⟩ : BufTy).Contents (Elt F)) : (⟨S10000x32, .f32⟩ : BufTy).Contents (Elt F) := subf z (broadcastInDim S10000x32 ![0, 1] bcast_S1x32_S10000x32_0_1 (tMeanRow z))

/-- The variance's divisor: the row count minus the correction 0. -/
abbrev tCnt : (⟨S_, .f32⟩ : BufTy).Contents (Elt F) := subf (constant (F := F) S_ .f32 0x461C4000#32) (sitofp (F := F) .f32 (constantI S_ 32 0#32))

/-- The column variances: the summed squared deviations over the divisor where that is positive, the NaN word elsewhere. -/
abbrev tVar (z : (⟨S10000x32, .f32⟩ : BufTy).Contents (Elt F)) : (⟨S32, .f32⟩ : BufTy).Contents (Elt F) :=
  select (broadcastInDim S32 ![] bcast_S_S32 (cmpf (F := F) .ogt tCnt (constant (F := F) S_ .f32 0x00000000#32)))
    (Host.divf (Host.reduceAdd (mulf (tDev z) (tDev z)) (constant (F := F) S_ .f32 0x00000000#32) reducesTo_S10000x32_S32_d0 h_S_) (broadcastInDim S32 ![] bcast_S_S32 tCnt))
    (broadcastInDim S32 ![] bcast_S_S32 (id (constant (F := F) S_ .f32 0x7FC00000#32)))

/-- zn = (z − mean)/sqrt(var + ε)·gamma + beta, every vector repeated over the rows. -/
abbrev tNorm (z : (⟨S10000x32, .f32⟩ : BufTy).Contents (Elt F)) (mean var g be : (⟨S32, .f32⟩ : BufTy).Contents (Elt F)) : (⟨S10000x32, .f32⟩ : BufTy).Contents (Elt F) :=
  addf (mulf (Host.divf (subf z (broadcastInDim S10000x32 ![0, 1] bcast_S1x32_S10000x32_0_1 (broadcastInDim S1x32 ![1] bcast_S32_S1x32_1 mean))) (broadcastInDim S10000x32 ![0, 1] bcast_S1x32_S10000x32_0_1 (broadcastInDim S1x32 ![1] bcast_S32_S1x32_1 (Host.sqrt (addf var (broadcastInDim S32 ![] bcast_S_S32 (constant (F := F) S_ .f32 0x3727C5AC#32))))))) (broadcastInDim S10000x32 ![0, 1] bcast_S1x32_S10000x32_0_1 (broadcastInDim S1x32 ![1] bcast_S32_S1x32_1 g))) (broadcastInDim S10000x32 ![0, 1] bcast_S1x32_S10000x32_0_1 (broadcastInDim S1x32 ![1] bcast_S32_S1x32_1 be))

/-- p = max(zn·Wp1 + bp1, 0)·Wp2 + bp2. -/
abbrev tProj (zn : (⟨S10000x32, .f32⟩ : BufTy).Contents (Elt F)) (wp1 : (⟨S32x32, .f32⟩ : BufTy).Contents (Elt F)) (bp1 : (⟨S32, .f32⟩ : BufTy).Contents (Elt F)) (wp2 : (⟨S32x32, .f32⟩ : BufTy).Contents (Elt F)) (bp2 : (⟨S32, .f32⟩ : BufTy).Contents (Elt F)) : (⟨S10000x32, .f32⟩ : BufTy).Contents (Elt F) :=
  addf (Host.dotGeneral dot_S10000x32_S32x32_S10000x32_1_0_0_1_n_n none
      (maximumf (addf (Host.dotGeneral dot_S10000x32_S32x32_S10000x32_1_0_0_1_n_n none zn wp1) (broadcastInDim S10000x32 ![0, 1] bcast_S1x32_S10000x32_0_1 (broadcastInDim S1x32 ![1] bcast_S32_S1x32_1 bp1)))
        (broadcastInDim S10000x32 ![] bcast_S_S10000x32 (constant (F := F) S_ .f32 0x00000000#32))) wp2) (broadcastInDim S10000x32 ![0, 1] bcast_S1x32_S10000x32_0_1 (broadcastInDim S1x32 ![1] bcast_S32_S1x32_1 bp2))

/-- The first result as a pure term of the arguments. -/
abbrev tZn (x : (⟨S10000x128, .f32⟩ : BufTy).Contents (Elt F)) (a : (⟨S10000x10000, .f32⟩ : BufTy).Contents (Elt F)) (w1 : (⟨S128x32, .f32⟩ : BufTy).Contents (Elt F)) (b1 g be : (⟨S32, .f32⟩ : BufTy).Contents (Elt F)) : (⟨S10000x32, .f32⟩ : BufTy).Contents (Elt F) :=
  tNorm (tFeat x a w1 b1) (tMean (tFeat x a w1 b1)) (tVar (tFeat x a w1 b1)) g be

/-! ## The four stretches -/

/-- The first dense layer, its rectifier (written out), the two propagations. -/
def seg1 : List (HloOp τ sig (Elt F)) :=
  [ binary main_arg0 main_arg2 main_v0 ((fun l r => Host.dotGeneral dot_S10000x128_S128x32_S10000x32_1_0_0_1_n_n none l r) : (⟨S10000x128, .f32⟩ : BufTy).Contents (Elt F) → (⟨S128x32, .f32⟩ : BufTy).Contents (Elt F) → (⟨S10000x32, .f32⟩ : BufTy).Contents (Elt F)),
    unary main_arg3 main_v1 (broadcastInDim S1x32 ![1] bcast_S32_S1x32_1 : (⟨S32, .f32⟩ : BufTy).Contents (Elt F) → (⟨S1x32, .f32⟩ : BufTy).Contents (Elt F)),
    unary main_v1 main_v2 (broadcastInDim S10000x32 ![0, 1] bcast_S1x32_S10000x32_0_1 : (⟨S1x32, .f32⟩ : BufTy).Contents (Elt F) → (⟨S10000x32, .f32⟩ : BufTy).Contents (Elt F)),
    binary main_v0 main_v2 main_v3 (addf : (⟨S10000x32, .f32⟩ : BufTy).Contents (Elt F) → (⟨S10000x32, .f32⟩ : BufTy).Contents (Elt F) → (⟨S10000x32, .f32⟩ : BufTy).Contents (Elt F)),
    TRef.nullary main_call0.cst (constant (F := F) S_ .f32 0x00000000#32),
    TRef.unary main_call0.cst main_call0.v0 (broadcastInDim S10000x32 ![] bcast_S_S10000x32),
    TRef.binary (.of main_v3 : TRef sig ⟨S10000x32, .f32⟩) main_call0.v0 main_call0.v1 maximumf,
    binary main_arg1 main_v4 main_v5 ((fun l r => Host.dotGeneral dot_S10000x10000_S10000x32_S10000x32_1_0_0_1_n_n none l r) : (⟨S10000x10000, .f32⟩ : BufTy).Contents (Elt F) → (⟨S10000x32, .f32⟩ : BufTy).Contents (Elt F) → (⟨S10000x32, .f32⟩ : BufTy).Contents (Elt F)),
    binary main_arg1 main_v5 main_v6 ((fun l r => Host.dotGeneral dot_S10000x10000_S10000x32_S10000x32_1_0_0_1_n_n none l r) : (⟨S10000x10000, .f32⟩ : BufTy).Contents (Elt F) → (⟨S10000x32, .f32⟩ : BufTy).Contents (Elt F) → (⟨S10000x32, .f32⟩ : BufTy).Contents (Elt F)) ]

/-- The column means, then the biased variance written out (its select written out in turn). -/
def seg2 : List (HloOp τ sig (Elt F)) :=
  [ nullary main_cst (constant (F := F) S_ .f32 0x00000000#32),
    binary main_v6 main_cst main_v7 ((fun x v => Host.reduceAdd x v reducesTo_S10000x32_S32_d0 h_S_) : (⟨S10000x32, .f32⟩ : BufTy).Contents (Elt F) → (⟨S_, .f32⟩ : BufTy).Contents (Elt F) → (⟨S32, .f32⟩ : BufTy).Contents (Elt F)),
    nullary main_cst_0 (constant (F := F) S_ .f32 0x461C4000#32),
    unary main_cst_0 main_v8 (broadcastInDim S32 ![] bcast_S_S32 : (⟨S_, .f32⟩ : BufTy).Contents (Elt F) → (⟨S32, .f32⟩ : BufTy).Contents (Elt F)),
    binary main_v7 main_v8 main_v9 (Host.divf : (⟨S32, .f32⟩ : BufTy).Contents (Elt F) → (⟨S32, .f32⟩ : BufTy).Contents (Elt F) → (⟨S32, .f32⟩ : BufTy).Contents (Elt F)),
    nullary main_c (constantI S_ 32 0#32),
    TRef.nullary main_call1.cst (constant (F := F) S_ .f32 0x00000000#32),
    TRef.binary (.of main_v6 : TRef sig ⟨S10000x32, .f32⟩) main_call1.cst main_call1.v0 (fun x v => Host.reduceAdd x v reducesTo_S10000x32_S32_d0 h_S_),
    TRef.unary main_call1.v0 main_call1.v1 (broadcastInDim S1x32 ![1] bcast_S32_S1x32_1),
    TRef.nullary main_call1.cst_0 (constant (F := F) S_ .f32 0x461C4000#32),
    TRef.unary main_call1.cst_0 main_call1.v2 (broadcastInDim S1x32 ![] bcast_S_S1x32),
    TRef.binary main_call1.v1 main_call1.v2 main_call1.v3 Host.divf,
    TRef.unary main_call1.v3 main_call1.v4 (broadcastInDim S10000x32 ![0, 1] bcast_S1x32_S10000x32_0_1),
    TRef.binary (.of main_v6 : TRef sig ⟨S10000x32, .f32⟩) main_call1.v4 main_call1.v5 subf,
    TRef.binary main_call1.v5 main_call1.v5 main_call1.v6 mulf,
    TRef.unary (.of main_c : TRef sig ⟨S_, .i32⟩) main_call1.v7 (sitofp .f32),
    TRef.nullary main_call1.cst_1 (constant (F := F) S_ .f32 0x461C4000#32),
    TRef.binary main_call1.cst_1 main_call1.v7 main_call1.v8 subf,
    TRef.nullary main_call1.cst_2 (constant (F := F) S_ .f32 0x00000000#32),
    TRef.binary main_call1.v6 main_call1.cst_2 main_call1.v9 (fun x v => Host.reduceAdd x v reducesTo_S10000x32_S32_d0 h_S_),
    TRef.unary main_call1.v8 main_call1.v10 (broadcastInDim S32 ![] bcast_S_S32),
    TRef.binary main_call1.v9 main_call1.v10 main_call1.v11 Host.divf,
    TRef.nullary main_call1.cst_3 (constant (F := F) S_ .f32 0x00000000#32),
    TRef.binary main_call1.v8 main_call1.cst_3 main_call1.v12 (cmpf .ogt),
    TRef.nullary main_call1.cst_4 (constant (F := F) S_ .f32 0x7FC00000#32),
    TRef.unary main_call1.cst_4 main_call1.call0.v0 id,
    TRef.unary main_call1.call0.v0 main_call1.call0.v1 (broadcastInDim S32 ![] bcast_S_S32),
    TRef.ternary main_call1.v12 main_call1.v11 main_call1.call0.v1 main_call1.call0.v2 (fun p a b => select (broadcastInDim S32 ![] bcast_S_S32 p) a b) ]

/-- The normalisation. -/
def seg3 : List (HloOp τ sig (Elt F)) :=
  [ unary main_v9 main_v11 (broadcastInDim S1x32 ![1] bcast_S32_S1x32_1 : (⟨S32, .f32⟩ : BufTy).Contents (Elt F) → (⟨S1x32, .f32⟩ : BufTy).Contents (Elt F)),
    unary main_v11 main_v12 (broadcastInDim S10000x32 ![0, 1] bcast_S1x32_S10000x32_0_1 : (⟨S1x32, .f32⟩ : BufTy).Contents (Elt F) → (⟨S10000x32, .f32⟩ : BufTy).Contents (Elt F)),
    binary main_v6 main_v12 main_v13 (subf : (⟨S10000x32, .f32⟩ : BufTy).Contents (Elt F) → (⟨S10000x32, .f32⟩ : BufTy).Contents (Elt F) → (⟨S10000x32, .f32⟩ : BufTy).Contents (Elt F)),
    nullary main_cst_1 (constant (F := F) S_ .f32 0x3727C5AC#32),
    unary main_cst_1 main_v14 (broadcastInDim S32 ![] bcast_S_S32 : (⟨S_, .f32⟩ : BufTy).Contents (Elt F) → (⟨S32, .f32⟩ : BufTy).Contents (Elt F)),
    binary main_v10 main_v14 main_v15 (addf : (⟨S32, .f32⟩ : BufTy).Contents (Elt F) → (⟨S32, .f32⟩ : BufTy).Contents (Elt F) → (⟨S32, .f32⟩ : BufTy).Contents (Elt F)),
    unary main_v15 main_v16 (Host.sqrt : (⟨S32, .f32⟩ : BufTy).Contents (Elt F) → (⟨S32, .f32⟩ : BufTy).Contents (Elt F)),
    unary main_v16 main_v17 (broadcastInDim S1x32 ![1] bcast_S32_S1x32_1 : (⟨S32, .f32⟩ : BufTy).Contents (Elt F) → (⟨S1x32, .f32⟩ : BufTy).Contents (Elt F)),
    unary main_v17 main_v18 (broadcastInDim S10000x32 ![0, 1] bcast_S1x32_S10000x32_0_1 : (⟨S1x32, .f32⟩ : BufTy).Contents (Elt F) → (⟨S10000x32, .f32⟩ : BufTy).Contents (Elt F)),
    binary main_v13 main_v18 main_v19 (Host.divf : (⟨S10000x32, .f32⟩ : BufTy).Contents (Elt F) → (⟨S10000x32, .f32⟩ : BufTy).Contents (Elt F) → (⟨S10000x32, .f32⟩ : BufTy).Contents (Elt F)),
    unary main_arg4 main_v20 (broadcastInDim S1x32 ![1] bcast_S32_S1x32_1 : (⟨S32, .f32⟩ : BufTy).Contents (Elt F) → (⟨S1x32, .f32⟩ : BufTy).Contents (Elt F)),
    unary main_v20 main_v21 (broadcastInDim S10000x32 ![0, 1] bcast_S1x32_S10000x32_0_1 : (⟨S1x32, .f32⟩ : BufTy).Contents (Elt F) → (⟨S10000x32, .f32⟩ : BufTy).Contents (Elt F)),
    binary main_v19 main_v21 main_v22 (mulf : (⟨S10000x32, .f32⟩ : BufTy).Contents (Elt F) → (⟨S10000x32, .f32⟩ : BufTy).Contents (Elt F) → (⟨S10000x32, .f32⟩ : BufTy).Contents (Elt F)),
    unary main_arg5 main_v23 (broadcastInDim S1x32 ![1] bcast_S32_S1x32_1 : (⟨S32, .f32⟩ : BufTy).Contents (Elt F) → (⟨S1x32, .f32⟩ : BufTy).Contents (Elt F)),
    unary main_v23 main_v24 (broadcastInDim S10000x32 ![0, 1] bcast_S1x32_S10000x32_0_1 : (⟨S1x32, .f32⟩ : BufTy).Contents (Elt F) → (⟨S10000x32, .f32⟩ : BufTy).Contents (Elt F)),
    binary main_v22 main_v24 main_v25 (addf : (⟨S10000x32, .f32⟩ : BufTy).Contents (Elt F) → (⟨S10000x32, .f32⟩ : BufTy).Contents (Elt F) → (⟨S10000x32, .f32⟩ : BufTy).Contents (Elt F)) ]

/-- The projection head, its rectifier written out. -/
def seg4 : List (HloOp τ sig (Elt F)) :=
  [ binary main_v25 main_arg6 main_v26 ((fun l r => Host.dotGeneral dot_S10000x32_S32x32_S10000x32_1_0_0_1_n_n none l r) : (⟨S10000x32, .f32⟩ : BufTy).Contents (Elt F) → (⟨S32x32, .f32⟩ : BufTy).Contents (Elt F) → (⟨S10000x32, .f32⟩ : BufTy).Contents (Elt F)),
    unary main_arg7 main_v27 (broadcastInDim S1x32 ![1] bcast_S32_S1x32_1 : (⟨S32, .f32⟩ : BufTy).Contents (Elt F) → (⟨S1x32, .f32⟩ : BufTy).Contents (Elt F)),
    unary main_v27 main_v28 (broadcastInDim S10000x32 ![0, 1] bcast_S1x32_S10000x32_0_1 : (⟨S1x32, .f32⟩ : BufTy).Contents (Elt F) → (⟨S10000x32, .f32⟩ : BufTy).Contents (Elt F)),
    binary main_v26 main_v28 main_v29 (addf : (⟨S10000x32, .f32⟩ : BufTy).Contents (Elt F) → (⟨S10000x32, .f32⟩ : BufTy).Contents (Elt F) → (⟨S10000x32, .f32⟩ : BufTy).Contents (Elt F)),
    TRef.nullary main_call2.cst (constant (F := F) S_ .f32 0x00000000#32),
    TRef.unary main_call2.cst main_call2.v0 (broadcastInDim S10000x32 ![] bcast_S_S10000x32),
    TRef.binary (.of main_v29 : TRef sig ⟨S10000x32, .f32⟩) main_call2.v0 main_call2.v1 maximumf,
    binary main_v30 main_arg8 main_v31 ((fun l r => Host.dotGeneral dot_S10000x32_S32x32_S10000x32_1_0_0_1_n_n none l r) : (⟨S10000x32, .f32⟩ : BufTy).Contents (Elt F) → (⟨S32x32, .f32⟩ : BufTy).Contents (Elt F) → (⟨S10000x32, .f32⟩ : BufTy).Contents (Elt F)),
    unary main_arg9 main_v32 (broadcastInDim S1x32 ![1] bcast_S32_S1x32_1 : (⟨S32, .f32⟩ : BufTy).Contents (Elt F) → (⟨S1x32, .f32⟩ : BufTy).Contents (Elt F)),
    unary main_v32 main_v33 (broadcastInDim S10000x32 ![0, 1] bcast_S1x32_S10000x32_0_1 : (⟨S1x32, .f32⟩ : BufTy).Contents (Elt F) → (⟨S10000x32, .f32⟩ : BufTy).Contents (Elt F)),
    binary main_v31 main_v33 main_v34 (addf : (⟨S10000x32, .f32⟩ : BufTy).Contents (Elt F) → (⟨S10000x32, .f32⟩ : BufTy).Contents (Elt F) → (⟨S10000x32, .f32⟩ : BufTy).Contents (Elt F)) ]

/-- @main's 64 operations, in order. -/
abbrev ops : List (HloOp τ sig (Elt F)) := seg1 ++ (seg2 ++ (seg3 ++ seg4))

theorem main_eq (c : Dev nD) : main (F := F) c = seq ops := rfl

/-! ## Running stretches one after the other -/

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- One buffer after a stretch: each operation's result at its own buffer is its function's value, any other
    buffer keeps what it held; the typed references of the written-out calls are literal, their transports the identity. -/
macro "seg_value" : tactic =>
  `(tactic| (after_results_simp; try (simp only [TRef.toBuf, TRef.ofBuf, cast_eq]); try rfl))

section Stretches

variable (V : Valuation τ sig (Elt F))

/-! ### Stretch 1 -/

theorem seg1_v6 : after seg1 V (Proc.devRef (τ := τ) .tc main_v6) = tFeat (V (Proc.devRef (τ := τ) .tc main_arg0)) (V (Proc.devRef (τ := τ) .tc main_arg1)) (V (Proc.devRef (τ := τ) .tc main_arg2)) (V (Proc.devRef (τ := τ) .tc main_arg3)) := by
  unfold seg1; seg_value
theorem seg1_arg0 : after seg1 V (Proc.devRef (τ := τ) .tc main_arg0) = V (Proc.devRef (τ := τ) .tc main_arg0) := by
  unfold seg1; after_results_simp
theorem seg1_arg1 : after seg1 V (Proc.devRef (τ := τ) .tc main_arg1) = V (Proc.devRef (τ := τ) .tc main_arg1) := by
  unfold seg1; after_results_simp
theorem seg1_arg2 : after seg1 V (Proc.devRef (τ := τ) .tc main_arg2) = V (Proc.devRef (τ := τ) .tc main_arg2) := by
  unfold seg1; after_results_simp
theorem seg1_arg3 : after seg1 V (Proc.devRef (τ := τ) .tc main_arg3) = V (Proc.devRef (τ := τ) .tc main_arg3) := by
  unfold seg1; after_results_simp
theorem seg1_arg4 : after seg1 V (Proc.devRef (τ := τ) .tc main_arg4) = V (Proc.devRef (τ := τ) .tc main_arg4) := by
  unfold seg1; after_results_simp
theorem seg1_arg5 : after seg1 V (Proc.devRef (τ := τ) .tc main_arg5) = V (Proc.devRef (τ := τ) .tc main_arg5) := by
  unfold seg1; after_results_simp
theorem seg1_arg6 : after seg1 V (Proc.devRef (τ := τ) .tc main_arg6) = V (Proc.devRef (τ := τ) .tc main_arg6) := by
  unfold seg1; after_results_simp
theorem seg1_arg7 : after seg1 V (Proc.devRef (τ := τ) .tc main_arg7) = V (Proc.devRef (τ := τ) .tc main_arg7) := by
  unfold seg1; after_results_simp
theorem seg1_arg8 : after seg1 V (Proc.devRef (τ := τ) .tc main_arg8) = V (Proc.devRef (τ := τ) .tc main_arg8) := by
  unfold seg1; after_results_simp
theorem seg1_arg9 : after seg1 V (Proc.devRef (τ := τ) .tc main_arg9) = V (Proc.devRef (τ := τ) .tc main_arg9) := by
  unfold seg1; after_results_simp

/-! ### Stretch 2 -/

theorem seg2_v9 : after seg2 V (Proc.devRef (τ := τ) .tc main_v9) = tMean (V (Proc.devRef (τ := τ) .tc main_v6)) := by
  unfold seg2; seg_value
theorem seg2_v10 : after seg2 V (Proc.devRef (τ := τ) .tc main_v10) = tVar (V (Proc.devRef (τ := τ) .tc main_v6)) := by
  unfold seg2; seg_value
theorem seg2_v6 : after seg2 V (Proc.devRef (τ := τ) .tc main_v6) = V (Proc.devRef (τ := τ) .tc main_v6) := by
  unfold seg2; after_results_simp
theorem seg2_arg0 : after seg2 V (Proc.devRef (τ := τ) .tc main_arg0) = V (Proc.devRef (τ := τ) .tc main_arg0) := by
  unfold seg2; after_results_simp
theorem seg2_arg1 : after seg2 V (Proc.devRef (τ := τ) .tc main_arg1) = V (Proc.devRef (τ := τ) .tc main_arg1) := by
  unfold seg2; after_results_simp
theorem seg2_arg2 : after seg2 V (Proc.devRef (τ := τ) .tc main_arg2) = V (Proc.devRef (τ := τ) .tc main_arg2) := by
  unfold seg2; after_results_simp
theorem seg2_arg3 : after seg2 V (Proc.devRef (τ := τ) .tc main_arg3) = V (Proc.devRef (τ := τ) .tc main_arg3) := by
  unfold seg2; after_results_simp
theorem seg2_arg4 : after seg2 V (Proc.devRef (τ := τ) .tc main_arg4) = V (Proc.devRef (τ := τ) .tc main_arg4) := by
  unfold seg2; after_results_simp
theorem seg2_arg5 : after seg2 V (Proc.devRef (τ := τ) .tc main_arg5) = V (Proc.devRef (τ := τ) .tc main_arg5) := by
  unfold seg2; after_results_simp
theorem seg2_arg6 : after seg2 V (Proc.devRef (τ := τ) .tc main_arg6) = V (Proc.devRef (τ := τ) .tc main_arg6) := by
  unfold seg2; after_results_simp
theorem seg2_arg7 : after seg2 V (Proc.devRef (τ := τ) .tc main_arg7) = V (Proc.devRef (τ := τ) .tc main_arg7) := by
  unfold seg2; after_results_simp
theorem seg2_arg8 : after seg2 V (Proc.devRef (τ := τ) .tc main_arg8) = V (Proc.devRef (τ := τ) .tc main_arg8) := by
  unfold seg2; after_results_simp
theorem seg2_arg9 : after seg2 V (Proc.devRef (τ := τ) .tc main_arg9) = V (Proc.devRef (τ := τ) .tc main_arg9) := by
  unfold seg2; after_results_simp

/-! ### Stretch 3 -/

theorem seg3_v25 : after seg3 V (Proc.devRef (τ := τ) .tc main_v25) = tNorm (V (Proc.devRef (τ := τ) .tc main_v6)) (V (Proc.devRef (τ := τ) .tc main_v9)) (V (Proc.devRef (τ := τ) .tc main_v10)) (V (Proc.devRef (τ := τ) .tc main_arg4)) (V (Proc.devRef (τ := τ) .tc main_arg5)) := by
  unfold seg3; seg_value
theorem seg3_arg0 : after seg3 V (Proc.devRef (τ := τ) .tc main_arg0) = V (Proc.devRef (τ := τ) .tc main_arg0) := by
  unfold seg3; after_results_simp
theorem seg3_arg1 : after seg3 V (Proc.devRef (τ := τ) .tc main_arg1) = V (Proc.devRef (τ := τ) .tc main_arg1) := by
  unfold seg3; after_results_simp
theorem seg3_arg2 : after seg3 V (Proc.devRef (τ := τ) .tc main_arg2) = V (Proc.devRef (τ := τ) .tc main_arg2) := by
  unfold seg3; after_results_simp
theorem seg3_arg3 : after seg3 V (Proc.devRef (τ := τ) .tc main_arg3) = V (Proc.devRef (τ := τ) .tc main_arg3) := by
  unfold seg3; after_results_simp
theorem seg3_arg4 : after seg3 V (Proc.devRef (τ := τ) .tc main_arg4) = V (Proc.devRef (τ := τ) .tc main_arg4) := by
  unfold seg3; after_results_simp
theorem seg3_arg5 : after seg3 V (Proc.devRef (τ := τ) .tc main_arg5) = V (Proc.devRef (τ := τ) .tc main_arg5) := by
  unfold seg3; after_results_simp
theorem seg3_arg6 : after seg3 V (Proc.devRef (τ := τ) .tc main_arg6) = V (Proc.devRef (τ := τ) .tc main_arg6) := by
  unfold seg3; after_results_simp
theorem seg3_arg7 : after seg3 V (Proc.devRef (τ := τ) .tc main_arg7) = V (Proc.devRef (τ := τ) .tc main_arg7) := by
  unfold seg3; after_results_simp
theorem seg3_arg8 : after seg3 V (Proc.devRef (τ := τ) .tc main_arg8) = V (Proc.devRef (τ := τ) .tc main_arg8) := by
  unfold seg3; after_results_simp
theorem seg3_arg9 : after seg3 V (Proc.devRef (τ := τ) .tc main_arg9) = V (Proc.devRef (τ := τ) .tc main_arg9) := by
  unfold seg3; after_results_simp

/-! ### Stretch 4 -/

theorem seg4_v34 : after seg4 V (Proc.devRef (τ := τ) .tc main_v34) = tProj (V (Proc.devRef (τ := τ) .tc main_v25)) (V (Proc.devRef (τ := τ) .tc main_arg6)) (V (Proc.devRef (τ := τ) .tc main_arg7)) (V (Proc.devRef (τ := τ) .tc main_arg8)) (V (Proc.devRef (τ := τ) .tc main_arg9)) := by
  unfold seg4; seg_value
theorem seg4_v25 : after seg4 V (Proc.devRef (τ := τ) .tc main_v25) = V (Proc.devRef (τ := τ) .tc main_v25) := by
  unfold seg4; after_results_simp
theorem seg4_arg0 : after seg4 V (Proc.devRef (τ := τ) .tc main_arg0) = V (Proc.devRef (τ := τ) .tc main_arg0) := by
  unfold seg4; after_results_simp
theorem seg4_arg1 : after seg4 V (Proc.devRef (τ := τ) .tc main_arg1) = V (Proc.devRef (τ := τ) .tc main_arg1) := by
  unfold seg4; after_results_simp
theorem seg4_arg2 : after seg4 V (Proc.devRef (τ := τ) .tc main_arg2) = V (Proc.devRef (τ := τ) .tc main_arg2) := by
  unfold seg4; after_results_simp
theorem seg4_arg3 : after seg4 V (Proc.devRef (τ := τ) .tc main_arg3) = V (Proc.devRef (τ := τ) .tc main_arg3) := by
  unfold seg4; after_results_simp
theorem seg4_arg4 : after seg4 V (Proc.devRef (τ := τ) .tc main_arg4) = V (Proc.devRef (τ := τ) .tc main_arg4) := by
  unfold seg4; after_results_simp
theorem seg4_arg5 : after seg4 V (Proc.devRef (τ := τ) .tc main_arg5) = V (Proc.devRef (τ := τ) .tc main_arg5) := by
  unfold seg4; after_results_simp
theorem seg4_arg6 : after seg4 V (Proc.devRef (τ := τ) .tc main_arg6) = V (Proc.devRef (τ := τ) .tc main_arg6) := by
  unfold seg4; after_results_simp
theorem seg4_arg7 : after seg4 V (Proc.devRef (τ := τ) .tc main_arg7) = V (Proc.devRef (τ := τ) .tc main_arg7) := by
  unfold seg4; after_results_simp
theorem seg4_arg8 : after seg4 V (Proc.devRef (τ := τ) .tc main_arg8) = V (Proc.devRef (τ := τ) .tc main_arg8) := by
  unfold seg4; after_results_simp
theorem seg4_arg9 : after seg4 V (Proc.devRef (τ := τ) .tc main_arg9) = V (Proc.devRef (τ := τ) .tc main_arg9) := by
  unfold seg4; after_results_simp

/-! ### The whole line -/

theorem ops_v25 : after ops V (Proc.devRef (τ := τ) .tc main_v25) = tZn (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) := by
  rw [ops, after_app, after_app, after_app, seg4_v25, seg3_v25, seg2_v6, seg2_v9, seg2_v10, seg2_arg4, seg2_arg5, seg1_v6, seg1_arg4, seg1_arg5]

theorem ops_v34 : after ops V (Proc.devRef (τ := τ) .tc main_v34)
    = tProj (tZn (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5))) (V (Proc.devRef (τ := τ) .tc main_arg6)) (V (Proc.devRef (τ := τ) .tc main_arg7)) (V (Proc.devRef (τ := τ) .tc main_arg8)) (V (Proc.devRef (τ := τ) .tc main_arg9)) := by
  rw [ops, after_app, after_app, after_app, seg4_v34, seg3_v25, seg3_arg6, seg3_arg7, seg3_arg8, seg3_arg9, seg2_v6, seg2_v9, seg2_v10,
    seg2_arg4, seg2_arg5, seg2_arg6, seg2_arg7, seg2_arg8, seg2_arg9, seg1_v6, seg1_arg4, seg1_arg5, seg1_arg6, seg1_arg7, seg1_arg8, seg1_arg9]

theorem ops_arg0 : after ops V (Proc.devRef (τ := τ) .tc main_arg0) = V (Proc.devRef (τ := τ) .tc main_arg0) := by
  rw [ops, after_app, after_app, after_app, seg4_arg0, seg3_arg0, seg2_arg0, seg1_arg0]
theorem ops_arg1 : after ops V (Proc.devRef (τ := τ) .tc main_arg1) = V (Proc.devRef (τ := τ) .tc main_arg1) := by
  rw [ops, after_app, after_app, after_app, seg4_arg1, seg3_arg1, seg2_arg1, seg1_arg1]
theorem ops_arg2 : after ops V (Proc.devRef (τ := τ) .tc main_arg2) = V (Proc.devRef (τ := τ) .tc main_arg2) := by
  rw [ops, after_app, after_app, after_app, seg4_arg2, seg3_arg2, seg2_arg2, seg1_arg2]
theorem ops_arg3 : after ops V (Proc.devRef (τ := τ) .tc main_arg3) = V (Proc.devRef (τ := τ) .tc main_arg3) := by
  rw [ops, after_app, after_app, after_app, seg4_arg3, seg3_arg3, seg2_arg3, seg1_arg3]
theorem ops_arg4 : after ops V (Proc.devRef (τ := τ) .tc main_arg4) = V (Proc.devRef (τ := τ) .tc main_arg4) := by
  rw [ops, after_app, after_app, after_app, seg4_arg4, seg3_arg4, seg2_arg4, seg1_arg4]
theorem ops_arg5 : after ops V (Proc.devRef (τ := τ) .tc main_arg5) = V (Proc.devRef (τ := τ) .tc main_arg5) := by
  rw [ops, after_app, after_app, after_app, seg4_arg5, seg3_arg5, seg2_arg5, seg1_arg5]
theorem ops_arg6 : after ops V (Proc.devRef (τ := τ) .tc main_arg6) = V (Proc.devRef (τ := τ) .tc main_arg6) := by
  rw [ops, after_app, after_app, after_app, seg4_arg6, seg3_arg6, seg2_arg6, seg1_arg6]
theorem ops_arg7 : after ops V (Proc.devRef (τ := τ) .tc main_arg7) = V (Proc.devRef (τ := τ) .tc main_arg7) := by
  rw [ops, after_app, after_app, after_app, seg4_arg7, seg3_arg7, seg2_arg7, seg1_arg7]
theorem ops_arg8 : after ops V (Proc.devRef (τ := τ) .tc main_arg8) = V (Proc.devRef (τ := τ) .tc main_arg8) := by
  rw [ops, after_app, after_app, after_app, seg4_arg8, seg3_arg8, seg2_arg8, seg1_arg8]
theorem ops_arg9 : after ops V (Proc.devRef (τ := τ) .tc main_arg9) = V (Proc.devRef (τ := τ) .tc main_arg9) := by
  rw [ops, after_app, after_app, after_app, seg4_arg9, seg3_arg9, seg2_arg9, seg1_arg9]

end Stretches

/-! ## The run -/

theorem scopedRefs_eq : (Finset.univ.filter fun b : Ref sig .tc => b.isScoped) = ∅ := by decide
theorem scopedSems_eq : (Finset.univ.filter fun sm : SemLoc sig => sm.isScoped .tc) = ∅ := by decide

theorem seg1_sub : (seg1 : List (HloOp τ sig (Elt F))).Forall fun op => op.bufs ⊆ tcRefs τ sig := by
  unfold seg1
  simp only [List.Forall, nullary_bufs_sub, unary_bufs_sub, binary_bufs_sub, ternary_bufs_sub, and_self]
theorem seg1_fresh : ∀ op ∈ (seg1 : List (HloOp τ sig (Elt F))), op.fresh = ∅ := by
  unfold seg1
  intro _ h; (repeat (cases h with | head => rfl | tail _ h => ?_)); exact nomatch h
theorem seg2_sub : (seg2 : List (HloOp τ sig (Elt F))).Forall fun op => op.bufs ⊆ tcRefs τ sig := by
  unfold seg2
  simp only [List.Forall, nullary_bufs_sub, unary_bufs_sub, binary_bufs_sub, ternary_bufs_sub, and_self]
theorem seg2_fresh : ∀ op ∈ (seg2 : List (HloOp τ sig (Elt F))), op.fresh = ∅ := by
  unfold seg2
  intro _ h; (repeat (cases h with | head => rfl | tail _ h => ?_)); exact nomatch h
theorem seg3_sub : (seg3 : List (HloOp τ sig (Elt F))).Forall fun op => op.bufs ⊆ tcRefs τ sig := by
  unfold seg3
  simp only [List.Forall, nullary_bufs_sub, unary_bufs_sub, binary_bufs_sub, ternary_bufs_sub, and_self]
theorem seg3_fresh : ∀ op ∈ (seg3 : List (HloOp τ sig (Elt F))), op.fresh = ∅ := by
  unfold seg3
  intro _ h; (repeat (cases h with | head => rfl | tail _ h => ?_)); exact nomatch h
theorem seg4_sub : (seg4 : List (HloOp τ sig (Elt F))).Forall fun op => op.bufs ⊆ tcRefs τ sig := by
  unfold seg4
  simp only [List.Forall, nullary_bufs_sub, unary_bufs_sub, binary_bufs_sub, ternary_bufs_sub, and_self]
theorem seg4_fresh : ∀ op ∈ (seg4 : List (HloOp τ sig (Elt F))), op.fresh = ∅ := by
  unfold seg4
  intro _ h; (repeat (cases h with | head => rfl | tail _ h => ?_)); exact nomatch h

theorem ops_sub : (ops : List (HloOp τ sig (Elt F))).Forall fun op => op.bufs ⊆ tcRefs τ sig := by
  simp only [ops, List.forall_append]
  exact ⟨seg1_sub, seg2_sub, seg3_sub, seg4_sub⟩

theorem ops_fresh : ∀ op ∈ (ops : List (HloOp τ sig (Elt F))), op.fresh = ∅ := by
  intro op h
  simp only [ops, List.mem_append] at h
  rcases h with h | h | h | h
  · exact seg1_fresh op h
  · exact seg2_fresh op h
  · exact seg3_fresh op h
  · exact seg4_fresh op h

/-- On every device, for any float values, from any memory with zero counters: every weakly fair execution of @main
    terminates with the two results at the operations' composed terms of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = tZn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v34) = tProj (tZn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v25).trans (ops_v25 _), (h c main_v34).trans (ops_v34 _),
      (h c main_arg0).trans (ops_arg0 _),
      (h c main_arg1).trans (ops_arg1 _),
      (h c main_arg2).trans (ops_arg2 _),
      (h c main_arg3).trans (ops_arg3 _),
      (h c main_arg4).trans (ops_arg4 _),
      (h c main_arg5).trans (ops_arg5 _),
      (h c main_arg6).trans (ops_arg6 _),
      (h c main_arg7).trans (ops_arg7 _),
      (h c main_arg8).trans (ops_arg8 _),
      (h c main_arg9).trans (ops_arg9 _)⟩)
    (run_seq scopedRefs_eq scopedSems_eq defs main (fun _ => ops) main_eq (fun _ => ops_sub) m ρ (fun _ => ops_fresh))

end Cert.ReferenceIdeal.RefRun

end
-- ==== Proof.RefValue.lean ====
/-
  The reference computes the specification, at the ideal values (floats the extended reals, every operation exact).
  Each stage of the reference's composed pure term is read at an index:
    * dot_general contracting columns with rows is the plain sum over k of the products (the one-axis contraction
      index re-indexed to Fin K);
    * the host's sum over the rows from the zero word is the plain column sum;
    * a vector repeated over the rows reads the vector at the column, a scalar repeated reads the scalar;
    * the host's quotient and root are the extended reals' own.
  In the variance the divisor is the row count minus the integer 0 converted, which is the row count; it is
  positive (the float word 0x461C4000 is the real 10000), so the select keeps the quotient and never the NaN word.
  No property of the inputs is used: every step rewrites identical sums.
-/
import proofs.«151931_g16346645529038_cont_7to1_1029_4_alg».proof.Proof.RefRun
import proofs.«151931_g16346645529038_cont_7to1_1029_4_alg».proof.Proof.Spec
import Idealize.ShloMosaic.PureOps.Ideal.Laws
import Idealize.ShloMosaic.Lib.ValueIdx
import Idealize.ShloMosaic.Lib.IdealHost

noncomputable section

namespace Cert.ReferenceIdeal.RefValue

open Cert.ReferenceIdeal Cert.ReferenceIdeal.Gen Cert.ReferenceIdeal.RefRun Idealize.ShloMosaic Idealize.ShloMosaic.TcCoe Idealize.SL.Sem
open Idealize.ShloMosaic.StableHlo Idealize.ShloMosaic.ValueIdx
open scoped BigOperators

/-! ## The layout operations at an index -/

/-- A vector repeated over the rows (first as a one-row matrix, then down the rows) reads the vector at the column. -/
theorem rows_apply (b : S32.Idx → EReal) (i : S10000x32.Idx) :
    broadcastInDim S10000x32 ![0, 1] bcast_S1x32_S10000x32_0_1 (broadcastInDim S1x32 ![1] bcast_S32_S1x32_1 b) i = b (ix1 (i 1)) := by
  unfold broadcastInDim
  refine congrArg b (funext fun a => ?_)
  match a with
  | ⟨0, _⟩ => exact Fin.ext rfl

/-- The plain matrix product: dot_general contracting the left operand's columns with the right operand's rows. -/
theorem dot_apply {R K C : Nat} (wf : DotDims.WF ⟨2, ![R, K]⟩ ⟨2, ![K, C]⟩ ⟨2, ![R, C]⟩ [1] [0] [0] [1] [] [])
    (X : Spec.Mat R K) (W : Spec.Mat K C) (i : (⟨2, ![R, C]⟩ : Shape).Idx) :
    Host.dotGeneral (F := Ideal) (φ₁ := .f32) (φ₂ := .f32) (⟨[1], [0], [0], [1], [], [], wf⟩ : DotDims ⟨2, ![R, K]⟩ ⟨2, ![K, C]⟩ ⟨2, ![R, C]⟩) none X W i
      = Spec.prod X W i := by
  unfold Host.dotGeneral
  rw [Ideal.dotGeneral_apply]
  unfold Spec.prod
  rw [← (contrEquiv1 (⟨[1], [0], [0], [1], [], [], wf⟩ : DotDims ⟨2, ![R, K]⟩ ⟨2, ![K, C]⟩ ⟨2, ![R, C]⟩) K rfl rfl).symm.sum_comp]
  refine Finset.sum_congr rfl fun k _ => ?_
  congr 2
  · funext a; match a with
    | ⟨0, _⟩ => exact Fin.ext rfl
    | ⟨1, _⟩ => exact Fin.ext rfl
  · funext a; match a with
    | ⟨0, _⟩ => exact Fin.ext rfl
    | ⟨1, _⟩ => exact Fin.ext rfl

/-- A scalar constant repeated everywhere reads the constant's value. -/
theorem splat_apply {T : Shape} (h : S_.BroadcastsInDim T ![]) (w : BitVec 32) (j : T.Idx) :
    broadcastInDim T ![] h (constant (F := Ideal) S_ .f32 w) j = Ideal.ofBits .f32 w := by
  rw [broadcastInDim_scalar_apply]; rfl

/-- The host's sum over the rows (from the zero word) at a column is the plain sum of that column. -/
theorem colsum_apply (Z : Spec.Mat 10000 32) (j : S32.Idx) :
    Host.reduceAdd (F := Ideal) (φ := .f32) Z (constant (F := Ideal) S_ .f32 0x00000000#32) reducesTo_S10000x32_S32_d0 h_S_ j
      = ∑ r : Fin 10000, Z (ix2 r (j 0)) := by
  rw [hostReduceAdd_apply, Ideal.hostReduceAdd_single reducesTo_S10000x32_S32_d0 (by decide : S10000x32.Reduces [0] S32),
    constant_apply, Ideal.ofBits_zero_f32, zero_add]
  refine Finset.sum_congr rfl fun r _ => congrArg Z (funext fun a => ?_)
  match a with
  | ⟨0, _⟩ => exact Fin.ext rfl
  | ⟨1, _⟩ => exact Fin.ext rfl

/-! ## The row count -/

/-- The float word 0x461C4000 is the real 10000. -/
theorem nRows_val : Spec.nRows = ((10000 : ℝ) : EReal) := by
  simp [Spec.nRows, Ideal.ofBits, Ideal.ieee, -EReal.coe_mul]; norm_num

/-- The variance's divisor, the row count minus the integer 0 converted, is the row count. -/
theorem cnt_apply (j : S_.Idx) : tCnt (F := Ideal) j = Spec.nRows := by
  show Ideal.ofBits .f32 0x461C4000#32 - (((0#32 : BitVec 32).toInt : ℝ) : EReal) = Spec.nRows
  simp [Spec.nRows]

/-- The divisor is positive, so the select keeps the quotient. -/
theorem cnt_pos (j : S_.Idx) : cmpf (F := Ideal) .ogt (tCnt (F := Ideal)) (constant (F := Ideal) S_ .f32 0x00000000#32) j = 1#1 := by
  rw [cmpf_apply, cnt_apply, constant_apply, Ideal.ofBits_zero_f32, Ideal.cmpf_def, nRows_val]
  unfold Ideal.cmp
  simp

/-- A vector as a one-row matrix reads the vector at the column. -/
theorem row_apply (b : S32.Idx → EReal) (i : S1x32.Idx) :
    broadcastInDim S1x32 ![1] bcast_S32_S1x32_1 b i = b (ix1 (i 1)) := by
  unfold broadcastInDim
  refine congrArg b (funext fun a => ?_)
  match a with
  | ⟨0, _⟩ => exact Fin.ext rfl

/-- A one-row matrix repeated down the rows reads the row at the column. -/
theorem down_apply (y : S1x32.Idx → EReal) (i : S10000x32.Idx) :
    broadcastInDim S10000x32 ![0, 1] bcast_S1x32_S10000x32_0_1 y i = y (ix2 0 (i 1)) := by
  unfold broadcastInDim
  refine congrArg y (funext fun a => ?_)
  match a with
  | ⟨0, _⟩ => exact Fin.ext rfl
  | ⟨1, _⟩ => exact Fin.ext rfl

theorem hostSqrt_apply {s : Shape} (x : FVec Ideal s .f32) (i : s.Idx) : Host.sqrt x i = Ideal.sqrt (x i) := rfl

/-! ## The three products of the program -/

theorem dot1_eq (X : Spec.Mat 10000 128) (W : Spec.Mat 128 32) :
    Host.dotGeneral (F := Ideal) (φ₁ := .f32) (φ₂ := .f32) dot_S10000x128_S128x32_S10000x32_1_0_0_1_n_n none X W = Spec.prod X W :=
  funext fun i => dot_apply _ X W i
theorem dot2_eq (X : Spec.Mat 10000 10000) (W : Spec.Mat 10000 32) :
    Host.dotGeneral (F := Ideal) (φ₁ := .f32) (φ₂ := .f32) dot_S10000x10000_S10000x32_S10000x32_1_0_0_1_n_n none X W = Spec.prod X W :=
  funext fun i => dot_apply _ X W i
theorem dot3_eq (X : Spec.Mat 10000 32) (W : Spec.Mat 32 32) :
    Host.dotGeneral (F := Ideal) (φ₁ := .f32) (φ₂ := .f32) dot_S10000x32_S32x32_S10000x32_1_0_0_1_n_n none X W = Spec.prod X W :=
  funext fun i => dot_apply _ X W i

/-! ## The stages -/

/-- Bias over the rows, then the rectifier against the zero splat. -/
theorem relu_bias_eq (D : Spec.Mat 10000 32) (b : Spec.Vc 32) :
    maximumf (F := Ideal) (φ := .f32) (addf D (broadcastInDim S10000x32 ![0, 1] bcast_S1x32_S10000x32_0_1 (broadcastInDim S1x32 ![1] bcast_S32_S1x32_1 b))) (broadcastInDim S10000x32 ![] bcast_S_S10000x32 (constant (F := Ideal) S_ .f32 0x00000000#32)) = fun i => max (D i + b (ix1 (i 1))) 0 := by
  funext i
  rw [maximumf_apply, addf_apply, rows_apply, splat_apply, Ideal.ofBits_zero_f32]

theorem tFeat_eq (x : Spec.Mat 10000 128) (a : Spec.Mat 10000 10000) (w1 : Spec.Mat 128 32) (b1 : Spec.Vc 32) :
    tFeat (F := Ideal) x a w1 b1 = Spec.feat x a w1 b1 := by
  unfold tFeat
  rw [relu_bias_eq, dot1_eq, dot2_eq, dot2_eq]
  rfl

theorem tMean_apply (z : Spec.Mat 10000 32) (j : S32.Idx) : tMean (F := Ideal) z j = Spec.colMean z (j 0) := by
  unfold tMean
  rw [hostDivf_apply, colsum_apply, splat_apply]
  rfl

theorem tMeanRow_apply (z : Spec.Mat 10000 32) (i : S1x32.Idx) : tMeanRow (F := Ideal) z i = Spec.colMean z (i 1) := by
  unfold tMeanRow
  rw [hostDivf_apply, row_apply, colsum_apply, splat_apply]
  rfl

theorem tDev_apply (z : Spec.Mat 10000 32) (i : S10000x32.Idx) : tDev (F := Ideal) z i = z i - Spec.colMean z (i 1) := by
  unfold tDev
  rw [subf_apply, down_apply, tMeanRow_apply]

theorem tVar_apply (z : Spec.Mat 10000 32) (j : S32.Idx) : tVar (F := Ideal) z j = Spec.colVar z (j 0) := by
  unfold tVar
  rw [select_apply, broadcastInDim_scalar_apply, cnt_pos, select_one, hostDivf_apply, colsum_apply,
    broadcastInDim_scalar_apply, cnt_apply]
  unfold Spec.colVar
  refine congrArg (fun s => Ideal.div s Spec.nRows) (Finset.sum_congr rfl fun r _ => ?_)
  rw [mulf_apply, tDev_apply]

theorem tNorm_eq (z : Spec.Mat 10000 32) (g be : Spec.Vc 32) :
    tNorm (F := Ideal) z (tMean z) (tVar z) g be = Spec.norm z g be := by
  funext i
  unfold tNorm
  rw [addf_apply, mulf_apply, hostDivf_apply, subf_apply, rows_apply, rows_apply, rows_apply, rows_apply, hostSqrt_apply,
    addf_apply, splat_apply, tMean_apply, tVar_apply]
  rfl

theorem tZn_eq (x : Spec.Mat 10000 128) (a : Spec.Mat 10000 10000) (w1 : Spec.Mat 128 32) (b1 g be : Spec.Vc 32) :
    tZn (F := Ideal) x a w1 b1 g be = Spec.zn x a w1 b1 g be := by
  unfold tZn
  rw [tFeat_eq, tNorm_eq]
  rfl

theorem tProj_eq (zn : Spec.Mat 10000 32) (wp1 : Spec.Mat 32 32) (bp1 : Spec.Vc 32) (wp2 : Spec.Mat 32 32) (bp2 : Spec.Vc 32) :
    tProj (F := Ideal) zn wp1 bp1 wp2 bp2 = Spec.affine (Spec.dense zn wp1 bp1) wp2 bp2 := by
  unfold tProj
  rw [relu_bias_eq, dot3_eq, dot3_eq]
  funext i
  rw [addf_apply, rows_apply]
  rfl

/-! ## The reference computes the specification -/

/-- At the ideal values, from any memory with zero counters: every weakly fair execution of the reference terminates
    with its two results the specification's zn and proj of the ten arguments, and the arguments unchanged. -/
theorem ref_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc main_v25)
            = Cert.Spec.zn (m ((c.tc : Thread Cert.ReferenceIdeal.nD Cert.ReferenceIdeal.τ).loc main_arg0)) (m ((c.tc : Thread Cert.ReferenceIdeal.nD Cert.ReferenceIdeal.τ).loc main_arg1)) (m ((c.tc : Thread Cert.ReferenceIdeal.nD Cert.ReferenceIdeal.τ).loc main_arg2)) (m ((c.tc : Thread Cert.ReferenceIdeal.nD Cert.ReferenceIdeal.τ).loc main_arg3)) (m ((c.tc : Thread Cert.ReferenceIdeal.nD Cert.ReferenceIdeal.τ).loc main_arg4)) (m ((c.tc : Thread Cert.ReferenceIdeal.nD Cert.ReferenceIdeal.τ).loc main_arg5))
        ∧ r.2.mem ((c.tc : Thread Cert.ReferenceIdeal.nD Cert.ReferenceIdeal.τ).loc main_v34)
            = Cert.Spec.proj (m ((c.tc : Thread Cert.ReferenceIdeal.nD Cert.ReferenceIdeal.τ).loc main_arg0)) (m ((c.tc : Thread Cert.ReferenceIdeal.nD Cert.ReferenceIdeal.τ).loc main_arg1)) (m ((c.tc : Thread Cert.ReferenceIdeal.nD Cert.ReferenceIdeal.τ).loc main_arg2)) (m ((c.tc : Thread Cert.ReferenceIdeal.nD Cert.ReferenceIdeal.τ).loc main_arg3)) (m ((c.tc : Thread Cert.ReferenceIdeal.nD Cert.ReferenceIdeal.τ).loc main_arg4)) (m ((c.tc : Thread Cert.ReferenceIdeal.nD Cert.ReferenceIdeal.τ).loc main_arg5)) (m ((c.tc : Thread Cert.ReferenceIdeal.nD Cert.ReferenceIdeal.τ).loc main_arg6)) (m ((c.tc : Thread Cert.ReferenceIdeal.nD Cert.ReferenceIdeal.τ).loc main_arg7)) (m ((c.tc : Thread Cert.ReferenceIdeal.nD Cert.ReferenceIdeal.τ).loc main_arg8)) (m ((c.tc : Thread Cert.ReferenceIdeal.nD Cert.ReferenceIdeal.τ).loc main_arg9))
        ∧ r.2.mem ((c.tc : Thread Cert.ReferenceIdeal.nD Cert.ReferenceIdeal.τ).loc main_arg0) = m ((c.tc : Thread Cert.ReferenceIdeal.nD Cert.ReferenceIdeal.τ).loc main_arg0)
        ∧ r.2.mem ((c.tc : Thread Cert.ReferenceIdeal.nD Cert.ReferenceIdeal.τ).loc main_arg1) = m ((c.tc : Thread Cert.ReferenceIdeal.nD Cert.ReferenceIdeal.τ).loc main_arg1)
        ∧ r.2.mem ((c.tc : Thread Cert.ReferenceIdeal.nD Cert.ReferenceIdeal.τ).loc main_arg2) = m ((c.tc : Thread Cert.ReferenceIdeal.nD Cert.ReferenceIdeal.τ).loc main_arg2)
        ∧ r.2.mem ((c.tc : Thread Cert.ReferenceIdeal.nD Cert.ReferenceIdeal.τ).loc main_arg3) = m ((c.tc : Thread Cert.ReferenceIdeal.nD Cert.ReferenceIdeal.τ).loc main_arg3)
        ∧ r.2.mem ((c.tc : Thread Cert.ReferenceIdeal.nD Cert.ReferenceIdeal.τ).loc main_arg4) = m ((c.tc : Thread Cert.ReferenceIdeal.nD Cert.ReferenceIdeal.τ).loc main_arg4)
        ∧ r.2.mem ((c.tc : Thread Cert.ReferenceIdeal.nD Cert.ReferenceIdeal.τ).loc main_arg5) = m ((c.tc : Thread Cert.ReferenceIdeal.nD Cert.ReferenceIdeal.τ).loc main_arg5)
        ∧ r.2.mem ((c.tc : Thread Cert.ReferenceIdeal.nD Cert.ReferenceIdeal.τ).loc main_arg6) = m ((c.tc : Thread Cert.ReferenceIdeal.nD Cert.ReferenceIdeal.τ).loc main_arg6)
        ∧ r.2.mem ((c.tc : Thread Cert.ReferenceIdeal.nD Cert.ReferenceIdeal.τ).loc main_arg7) = m ((c.tc : Thread Cert.ReferenceIdeal.nD Cert.ReferenceIdeal.τ).loc main_arg7)
        ∧ r.2.mem ((c.tc : Thread Cert.ReferenceIdeal.nD Cert.ReferenceIdeal.τ).loc main_arg8) = m ((c.tc : Thread Cert.ReferenceIdeal.nD Cert.ReferenceIdeal.τ).loc main_arg8)
        ∧ r.2.mem ((c.tc : Thread Cert.ReferenceIdeal.nD Cert.ReferenceIdeal.τ).loc main_arg9) = m ((c.tc : Thread Cert.ReferenceIdeal.nD Cert.ReferenceIdeal.τ).loc main_arg9)) :=
  (θ_run _ _ _).mono (fun _ h c => by
    obtain ⟨h25, h34, hargs⟩ := h c
    refine ⟨h25.trans (tZn_eq _ _ _ _ _ _), h34.trans ?_, hargs⟩
    rw [tZn_eq, tProj_eq]
    rfl) (RefRun.run (F := Ideal) m g)

end Cert.ReferenceIdeal.RefValue

end
-- ==== Proof.lean ====
/-
  A fused graph-convolution kernel against its plain reference, over the extended reals.

  Both programs compute, from node features x, a dense adjacency a and the layer parameters: a dense layer with
  rectifier z1 = max (x·W1 + b1) 0, two propagations z2 = a·z1 and z3 = a·z2, a normalisation of z3 over the 10000 rows
  (mean and biased variance per column, each a sum divided by the float 1.0e4; the regulariser a float both spell) with
  scale gamma and shift beta, and a two-layer projection head; the results are the normalised features and the head's
  output (proof/Proof/Spec.lean states them index by index).

  The kernel is one pipelined call over 101 grid points that keeps z1, z2, z3 in three scratch buffers: point 0 stores
  z1, points 0..49 each store 200 rows of z2 (the product of the point's 200 adjacency rows with z1), points 50..99
  each 200 rows of z3, and point 100 normalises z3 and applies the head into the two output blocks.  Its frame and
  its value come from one run: an invariant on the scratch buffers' contents — after n points the first is z1, the
  first 200·min(n, 50) rows of the second are z2's, the first 200·(min(n, 100) − 50) rows of the third are z3's —
  which every point's body preserves; at the last point the third scratch is z3 on every row.  At the ideal instance
  a matrix unit's product into a zero accumulator and the host's dot_general are the same sum over the contracted
  index, a lane reduction and the host's reduce the same sum, and a change of layout the identity on values, so every
  stage of the kernel is the specification's stage; the reference's 64 host operations, read one at a time, are the
  same stages.  No law of the extended reals beyond these identities of sums is used, so the inputs' finiteness is
  never opened.  The idealisation rewrote nothing, so its preservation claim is trivial.
-/
import proofs.«151931_g16346645529038_cont_7to1_1029_4_alg».proof.Defs
import proofs.«151931_g16346645529038_cont_7to1_1029_4_alg».proof.Proof.Gen.Kernel
import proofs.«151931_g16346645529038_cont_7to1_1029_4_alg».proof.Proof.Gen.KernelIdeal
import proofs.«151931_g16346645529038_cont_7to1_1029_4_alg».proof.Proof.Gen.ReferenceIdeal
import proofs.«151931_g16346645529038_cont_7to1_1029_4_alg».proof.Proof.Gen.Pre_finite_inputs
import proofs.«151931_g16346645529038_cont_7to1_1029_4_alg».proof.Proof.BMain
import proofs.«151931_g16346645529038_cont_7to1_1029_4_alg».proof.Proof.KMain
import proofs.«151931_g16346645529038_cont_7to1_1029_4_alg».proof.Proof.KerRun
import proofs.«151931_g16346645529038_cont_7to1_1029_4_alg».proof.Proof.RefValue
import Idealize.ShloMosaic.Adequacy
import Idealize.ShloMosaic.Init

noncomputable section

namespace Cert.Proof

open Idealize.ShloMosaic Idealize.SL.Sem

/-- The word-level kernel runs, faults nowhere and leaves its arguments unchanged. -/
theorem frame_k : Cert.frame_Kernel (hKernel := Cert.Kernel.Gen.facts) (hPre_finite_inputs := Cert.Pre_finite_inputs.Gen.facts) :=
  fun m ρ _ => Cert.Kernel.Body.frame (F := Bits) m ρ

/-- So does the kernel read at the ideal instance. -/
theorem frame_ki : Cert.frame_KernelIdeal (hKernelIdeal := Cert.KernelIdeal.Gen.facts) (hPre_finite_inputs := Cert.Pre_finite_inputs.Gen.facts) :=
  fun m ρ _ => Cert.KernelIdeal.Body.frame (F := Ideal) m ρ

/-- The reference's frame is its run with the results dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2.2)
    (Cert.ReferenceIdeal.RefValue.ref_run m ρ)

/-- From memories agreeing on the ten arguments both programs end with the specification's two functions of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.zn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Spec.proj (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.KerRun.kernel_run m ρ, ?_⟩
  refine (θ_run (Cert.ReferenceIdeal.defs (F := Ideal)) _ _).mono (fun r h c => ?_) (Cert.ReferenceIdeal.RefValue.ref_run m' ρ')
  obtain ⟨a0, a1, a2, a3, a4, a5, a6, a7, a8, a9⟩ := hagree c
  obtain ⟨h0, h1, hkept⟩ := h c
  refine ⟨h0.trans ?_, h1.trans ?_, hkept⟩
  · rw [a0, a1, a2, a3, a4, a5]
  · rw [a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
